-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256x32768 : Shape := ⟨2, ![256, 32768]⟩
abbrev S512x512 : Shape := ⟨2, ![512, 512]⟩
abbrev S198x128 : Shape := ⟨2, ![198, 128]⟩
abbrev S128 : Shape := ⟨1, ![128]⟩
abbrev S198x64 : Shape := ⟨2, ![198, 64]⟩
abbrev S64 : Shape := ⟨1, ![64]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x32768 : S_.BroadcastsInDim S256x32768 (![] : Fin 0 → Fin S256x32768.rank)
  reducesTo_S256x32768_S_d0_1 : S256x32768.ReducesTo [0, 1] S_
  bcast_S_S512x512 : S_.BroadcastsInDim S512x512 (![] : Fin 0 → Fin S512x512.rank)
  reducesTo_S512x512_S_d0_1 : S512x512.ReducesTo [0, 1] S_
  bcast_S_S198x128 : S_.BroadcastsInDim S198x128 (![] : Fin 0 → Fin S198x128.rank)
  reducesTo_S198x128_S_d0_1 : S198x128.ReducesTo [0, 1] S_
  bcast_S_S128 : S_.BroadcastsInDim S128 (![] : Fin 0 → Fin S128.rank)
  reducesTo_S128_S_d0 : S128.ReducesTo [0] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S198x64 .f32) (main_arg6 : FVec F S64 .f32) (main_v13 : IVec S_ 1) (main_v16 : IVec S198x128 1) : IVec S_ 1 :=
  let main_c_5 : IVec S_ 1 := constantI S_ 1 1#1
  let main_v17 : IVec S_ 1 := (fun x v => Host.reduce IntOp.andi x v reducesTo_S198x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S198x64 .f32 := Host.absf main_arg5
  let main_cst_8 : FVec F S_ .f32 := constant S_ .f32 0x7F800000#32
  let main_v25 : FVec F S198x64 .f32 := broadcastInDim S198x64 ![] bcast_S_S198x64 main_cst_8
  let main_v26 : IVec S198x64 1 := cmpf .olt main_v24 main_v25
  let main_c_9 : IVec S_ 1 := constantI S_ 1 1#1
  let main_v27 : IVec S_ 1 := (fun x v => Host.reduce IntOp.andi x v reducesTo_S198x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S256x1024 .f32) (main_arg1 : FVec F S256x32768 .f32) (main_arg2 : FVec F S512x512 .f32) (main_arg3 : FVec F S198x128 .f32) (main_arg4 : FVec F S128 .f32) (main_arg5 : FVec F S198x64 .f32) (main_arg6 : FVec F S64 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x32768 .f32 := Host.absf main_arg1
  let main_cst_0 : FVec F S_ .f32 := constant S_ .f32 0x7F800000#32
  let main_v5 : FVec F S256x32768 .f32 := broadcastInDim S256x32768 ![] bcast_S_S256x32768 main_cst_0
  let main_v6 : IVec S256x32768 1 := cmpf .olt main_v4 main_v5
  let main_c_1 : IVec S_ 1 := constantI S_ 1 1#1
  let main_v7 : IVec S_ 1 := (fun x v => Host.reduce IntOp.andi x v reducesTo_S256x32768_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S198x128 .f32 := Host.absf main_arg3
  let main_cst_4 : FVec F S_ .f32 := constant S_ .f32 0x7F800000#32
  let main_v15 : FVec F S198x128 .f32 := broadcastInDim S198x128 ![] bcast_S_S198x128 main_cst_4
  let main_v16 : IVec S198x128 1 := cmpf .olt main_v14 main_v15
  fn_part1 (F := F) main_arg4 main_arg5 main_arg6 main_v13 main_v16
-- ==== Kernel.lean ====
abbrev S256x1024 : Shape := ⟨2, ![256, 1024]⟩
abbrev S256x32768 : Shape := ⟨2, ![256, 32768]⟩
abbrev S512x512 : Shape := ⟨2, ![512, 512]⟩
abbrev S198x128 : Shape := ⟨2, ![198, 128]⟩
abbrev S128 : Shape := ⟨1, ![128]⟩
abbrev S198x64 : Shape := ⟨2, ![198, 64]⟩
abbrev S64 : Shape := ⟨1, ![64]⟩
abbrev S256x512x2 : Shape := ⟨3, ![256, 512, 2]⟩
abbrev S256x512x64 : Shape := ⟨3, ![256, 512, 64]⟩
abbrev S_ : Shape := ⟨0, ![]⟩
abbrev S512 : Shape := ⟨1, ![512]⟩
abbrev S512x1 : Shape := ⟨2, ![512, 1]⟩
abbrev S66x3x128 : Shape := ⟨3, ![66, 3, 128]⟩
abbrev S3x66x128 : Shape := ⟨3, ![3, 66, 128]⟩
abbrev S66x3x64 : Shape := ⟨3, ![66, 3, 64]⟩
abbrev S3x66x64 : Shape := ⟨3, ![3, 66, 64]⟩
abbrev S1x128 : Shape := ⟨2, ![1, 128]⟩
abbrev S1x64 : Shape := ⟨2, ![1, 64]⟩
abbrev S16x512x2 : Shape := ⟨3, ![16, 512, 2]⟩
abbrev S16x512x64 : Shape := ⟨3, ![16, 512, 64]⟩
abbrev S1x512x2 : Shape := ⟨3, ![1, 512, 2]⟩
abbrev S512x2 : Shape := ⟨2, ![512, 2]⟩
abbrev S1x512x64 : Shape := ⟨3, ![1, 512, 64]⟩
abbrev S512x64 : Shape := ⟨2, ![512, 64]⟩
abbrev S512x66 : Shape := ⟨2, ![512, 66]⟩
abbrev S512x198 : Shape := ⟨2, ![512, 198]⟩
abbrev S512x128 : Shape := ⟨2, ![512, 128]⟩

abbrev nBuf : Space → Nat
  | .hbm => 46
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S256x32768, .f32⟩
  | .hbm, ⟨2, _⟩ => ⟨S512x512, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S256x512x2, .f32⟩
  | .hbm, ⟨8, _⟩ => ⟨S256x512x64, .f32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .i1⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x1, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S66x3x128, .f32⟩
  | .hbm, ⟨35, _⟩ => ⟨S3x66x128, .f32⟩
  | .hbm, ⟨36, _⟩ => ⟨S198x128, .f32⟩
  | .hbm, ⟨37, _⟩ => ⟨S66x3x64, .f32⟩
  | .hbm, ⟨38, _⟩ => ⟨S3x66x64, .f32⟩
  | .hbm, ⟨39, _⟩ => ⟨S198x64, .f32⟩
  | .hbm, ⟨40, _⟩ => ⟨S198x128, .bf16⟩
  | .hbm, ⟨41, _⟩ => ⟨S198x64, .bf16⟩
  | .hbm, ⟨42, _⟩ => ⟨S1x128, .f32⟩
  | .hbm, ⟨43, _⟩ => ⟨S1x64, .f32⟩
  | .hbm, ⟨44, _⟩ => ⟨S256x512x64, .f32⟩
  | .hbm, ⟨45, _⟩ => ⟨S256x32768, .f32⟩
  | .local _ .vmem, ⟨0, _⟩ => ⟨S16x512x2, .f32⟩
  | .local _ .vmem, ⟨1, _⟩ => ⟨S16x512x2, .f32⟩
  | .local _ .vmem, ⟨2, _⟩ => ⟨S16x512x64, .f32⟩
  | .local _ .vmem, ⟨3, _⟩ => ⟨S16x512x64, .f32⟩
  | .local _ .vmem, ⟨4, _⟩ => ⟨S512x512, .bf16⟩
  | .local _ .vmem, ⟨5, _⟩ => ⟨S198x128, .bf16⟩
  | .local _ .vmem, ⟨6, _⟩ => ⟨S1x128, .f32⟩
  | .local _ .vmem, ⟨7, _⟩ => ⟨S198x64, .bf16⟩
  | .local _ .vmem, ⟨8, _⟩ => ⟨S1x64, .f32⟩
  | .local _ .vmem, ⟨9, _⟩ => ⟨S16x512x64, .f32⟩
  | .local _ .vmem, ⟨10, _⟩ => ⟨S16x512x64, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v11 : Index := Scalar.indexCast arg9
  let c0_10 : Index := 0#32
  let c0_11 : Index := 0#32
  ![v11.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v14 : Index := Scalar.indexCast arg9
  let c0_12 : Index := 0#32
  let c0_13 : Index := 0#32
  ![v14.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S198x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S198x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x1024_S256x512x2 : S256x1024.ShapeCasts S256x512x2
  shapeCasts_S256x32768_S256x512x64 : S256x32768.ShapeCasts S256x512x64
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  bitsLt_bf16_f32 : FTy.bits .bf16 < FTy.bits .f32
  shapeCasts_S198x128_S66x3x128 : S198x128.ShapeCasts S66x3x128
  transposes_S66x3x128_S3x66x128_1_0_2 : S66x3x128.Transposes [1, 0, 2] S3x66x128
  shapeCasts_S3x66x128_S198x128 : S3x66x128.ShapeCasts S198x128
  shapeCasts_S198x64_S66x3x64 : S198x64.ShapeCasts S66x3x64
  transposes_S66x3x64_S3x66x64_1_0_2 : S66x3x64.Transposes [1, 0, 2] S3x66x64
  shapeCasts_S3x66x64_S198x64 : S3x66x64.ShapeCasts S198x64
  shapeCasts_S128_S1x128 : S128.ShapeCasts S1x128
  shapeCasts_S64_S1x64 : S64.ShapeCasts S1x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S198x128_S198x128_0_0 : ∀ a, (![0, 0] : Fin 2 → Nat) a + S198x128.size a ≤ S198x128.size a
  h_S198x128 : 0 < S198x128.numel
  shapeCasts_S198x128_S198x128 : S198x128.ShapeCasts S198x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S198x64_S198x64_0_0 : ∀ a, (![0, 0] : Fin 2 → Nat) a + S198x64.size a ≤ S198x64.size a
  h_S198x64 : 0 < S198x64.numel
  shapeCasts_S198x64_S198x64 : S198x64.ShapeCasts S198x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S1x512x2 : 0 < S1x512x2.numel
  shapeCasts_S1x512x2_S512x2 : S1x512x2.ShapeCasts S512x2
  h_S1x512x64 : 0 < S1x512x64.numel
  shapeCasts_S1x512x64_S512x64 : S1x512x64.ShapeCasts S512x64
  concatenates_S512x2_S512x64_S512x66_d1 : Shape.Concatenates [S512x2, S512x64] S512x66 1
  concatenates_S512x66_S512x66_S512x66_S512x198_d1 : Shape.Concatenates [S512x66, S512x66, S512x66] S512x198 1
  broadcasts_S1x128_S512x128 : S1x128.Broadcasts S512x128
  slices_S512x128_o0_0_S512x64 : S512x128.Slices ![0, 0] S512x64
  slices_S512x128_o0_64_S512x64 : S512x128.Slices ![0, 64] S512x64
  broadcasts_S1x64_S512x64 : S1x64.Broadcasts S512x64
  shapeCasts_S512x64_S1x512x64 : S512x64.ShapeCasts S1x512x64
  shapeCasts_S256x512x64_S256x32768 : S256x512x64.ShapeCasts S256x32768
  dot_S512x512_S512x66_S512x66_1_0_0_1_n_n_wf : DotDims.WF S512x512 S512x66 S512x66 [1] [0] [0] [1] [] []
  dot_S512x198_S198x128_S512x128_1_0_0_1_n_n_wf : DotDims.WF S512x198 S198x128 S512x128 [1] [0] [0] [1] [] []
  dot_S512x198_S198x64_S512x64_1_0_0_1_n_n_wf : DotDims.WF S512x198 S198x64 S512x64 [1] [0] [0] [1] [] []
  hrank0 : 0 < grid0.rank
  k0_t1_ok : k0_t1_loop.OK
  k0_off1_inb : ∀ k0_t1 : Fin k0_t1_loop.trips, ∀ a, (k0_off1 k0_t1) a + S1x512x2.size a ≤ S16x512x2.size a
  k0_off2_inb : ∀ k0_t1 : Fin k0_t1_loop.trips, ∀ a, (k0_off2 k0_t1) a + S1x512x64.size a ≤ S16x512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x2.size a ≤ S256x512x2.size a
  hwx0_0 : ∀ i : grid0.Coords, EltTy.bits .f32 = 32 ∨ (Rect.block (s := S256x512x2) S16x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x64.size a ≤ S256x512x64.size a
  hwx0_1 : ∀ i : grid0.Coords, EltTy.bits .f32 = 32 ∨ (Rect.block (s := S256x512x64) S16x512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S198x128.size a ≤ S198x128.size a
  hwx0_3 : ∀ i : grid0.Coords, EltTy.bits .bf16 = 32 ∨ (Rect.block (s := S198x128) S198x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S198x64.size a ≤ S198x64.size a
  hwx0_5 : ∀ i : grid0.Coords, EltTy.bits .bf16 = 32 ∨ (Rect.block (s := S198x64) S198x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512x64.size a ≤ S256x512x64.size a
  hwx0_7 : ∀ i : grid0.Coords, EltTy.bits .f32 = 32 ∨ (Rect.block (s := S256x512x64) S16x512x64.size (cc0_transform_7 i) (hinb0_7 i)).WholeWords (EltTy.packing .f32)

variable [Facts₀]

def dot_S512x512_S512x66_S512x66_1_0_0_1_n_n : DotDims S512x512 S512x66 S512x66 where
  lhsContracting := [1]
  rhsContracting := [0]
  lhsNonContracting := [0]
  rhsNonContracting := [1]
  lhsBatch := []
  rhsBatch := []
  wf := dot_S512x512_S512x66_S512x66_1_0_0_1_n_n_wf
def dot_S512x198_S198x128_S512x128_1_0_0_1_n_n : DotDims S512x198 S198x128 S512x128 where
  lhsContracting := [1]
  rhsContracting := [0]
  lhsNonContracting := [0]
  rhsNonContracting := [1]
  lhsBatch := []
  rhsBatch := []
  wf := dot_S512x198_S198x128_S512x128_1_0_0_1_n_n_wf
def dot_S512x198_S198x64_S512x64_1_0_0_1_n_n : DotDims S512x198 S198x64 S512x64 where
  lhsContracting := [1]
  rhsContracting := [0]
  lhsNonContracting := [0]
  rhsNonContracting := [1]
  lhsBatch := []
  rhsBatch := []
  wf := dot_S512x198_S198x64_S512x64_1_0_0_1_n_n_wf

abbrev win0_0 : Pipeline.Window sig grid0 :=
  Pipeline.Window.ofSpec (Memref.whole main_v0) S16x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S198x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S198x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S16x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x1024 : Shape := ⟨2, ![256, 1024]⟩
abbrev S256x32768 : Shape := ⟨2, ![256, 32768]⟩
abbrev S512x512 : Shape := ⟨2, ![512, 512]⟩
abbrev S198x128 : Shape := ⟨2, ![198, 128]⟩
abbrev S128 : Shape := ⟨1, ![128]⟩
abbrev S198x64 : Shape := ⟨2, ![198, 64]⟩
abbrev S64 : Shape := ⟨1, ![64]⟩
abbrev S_ : Shape := ⟨0, ![]⟩
abbrev S512 : Shape := ⟨1, ![512]⟩
abbrev S512x1 : Shape := ⟨2, ![512, 1]⟩
abbrev S256x512x2 : Shape := ⟨3, ![256, 512, 2]⟩
abbrev S256x512x64 : Shape := ⟨3, ![256, 512, 64]⟩
abbrev S256x512x66 : Shape := ⟨3, ![256, 512, 66]⟩
abbrev S512x66x256 : Shape := ⟨3, ![512, 66, 256]⟩
abbrev S512x16896 : Shape := ⟨2, ![512, 16896]⟩
abbrev S1x512x16896 : Shape := ⟨3, ![1, 512, 16896]⟩
abbrev S3x512x16896 : Shape := ⟨3, ![3, 512, 16896]⟩
abbrev S3x512x66x256 : Shape := ⟨4, ![3, 512, 66, 256]⟩
abbrev S256x512x66x3 : Shape := ⟨4, ![256, 512, 66, 3]⟩
abbrev S131072x198 : Shape := ⟨2, ![131072, 198]⟩
abbrev S131072x128 : Shape := ⟨2, ![131072, 128]⟩
abbrev S1x128 : Shape := ⟨2, ![1, 128]⟩
abbrev S256x65536 : Shape := ⟨2, ![256, 65536]⟩
abbrev S256x512x128 : Shape := ⟨3, ![256, 512, 128]⟩
abbrev S131072x64 : Shape := ⟨2, ![131072, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x32768, .f32⟩
  | .hbm, ⟨2, _⟩ => ⟨S512x512, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .i1⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512x1, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S256x512x2, .f32⟩
  | .hbm, ⟨32, _⟩ => ⟨S256x512x64, .f32⟩
  | .hbm, ⟨33, _⟩ => ⟨S256x512x66, .f32⟩
  | .hbm, ⟨34, _⟩ => ⟨S512x66x256, .f32⟩
  | .hbm, ⟨35, _⟩ => ⟨S512x16896, .f32⟩
  | .hbm, ⟨36, _⟩ => ⟨S512x16896, .f32⟩
  | .hbm, ⟨37, _⟩ => ⟨S512x16896, .f32⟩
  | .hbm, ⟨38, _⟩ => ⟨S_, .f32⟩
  | .hbm, ⟨39, _⟩ => ⟨S512x16896, .f32⟩
  | .hbm, ⟨40, _⟩ => ⟨S512x16896, .f32⟩
  | .hbm, ⟨41, _⟩ => ⟨S512x16896, .f32⟩
  | .hbm, ⟨42, _⟩ => ⟨S1x512x16896, .f32⟩
  | .hbm, ⟨43, _⟩ => ⟨S1x512x16896, .f32⟩
  | .hbm, ⟨44, _⟩ => ⟨S1x512x16896, .f32⟩
  | .hbm, ⟨45, _⟩ => ⟨S3x512x16896, .f32⟩
  | .hbm, ⟨46, _⟩ => ⟨S3x512x66x256, .f32⟩
  | .hbm, ⟨47, _⟩ => ⟨S256x512x66x3, .f32⟩
  | .hbm, ⟨48, _⟩ => ⟨S131072x198, .f32⟩
  | .hbm, ⟨49, _⟩ => ⟨S131072x128, .f32⟩
  | .hbm, ⟨50, _⟩ => ⟨S1x128, .f32⟩
  | .hbm, ⟨51, _⟩ => ⟨S131072x128, .f32⟩
  | .hbm, ⟨52, _⟩ => ⟨S131072x128, .f32⟩
  | .hbm, ⟨53, _⟩ => ⟨S256x65536, .f32⟩
  | .hbm, ⟨54, _⟩ => ⟨S256x65536, .f32⟩
  | .hbm, ⟨55, _⟩ => ⟨S256x65536, .f32⟩
  | .hbm, ⟨56, _⟩ => ⟨S_, .f32⟩
  | .hbm, ⟨57, _⟩ => ⟨S256x65536, .f32⟩
  | .hbm, ⟨58, _⟩ => ⟨S256x65536, .f32⟩
  | .hbm, ⟨59, _⟩ => ⟨S_, .f32⟩
  | .hbm, ⟨60, _⟩ => ⟨S256x65536, .f32⟩
  | .hbm, ⟨61, _⟩ => ⟨S256x65536, .f32⟩
  | .hbm, ⟨62, _⟩ => ⟨S256x512x128, .f32⟩
  | .hbm, ⟨63, _⟩ => ⟨S256x512x64, .f32⟩
  | .hbm, ⟨64, _⟩ => ⟨S256x512x64, .f32⟩
  | .hbm, ⟨65, _⟩ => ⟨S256x32768, .f32⟩
  | .hbm, ⟨66, _⟩ => ⟨S256x512x64, .f32⟩
  | .hbm, ⟨67, _⟩ => ⟨S256x512x66, .f32⟩
  | .hbm, ⟨68, _⟩ => ⟨S512x66x256, .f32⟩
  | .hbm, ⟨69, _⟩ => ⟨S512x16896, .f32⟩
  | .hbm, ⟨70, _⟩ => ⟨S512x16896, .f32⟩
  | .hbm, ⟨71, _⟩ => ⟨S512x16896, .f32⟩
  | .hbm, ⟨72, _⟩ => ⟨S_, .f32⟩
  | .hbm, ⟨73, _⟩ => ⟨S512x16896, .f32⟩
  | .hbm, ⟨74, _⟩ => ⟨S512x16896, .f32⟩
  | .hbm, ⟨75, _⟩ => ⟨S512x16896, .f32⟩
  | .hbm, ⟨76, _⟩ => ⟨S1x512x16896, .f32⟩
  | .hbm, ⟨77, _⟩ => ⟨S1x512x16896, .f32⟩
  | .hbm, ⟨78, _⟩ => ⟨S1x512x16896, .f32⟩
  | .hbm, ⟨79, _⟩ => ⟨S3x512x16896, .f32⟩
  | .hbm, ⟨80, _⟩ => ⟨S3x512x66x256, .f32⟩
  | .hbm, ⟨81, _⟩ => ⟨S256x512x66x3, .f32⟩
  | .hbm, ⟨82, _⟩ => ⟨S131072x198, .f32⟩
  | .hbm, ⟨83, _⟩ => ⟨S131072x64, .f32⟩
  | .hbm, ⟨84, _⟩ => ⟨S1x64, .f32⟩
  | .hbm, ⟨85, _⟩ => ⟨S131072x64, .f32⟩
  | .hbm, ⟨86, _⟩ => ⟨S131072x64, .f32⟩
  | .hbm, ⟨87, _⟩ => ⟨S256x32768, .f32⟩
  | .hbm, ⟨88, _⟩ => ⟨S256x32768, .f32⟩
  | .hbm, ⟨89, _⟩ => ⟨S256x32768, .f32⟩
  | .hbm, ⟨90, _⟩ => ⟨S_, .f32⟩
  | .hbm, ⟨91, _⟩ => ⟨S256x32768, .f32⟩
  | .hbm, ⟨92, _⟩ => ⟨S256x32768, .f32⟩
  | .hbm, ⟨93, _⟩ => ⟨S256x32768, .f32⟩
  | .hbm, ⟨94, _⟩ => ⟨S256x32768, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  shapeCasts_S256x1024_S256x512x2 : S256x1024.ShapeCasts S256x512x2
  shapeCasts_S256x32768_S256x512x64 : S256x32768.ShapeCasts S256x512x64
  concatenates_S256x512x2_S256x512x64_S256x512x66_d2 : Shape.Concatenates [S256x512x2, S256x512x64] S256x512x66 2
  transposes_S256x512x66_S512x66x256_1_2_0 : S256x512x66.Transposes [1, 2, 0] S512x66x256
  shapeCasts_S512x66x256_S512x16896 : S512x66x256.ShapeCasts S512x16896
  bcast_S_S512x16896 : S_.BroadcastsInDim S512x16896 (![] : Fin 0 → Fin S512x16896.rank)
  bcast_S512x16896_S1x512x16896_1_2 : S512x16896.BroadcastsInDim S1x512x16896 (![1, 2] : Fin 2 → Fin S1x512x16896.rank)
  concatenates_S1x512x16896_S1x512x16896_S1x512x16896_S3x512x16896_d0 : Shape.Concatenates [S1x512x16896, S1x512x16896, S1x512x16896] S3x512x16896 0
  shapeCasts_S3x512x16896_S3x512x66x256 : S3x512x16896.ShapeCasts S3x512x66x256
  transposes_S3x512x66x256_S256x512x66x3_3_1_2_0 : S3x512x66x256.Transposes [3, 1, 2, 0] S256x512x66x3
  shapeCasts_S256x512x66x3_S131072x198 : S256x512x66x3.ShapeCasts S131072x198
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S256x65536 : S131072x128.ShapeCasts S256x65536
  bcast_S_S256x65536 : S_.BroadcastsInDim S256x65536 (![] : Fin 0 → Fin S256x65536.rank)
  shapeCasts_S256x65536_S256x512x128 : S256x65536.ShapeCasts S256x512x128
  slices_S256x512x128_S256x512x64_0_0_0 : S256x512x128.Slices ![0, 0, 0] S256x512x64
  slices_S256x512x128_S256x512x64_0_0_64 : S256x512x128.Slices ![0, 0, 64] S256x512x64
  shapeCasts_S256x512x64_S256x32768 : S256x512x64.ShapeCasts S256x32768
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S131072x64_S256x32768 : S131072x64.ShapeCasts S256x32768
  bcast_S_S256x32768 : S_.BroadcastsInDim S256x32768 (![] : Fin 0 → Fin S256x32768.rank)
  dot_S512x512_S512x16896_S512x16896_1_0_0_1_n_n_wf : DotDims.WF S512x512 S512x16896 S512x16896 [1] [0] [0] [1] [] []
  dot_S131072x198_S198x128_S131072x128_1_0_0_1_n_n_wf : DotDims.WF S131072x198 S198x128 S131072x128 [1] [0] [0] [1] [] []
  dot_S131072x198_S198x64_S131072x64_1_0_0_1_n_n_wf : DotDims.WF S131072x198 S198x64 S131072x64 [1] [0] [0] [1] [] []

variable [Facts₀]

def dot_S512x512_S512x16896_S512x16896_1_0_0_1_n_n : DotDims S512x512 S512x16896 S512x16896 where
  lhsContracting := [1]
  rhsContracting := [0]
  lhsNonContracting := [0]
  rhsNonContracting := [1]
  lhsBatch := []
  rhsBatch := []
  wf := dot_S512x512_S512x16896_S512x16896_1_0_0_1_n_n_wf
def dot_S131072x198_S198x128_S131072x128_1_0_0_1_n_n : DotDims S131072x198 S198x128 S131072x128 where
  lhsContracting := [1]
  rhsContracting := [0]
  lhsNonContracting := [0]
  rhsNonContracting := [1]
  lhsBatch := []
  rhsBatch := []
  wf := dot_S131072x198_S198x128_S131072x128_1_0_0_1_n_n_wf
def dot_S131072x198_S198x64_S131072x64_1_0_0_1_n_n : DotDims S131072x198 S198x64 S131072x64 where
  lhsContracting := [1]
  rhsContracting := [0]
  lhsNonContracting := [0]
  rhsNonContracting := [1]
  lhsBatch := []
  rhsBatch := []
  wf := dot_S131072x198_S198x64_S131072x64_1_0_0_1_n_n_wf

class Facts : Prop extends Facts₀ where

variable [Facts]
-- ==== Proof.LibAfterStep.lean ====
/-
  Reading a straight line of host operations one operation at a time.

  A line of operations in single-assignment form (each buffer written by one operation, every operand written before
  the operation that reads it) leaves in the buffer an operation writes the operation's function of what the line
  leaves in its operands.  "Written" is a list of references, one per operation, so that "no later operation writes r"
  is a membership test on a list of references.  The line is cut at the operation's position: the operations after it
  keep its result and its operands, and the operation itself computes the result from the contents before it.
-/
import Idealize.ShloMosaic.Lib.StableHlo.Run

noncomputable section

namespace AfterStep

open Idealize.ShloMosaic Idealize.ShloMosaic.StableHlo Idealize.ShloMosaic.TcCoe

variable {τ : Topo} {sig : RefSig} {Val : EltTy → Type}

/-- Operation by operation, the line writes at most the listed reference. -/
def Writes (ops : List (HloOp τ sig Val)) (Wl : List (Ref sig .tc)) : Prop :=
  List.Forall₂ (fun op r => op.writes ⊆ {(Proc.devRef .tc r : DevRef τ sig)}) ops Wl

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The tail of a line from position k writes only the listed references from position k on. -/
theorem Writes.drop {ops : List (HloOp τ sig Val)} {Wl : List (Ref sig .tc)} (h : Writes ops Wl) (k : Nat) :
    Writes (ops.drop k) (Wl.drop k) := by
  induction h generalizing k with
  | nil => rw [List.drop_nil, List.drop_nil]; exact List.Forall₂.nil
  | cons hab hrest ih =>
    cases k with
    | zero => exact List.Forall₂.cons hab hrest
    | succ k => exact ih k

/-- A reference no listed write names keeps its contents through the line. -/
theorem keep {ops : List (HloOp τ sig Val)} {Wl : List (Ref sig .tc)} (h : Writes ops Wl) (r : Ref sig .tc)
    (hr : r ∉ Wl) (V : Valuation τ sig Val) : after ops V (Proc.devRef .tc r) = V (Proc.devRef .tc r) := by
  induction h generalizing V with
  | nil => rfl
  | @cons op w ops' Wl' hab _ ih =>
    rw [after_cons, ih (fun hm => hr (List.mem_cons_of_mem _ hm))]
    refine op.result_of_not_mem V fun hm => hr ?_
    have := Finset.mem_singleton.mp (hab hm)
    rw [Proc.devRef_injective _ this]
    exact List.mem_cons_self

/-- The line cut at position k. -/
theorem after_cut (ops : List (HloOp τ sig Val)) (k : Nat) (op : HloOp τ sig Val) (hk : ops[k]? = some op)
    (V : Valuation τ sig Val) : after ops V = after (ops.drop (k + 1)) (op.result (after (ops.take k) V)) := by
  have hlt : k < ops.length := by
    rcases Nat.lt_or_ge k ops.length with h | h
    · exact h
    · rw [List.getElem?_eq_none h] at hk; cases hk
  have hop : ops[k] = op := by
    rw [List.getElem?_eq_getElem hlt] at hk; exact Option.some.inj hk
  conv_lhs => rw [← List.take_append_drop k ops, List.drop_eq_getElem_cons hlt, hop]
  rw [after_append, after_cons]

/-- What the line leaves in a reference written at position k and not after. -/
theorem written {ops : List (HloOp τ sig Val)} {Wl : List (Ref sig .tc)} (h : Writes ops Wl) (k : Nat)
    (op : HloOp τ sig Val) (hk : ops[k]? = some op) (y : Ref sig .tc) (hy : y ∉ Wl.drop (k + 1))
    (V : Valuation τ sig Val) :
    after ops V (Proc.devRef .tc y) = op.result (after (ops.take k) V) (Proc.devRef .tc y) := by
  rw [after_cut ops k op hk V, keep (h.drop (k + 1)) y hy]

/-- What the line leaves in a reference not written from position k on: what it held before position k. -/
theorem read {ops : List (HloOp τ sig Val)} {Wl : List (Ref sig .tc)} (h : Writes ops Wl) (k : Nat)
    (a : Ref sig .tc) (ha : a ∉ Wl.drop k) (V : Valuation τ sig Val) :
    after ops V (Proc.devRef .tc a) = after (ops.take k) V (Proc.devRef .tc a) := by
  conv_lhs => rw [← List.take_append_drop k ops]
  rw [after_append, keep (h.drop k) a ha]

variable {ops : List (HloOp τ sig Val)} {Wl : List (Ref sig .tc)}

theorem nullary_at (h : Writes ops Wl) (k : Nat) {y : Ref sig .tc} {v : y.ty.Contents Val} {hy}
    (hk : ops[k]? = some (nullary y v hy)) (h1 : y ∉ Wl.drop (k + 1)) (V : Valuation τ sig Val) :
    after ops V (Proc.devRef .tc y) = v := by
  rw [written h k _ hk y h1, nullary_result]

theorem unary_at (h : Writes ops Wl) (k : Nat) {x y : Ref sig .tc} {f : x.ty.Contents Val → y.ty.Contents Val} {hx hy}
    (hk : ops[k]? = some (unary x y f hx hy)) (h1 : y ∉ Wl.drop (k + 1)) (h2 : x ∉ Wl.drop k)
    (V : Valuation τ sig Val) :
    after ops V (Proc.devRef .tc y) = f (after ops V (Proc.devRef .tc x)) := by
  rw [written h k _ hk y h1, read h k x h2, unary_result]

theorem binary_at (h : Writes ops Wl) (k : Nat) {a b y : Ref sig .tc}
    {f : a.ty.Contents Val → b.ty.Contents Val → y.ty.Contents Val} {ha hb hy}
    (hk : ops[k]? = some (binary a b y f ha hb hy)) (h1 : y ∉ Wl.drop (k + 1)) (h2 : a ∉ Wl.drop k)
    (h3 : b ∉ Wl.drop k) (V : Valuation τ sig Val) :
    after ops V (Proc.devRef .tc y) = f (after ops V (Proc.devRef .tc a)) (after ops V (Proc.devRef .tc b)) := by
  rw [written h k _ hk y h1, read h k a h2, read h k b h3, binary_result]

theorem ternary_at (h : Writes ops Wl) (k : Nat) {c a b y : Ref sig .tc}
    {f : c.ty.Contents Val → a.ty.Contents Val → b.ty.Contents Val → y.ty.Contents Val} {hc ha hb hy}
    (hk : ops[k]? = some (ternary c a b y f hc ha hb hy)) (h1 : y ∉ Wl.drop (k + 1)) (h2 : c ∉ Wl.drop k)
    (h3 : a ∉ Wl.drop k) (h4 : b ∉ Wl.drop k) (V : Valuation τ sig Val) :
    after ops V (Proc.devRef .tc y)
      = f (after ops V (Proc.devRef .tc c)) (after ops V (Proc.devRef .tc a)) (after ops V (Proc.devRef .tc b)) := by
  rw [written h k _ hk y h1, read h k c h2, read h k a h3, read h k b h4, ternary_result]

theorem reshape_at (h : Writes ops Wl) (k : Nat) {x y : Ref sig .tc} {he : x.ty.elt = y.ty.elt}
    {hn : x.ty.shape.ShapeCasts y.ty.shape} {hx hy}
    (hk : ops[k]? = some (reshape x y he hn hx hy)) (h1 : y ∉ Wl.drop (k + 1)) (h2 : x ∉ Wl.drop k)
    (V : Valuation τ sig Val) :
    after ops V (Proc.devRef .tc y) = fun i => he ▸ shapeCast y.ty.shape (after ops V (Proc.devRef .tc x)) hn i := by
  rw [written h k _ hk y h1, read h k x h2, reshape_result]

theorem nary_at (h : Writes ops Wl) (k : Nat) {n : Nat} {xs : Fin n → Ref sig .tc} {y : Ref sig .tc}
    {f : ((j : Fin n) → (xs j).ty.Contents Val) → y.ty.Contents Val} {hxs hy}
    (hk : ops[k]? = some (nary xs y f hxs hy)) (h1 : y ∉ Wl.drop (k + 1)) (h2 : ∀ j, xs j ∉ Wl.drop k)
    (V : Valuation τ sig Val) :
    after ops V (Proc.devRef .tc y) = f (fun j => after ops V (Proc.devRef .tc (xs j))) := by
  rw [written h k _ hk y h1, nary_result]
  exact congrArg f (funext fun j => (read h k (xs j) (h2 j) V).symm)

end AfterStep

end
-- ==== Proof.RefRunFast.lean ====
/-
  The reference program's run, one operation at a time.

  The program is a straight line of 88 host operations in single-assignment form. What the line leaves in the buffer
  an operation writes is the operation's function of what the line leaves in its operands; followed from the
  arguments down, the result buffer holds the last stage `val_main_v75` of the seven arguments, each stage a named
  function of the earlier ones (no term is ever written out in full). Every weakly fair execution terminates there,
  and the arguments end as they were.
-/
import proofs.«113021_j41188736368837_2_alg».proof.Proof.RefOps
import proofs.«113021_j41188736368837_2_alg».proof.Proof.RefReadP
import proofs.«113021_j41188736368837_2_alg».proof.Proof.LibAfterStep

set_option maxRecDepth 8192

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The buffer each operation writes, in program order. -/
def written : List (Ref sig .tc) :=
  [main_v0, main_v1, main_c, main_v2, main_v3, main_v4, main_v5, main_v6, main_cst, main_v7, main_cst_0, main_v8, main_v9, main_cst_1, main_v10, main_v11, main_cst_2, main_call0_v0, main_call0_v1, main_v12, main_v13, main_v14, main_v15, main_v16, main_v17, main_v18, main_v19, main_v20, main_v21, main_v22, main_v23, main_cst_3, main_v24, main_v25, main_v26, main_v27, main_v28, main_v29, main_v30, main_v31, main_v32, main_v33, main_v34, main_v35, main_v36, main_v37, main_v38, main_v39, main_v40, main_cst_4, main_v41, main_v42, main_cst_5, main_v43, main_v44, main_v45, main_v46, main_v47, main_v48, main_v49, main_v50, main_v51, main_v52, main_v53, main_v54, main_cst_6, main_v55, main_v56, main_v57, main_v58, main_v59, main_v60, main_v61, main_v62, main_v63, main_v64, main_v65, main_v66, main_v67, main_v68, main_v69, main_v70, main_v71, main_cst_7, main_v72, main_v73, main_v74, main_v75]

/-- Operation by operation, the line writes the listed buffer and nothing else. -/
theorem hW : AfterStep.Writes (ops (F := F)) written := by
  unfold AfterStep.Writes written
  exact
    List.Forall₂.cons (by simp only [nullary_writes]; exact Finset.Subset.refl _) (
    List.Forall₂.cons (by simp only [nullary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [binary_writes]; exact Finset.Subset.refl _) (
    List.Forall₂.cons (by simp only [unary_writes]; exact Finset.Subset.refl _) (
    List.Forall₂.cons (by simp only [binary_writes]; exact Finset.Subset.refl _) (
    List.Forall₂.cons (by simp only [nullary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [unary_writes]; exact Finset.Subset.refl _) (
    List.Forall₂.cons (by simp only [ternary_writes]; exact Finset.Subset.refl _) (
    List.Forall₂.cons (by simp only [unary_writes]; exact Finset.Subset.refl _) (
    List.Forall₂.cons (by simp only [unary_writes]; exact Finset.Subset.refl _) (
    List.Forall₂.cons (by simp only [binary_writes]; exact Finset.Subset.refl _) (
    List.Forall₂.cons (by simp only [unary_writes]; exact Finset.Subset.refl _) (
    List.Forall₂.cons (by simp only [reshape_writes]; exact Finset.Subset.refl _) (
    List.Forall₂.cons (by simp only [reshape_writes]; exact Finset.Subset.refl _) (
    List.Forall₂.cons (by simp only [binary_writes]; exact Finset.Subset.refl _) (
    List.Forall₂.cons (by simp only [unary_writes]; exact Finset.Subset.refl _) (
    List.Forall₂.cons (by simp only [reshape_writes]; exact Finset.Subset.refl _) (
    List.Forall₂.cons (by simp only [binary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [binary_writes]; exact Finset.Subset.refl _) (
    List.Forall₂.cons (by simp only [unary_writes]; exact Finset.Subset.refl _) (
    List.Forall₂.cons (by simp only [unary_writes]; exact Finset.Subset.refl _) (
    List.Forall₂.cons (by simp only [unary_writes]; exact Finset.Subset.refl _) (
    List.Forall₂.cons (by simp only [nary_writes]; exact Finset.Subset.refl _) (
    List.Forall₂.cons (by simp only [reshape_writes]; exact Finset.Subset.refl _) (
    List.Forall₂.cons (by simp only [unary_writes]; exact Finset.Subset.refl _) (
    List.Forall₂.cons (by simp only [reshape_writes]; exact Finset.Subset.refl _) (
    List.Forall₂.cons (by simp only [binary_writes]; exact Finset.Subset.refl _) (
    List.Forall₂.cons (by simp only [unary_writes]; exact Finset.Subset.refl _) (
    List.Forall₂.cons (by simp only [unary_writes]; exact Finset.Subset.refl _) (
    List.Forall₂.cons (by simp only [binary_writes]; exact Finset.Subset.refl _) (
    List.Forall₂.cons (by simp only [reshape_writes]; exact Finset.Subset.refl _) (
    List.Forall₂.cons (by simp only [unary_writes]; exact Finset.Subset.refl _) (
    List.Forall₂.cons (by simp only [unary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [reshape_writes]; exact Finset.Subset.refl _) (
    List.Forall₂.cons (by simp only [unary_writes]; exact Finset.Subset.refl _) (
    List.Forall₂.cons (by simp only [unary_writes]; exact Finset.Subset.refl _) (
    List.Forall₂.cons (by simp only [reshape_writes]; exact Finset.Subset.refl _) (
    List.Forall₂.cons (by simp only [binary_writes]; exact Finset.Subset.refl _) (
    List.Forall₂.cons (by simp only [binary_writes]; exact Finset.Subset.refl _) (
    List.Forall₂.cons (by simp only [unary_writes]; exact Finset.Subset.refl _) (
    List.Forall₂.cons (by simp only [reshape_writes]; exact Finset.Subset.refl _) (
    List.Forall₂.cons (by simp only [binary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [binary_writes]; exact Finset.Subset.refl _) (
    List.Forall₂.cons (by simp only [unary_writes]; exact Finset.Subset.refl _) (
    List.Forall₂.cons (by simp only [unary_writes]; exact Finset.Subset.refl _) (
    List.Forall₂.cons (by simp only [unary_writes]; exact Finset.Subset.refl _) (
    List.Forall₂.cons (by simp only [nary_writes]; exact Finset.Subset.refl _) (
    List.Forall₂.cons (by simp only [reshape_writes]; exact Finset.Subset.refl _) (
    List.Forall₂.cons (by simp only [unary_writes]; exact Finset.Subset.refl _) (
    List.Forall₂.cons (by simp only [reshape_writes]; exact Finset.Subset.refl _) (
    List.Forall₂.cons (by simp only [binary_writes]; exact Finset.Subset.refl _) (
    List.Forall₂.cons (by simp only [unary_writes]; exact Finset.Subset.refl _) (
    List.Forall₂.cons (by simp only [unary_writes]; exact Finset.Subset.refl _) (
    List.Forall₂.cons (by simp only [binary_writes]; exact Finset.Subset.refl _) (
    List.Forall₂.cons (by simp only [reshape_writes]; exact Finset.Subset.refl _) (
    List.Forall₂.cons (by simp only [unary_writes]; exact Finset.Subset.refl _) (
    List.Forall₂.cons (by simp only [binary_writes]; exact Finset.Subset.refl _) (
    List.Forall₂.cons (by simp only [nullary_writes]; exact Finset.Subset.refl _) (
    List.Forall₂.cons (by simp only [unary_writes]; exact Finset.Subset.refl _) (
    List.Forall₂.cons (by simp only [binary_writes]; exact Finset.Subset.refl _) (
    List.Forall₂.cons (by simp only [binary_writes]; exact Finset.Subset.refl _) (
    List.Forall₂.cons (by simp only [binary_writes]; exact Finset.Subset.refl _) (
    List.Forall₂.nil))))))))))))))))))))))))))))))))))))))))))))))))))))))))))))))))))))))))))))))))))))))))

/-! ## The arguments are never written -/

theorem st_main_arg0 (V : Valuation τ sig (Elt F)) :
    after (ops (F := F)) V (Proc.devRef .tc main_arg0) = V (Proc.devRef .tc main_arg0) :=
  AfterStep.keep hW main_arg0 (by decide) V
theorem st_main_arg1 (V : Valuation τ sig (Elt F)) :
    after (ops (F := F)) V (Proc.devRef .tc main_arg1) = V (Proc.devRef .tc main_arg1) :=
  AfterStep.keep hW main_arg1 (by decide) V
theorem st_main_arg2 (V : Valuation τ sig (Elt F)) :
    after (ops (F := F)) V (Proc.devRef .tc main_arg2) = V (Proc.devRef .tc main_arg2) :=
  AfterStep.keep hW main_arg2 (by decide) V
theorem st_main_arg3 (V : Valuation τ sig (Elt F)) :
    after (ops (F := F)) V (Proc.devRef .tc main_arg3) = V (Proc.devRef .tc main_arg3) :=
  AfterStep.keep hW main_arg3 (by decide) V
theorem st_main_arg4 (V : Valuation τ sig (Elt F)) :
    after (ops (F := F)) V (Proc.devRef .tc main_arg4) = V (Proc.devRef .tc main_arg4) :=
  AfterStep.keep hW main_arg4 (by decide) V
theorem st_main_arg5 (V : Valuation τ sig (Elt F)) :
    after (ops (F := F)) V (Proc.devRef .tc main_arg5) = V (Proc.devRef .tc main_arg5) :=
  AfterStep.keep hW main_arg5 (by decide) V
theorem st_main_arg6 (V : Valuation τ sig (Elt F)) :
    after (ops (F := F)) V (Proc.devRef .tc main_arg6) = V (Proc.devRef .tc main_arg6) :=
  AfterStep.keep hW main_arg6 (by decide) V

/-! ## Each operation's result -/

theorem st_main_v0 (V : Valuation τ sig (Elt F)) :
    after (ops (F := F)) V (Proc.devRef .tc main_v0) = ReadP.val_main_v0 (F := F) := by
  rw [AfterStep.nullary_at hW 0 (by rfl) (by decide : main_v0 ∉ written.drop 1) V]
  rfl
theorem st_main_v1 (V : Valuation τ sig (Elt F)) :
    after (ops (F := F)) V (Proc.devRef .tc main_v1) = ReadP.val_main_v1 (F := F) := by
  rw [AfterStep.nullary_at hW 1 (by rfl) (by decide : main_v1 ∉ written.drop 2) V]
  rfl
theorem st_main_c (V : Valuation τ sig (Elt F)) :
    after (ops (F := F)) V (Proc.devRef .tc main_c) = ReadP.val_main_c (F := F) := by
  rw [AfterStep.nullary_at hW 2 (by rfl) (by decide : main_c ∉ written.drop 3) V]
  rfl
theorem st_main_v2 (V : Valuation τ sig (Elt F)) :
    after (ops (F := F)) V (Proc.devRef .tc main_v2) = ReadP.val_main_v2 (F := F) := by
  rw [AfterStep.unary_at hW 3 (by rfl) (by decide : main_v2 ∉ written.drop 4) (by decide : main_c ∉ written.drop 3) V, st_main_c V]
  rfl
theorem st_main_v3 (V : Valuation τ sig (Elt F)) :
    after (ops (F := F)) V (Proc.devRef .tc main_v3) = ReadP.val_main_v3 (F := F) := by
  rw [AfterStep.binary_at hW 4 (by rfl) (by decide : main_v3 ∉ written.drop 5) (by decide : main_v0 ∉ written.drop 4) (by decide : main_v2 ∉ written.drop 4) V, st_main_v0 V, st_main_v2 V]
  rfl
theorem st_main_v4 (V : Valuation τ sig (Elt F)) :
    after (ops (F := F)) V (Proc.devRef .tc main_v4) = ReadP.val_main_v4 (F := F) := by
  rw [AfterStep.binary_at hW 5 (by rfl) (by decide : main_v4 ∉ written.drop 6) (by decide : main_v3 ∉ written.drop 5) (by decide : main_v1 ∉ written.drop 5) V, st_main_v3 V, st_main_v1 V]
  rfl
theorem st_main_v5 (V : Valuation τ sig (Elt F)) :
    after (ops (F := F)) V (Proc.devRef .tc main_v5) = ReadP.val_main_v5 (F := F) := by
  rw [AfterStep.unary_at hW 6 (by rfl) (by decide : main_v5 ∉ written.drop 7) (by decide : main_v4 ∉ written.drop 6) V, st_main_v4 V]
  rfl
theorem st_main_v6 (V : Valuation τ sig (Elt F)) :
    after (ops (F := F)) V (Proc.devRef .tc main_v6) = ReadP.val_main_v6 (F := F) (V (Proc.devRef .tc main_arg2)) := by
  rw [AfterStep.binary_at hW 7 (by rfl) (by decide : main_v6 ∉ written.drop 8) (by decide : main_arg2 ∉ written.drop 7) (by decide : main_v5 ∉ written.drop 7) V, st_main_arg2 V, st_main_v5 V]
  rfl
theorem st_main_cst (V : Valuation τ sig (Elt F)) :
    after (ops (F := F)) V (Proc.devRef .tc main_cst) = ReadP.val_main_cst (F := F) := by
  rw [AfterStep.nullary_at hW 8 (by rfl) (by decide : main_cst ∉ written.drop 9) V]
  rfl
theorem st_main_v7 (V : Valuation τ sig (Elt F)) :
    after (ops (F := F)) V (Proc.devRef .tc main_v7) = ReadP.val_main_v7 (F := F) (V (Proc.devRef .tc main_arg2)) := by
  rw [AfterStep.binary_at hW 9 (by rfl) (by decide : main_v7 ∉ written.drop 10) (by decide : main_v6 ∉ written.drop 9) (by decide : main_cst ∉ written.drop 9) V, st_main_v6 V, st_main_cst V]
  rfl
theorem st_main_cst_0 (V : Valuation τ sig (Elt F)) :
    after (ops (F := F)) V (Proc.devRef .tc main_cst_0) = ReadP.val_main_cst_0 (F := F) := by
  rw [AfterStep.nullary_at hW 10 (by rfl) (by decide : main_cst_0 ∉ written.drop 11) V]
  rfl
theorem st_main_v8 (V : Valuation τ sig (Elt F)) :
    after (ops (F := F)) V (Proc.devRef .tc main_v8) = ReadP.val_main_v8 (F := F) := by
  rw [AfterStep.unary_at hW 11 (by rfl) (by decide : main_v8 ∉ written.drop 12) (by decide : main_cst_0 ∉ written.drop 11) V, st_main_cst_0 V]
  rfl
theorem st_main_v9 (V : Valuation τ sig (Elt F)) :
    after (ops (F := F)) V (Proc.devRef .tc main_v9) = ReadP.val_main_v9 (F := F) (V (Proc.devRef .tc main_arg2)) := by
  rw [AfterStep.binary_at hW 12 (by rfl) (by decide : main_v9 ∉ written.drop 13) (by decide : main_v7 ∉ written.drop 12) (by decide : main_v8 ∉ written.drop 12) V, st_main_v7 V, st_main_v8 V]
  rfl
theorem st_main_cst_1 (V : Valuation τ sig (Elt F)) :
    after (ops (F := F)) V (Proc.devRef .tc main_cst_1) = ReadP.val_main_cst_1 (F := F) := by
  rw [AfterStep.nullary_at hW 13 (by rfl) (by decide : main_cst_1 ∉ written.drop 14) V]
  rfl
theorem st_main_v10 (V : Valuation τ sig (Elt F)) :
    after (ops (F := F)) V (Proc.devRef .tc main_v10) = ReadP.val_main_v10 (F := F) := by
  rw [AfterStep.unary_at hW 14 (by rfl) (by decide : main_v10 ∉ written.drop 15) (by decide : main_cst_1 ∉ written.drop 14) V, st_main_cst_1 V]
  rfl
theorem st_main_v11 (V : Valuation τ sig (Elt F)) :
    after (ops (F := F)) V (Proc.devRef .tc main_v11) = ReadP.val_main_v11 (F := F) (V (Proc.devRef .tc main_arg2)) := by
  rw [AfterStep.binary_at hW 15 (by rfl) (by decide : main_v11 ∉ written.drop 16) (by decide : main_v10 ∉ written.drop 15) (by decide : main_v7 ∉ written.drop 15) V, st_main_v10 V, st_main_v7 V]
  rfl
theorem st_main_cst_2 (V : Valuation τ sig (Elt F)) :
    after (ops (F := F)) V (Proc.devRef .tc main_cst_2) = ReadP.val_main_cst_2 (F := F) := by
  rw [AfterStep.nullary_at hW 16 (by rfl) (by decide : main_cst_2 ∉ written.drop 17) V]
  rfl
theorem st_main_call0_v0 (V : Valuation τ sig (Elt F)) :
    after (ops (F := F)) V (Proc.devRef .tc main_call0_v0) = ReadP.val_main_call0_v0 (F := F) := by
  rw [AfterStep.unary_at hW 17 (by rfl) (by decide : main_call0_v0 ∉ written.drop 18) (by decide : main_cst_2 ∉ written.drop 17) V, st_main_cst_2 V]
  rfl
theorem st_main_call0_v1 (V : Valuation τ sig (Elt F)) :
    after (ops (F := F)) V (Proc.devRef .tc main_call0_v1) = ReadP.val_main_call0_v1 (F := F) := by
  rw [AfterStep.unary_at hW 18 (by rfl) (by decide : main_call0_v1 ∉ written.drop 19) (by decide : main_call0_v0 ∉ written.drop 18) V, st_main_call0_v0 V]
  rfl
theorem st_main_v12 (V : Valuation τ sig (Elt F)) :
    after (ops (F := F)) V (Proc.devRef .tc main_v12) = ReadP.val_main_v12 (F := F) (V (Proc.devRef .tc main_arg2)) := by
  rw [AfterStep.ternary_at hW 19 (by rfl) (by decide : main_v12 ∉ written.drop 20) (by decide : main_v9 ∉ written.drop 19) (by decide : main_v11 ∉ written.drop 19) (by decide : main_call0_v1 ∉ written.drop 19) V, st_main_v9 V, st_main_v11 V, st_main_call0_v1 V]
  rfl
theorem st_main_v13 (V : Valuation τ sig (Elt F)) :
    after (ops (F := F)) V (Proc.devRef .tc main_v13) = ReadP.val_main_v13 (F := F) (V (Proc.devRef .tc main_arg2)) := by
  rw [AfterStep.unary_at hW 20 (by rfl) (by decide : main_v13 ∉ written.drop 21) (by decide : main_v12 ∉ written.drop 20) V, st_main_v12 V]
  rfl
theorem st_main_v14 (V : Valuation τ sig (Elt F)) :
    after (ops (F := F)) V (Proc.devRef .tc main_v14) = ReadP.val_main_v14 (F := F) (V (Proc.devRef .tc main_arg2)) := by
  rw [AfterStep.unary_at hW 21 (by rfl) (by decide : main_v14 ∉ written.drop 22) (by decide : main_v13 ∉ written.drop 21) V, st_main_v13 V]
  rfl
theorem st_main_v15 (V : Valuation τ sig (Elt F)) :
    after (ops (F := F)) V (Proc.devRef .tc main_v15) = ReadP.val_main_v15 (F := F) (V (Proc.devRef .tc main_arg2)) := by
  rw [AfterStep.binary_at hW 22 (by rfl) (by decide : main_v15 ∉ written.drop 23) (by decide : main_v14 ∉ written.drop 22) (by decide : main_v6 ∉ written.drop 22) V, st_main_v14 V, st_main_v6 V]
  rfl
theorem st_main_v16 (V : Valuation τ sig (Elt F)) :
    after (ops (F := F)) V (Proc.devRef .tc main_v16) = ReadP.val_main_v16 (F := F) (V (Proc.devRef .tc main_arg2)) := by
  rw [AfterStep.unary_at hW 23 (by rfl) (by decide : main_v16 ∉ written.drop 24) (by decide : main_v15 ∉ written.drop 23) V, st_main_v15 V]
  rfl
theorem st_main_v17 (V : Valuation τ sig (Elt F)) :
    after (ops (F := F)) V (Proc.devRef .tc main_v17) = ReadP.val_main_v17 (F := F) (V (Proc.devRef .tc main_arg0)) := by
  rw [AfterStep.reshape_at hW 24 (by rfl) (by decide : main_v17 ∉ written.drop 25) (by decide : main_arg0 ∉ written.drop 24) V, st_main_arg0 V]
  rfl
theorem st_main_v18 (V : Valuation τ sig (Elt F)) :
    after (ops (F := F)) V (Proc.devRef .tc main_v18) = ReadP.val_main_v18 (F := F) (V (Proc.devRef .tc main_arg1)) := by
  rw [AfterStep.reshape_at hW 25 (by rfl) (by decide : main_v18 ∉ written.drop 26) (by decide : main_arg1 ∉ written.drop 25) V, st_main_arg1 V]
  rfl
theorem st_main_v19 (V : Valuation τ sig (Elt F)) :
    after (ops (F := F)) V (Proc.devRef .tc main_v19) = ReadP.val_main_v19 (F := F) (V (Proc.devRef .tc main_arg0)) (V (Proc.devRef .tc main_arg1)) := by
  rw [AfterStep.binary_at hW 26 (by rfl) (by decide : main_v19 ∉ written.drop 27) (by decide : main_v17 ∉ written.drop 26) (by decide : main_v18 ∉ written.drop 26) V, st_main_v17 V, st_main_v18 V]
  rfl
theorem st_main_v20 (V : Valuation τ sig (Elt F)) :
    after (ops (F := F)) V (Proc.devRef .tc main_v20) = ReadP.val_main_v20 (F := F) (V (Proc.devRef .tc main_arg0)) (V (Proc.devRef .tc main_arg1)) := by
  rw [AfterStep.unary_at hW 27 (by rfl) (by decide : main_v20 ∉ written.drop 28) (by decide : main_v19 ∉ written.drop 27) V, st_main_v19 V]
  rfl
theorem st_main_v21 (V : Valuation τ sig (Elt F)) :
    after (ops (F := F)) V (Proc.devRef .tc main_v21) = ReadP.val_main_v21 (F := F) (V (Proc.devRef .tc main_arg0)) (V (Proc.devRef .tc main_arg1)) := by
  rw [AfterStep.reshape_at hW 28 (by rfl) (by decide : main_v21 ∉ written.drop 29) (by decide : main_v20 ∉ written.drop 28) V, st_main_v20 V]
  rfl
theorem st_main_v22 (V : Valuation τ sig (Elt F)) :
    after (ops (F := F)) V (Proc.devRef .tc main_v22) = ReadP.val_main_v22 (F := F) (V (Proc.devRef .tc main_arg0)) (V (Proc.devRef .tc main_arg1)) (V (Proc.devRef .tc main_arg2)) := by
  rw [AfterStep.binary_at hW 29 (by rfl) (by decide : main_v22 ∉ written.drop 30) (by decide : main_v16 ∉ written.drop 29) (by decide : main_v21 ∉ written.drop 29) V, st_main_v16 V, st_main_v21 V]
  rfl
theorem st_main_v23 (V : Valuation τ sig (Elt F)) :
    after (ops (F := F)) V (Proc.devRef .tc main_v23) = ReadP.val_main_v23 (F := F) (V (Proc.devRef .tc main_arg0)) (V (Proc.devRef .tc main_arg1)) (V (Proc.devRef .tc main_arg2)) := by
  rw [AfterStep.binary_at hW 30 (by rfl) (by decide : main_v23 ∉ written.drop 31) (by decide : main_v16 ∉ written.drop 30) (by decide : main_v22 ∉ written.drop 30) V, st_main_v16 V, st_main_v22 V]
  rfl
theorem st_main_cst_3 (V : Valuation τ sig (Elt F)) :
    after (ops (F := F)) V (Proc.devRef .tc main_cst_3) = ReadP.val_main_cst_3 (F := F) := by
  rw [AfterStep.nullary_at hW 31 (by rfl) (by decide : main_cst_3 ∉ written.drop 32) V]
  rfl
theorem st_main_v24 (V : Valuation τ sig (Elt F)) :
    after (ops (F := F)) V (Proc.devRef .tc main_v24) = ReadP.val_main_v24 (F := F) := by
  rw [AfterStep.unary_at hW 32 (by rfl) (by decide : main_v24 ∉ written.drop 33) (by decide : main_cst_3 ∉ written.drop 32) V, st_main_cst_3 V]
  rfl
theorem st_main_v25 (V : Valuation τ sig (Elt F)) :
    after (ops (F := F)) V (Proc.devRef .tc main_v25) = ReadP.val_main_v25 (F := F) (V (Proc.devRef .tc main_arg0)) (V (Proc.devRef .tc main_arg1)) (V (Proc.devRef .tc main_arg2)) := by
  rw [AfterStep.binary_at hW 33 (by rfl) (by decide : main_v25 ∉ written.drop 34) (by decide : main_v24 ∉ written.drop 33) (by decide : main_v23 ∉ written.drop 33) V, st_main_v24 V, st_main_v23 V]
  rfl
theorem st_main_v26 (V : Valuation τ sig (Elt F)) :
    after (ops (F := F)) V (Proc.devRef .tc main_v26) = ReadP.val_main_v26 (F := F) (V (Proc.devRef .tc main_arg0)) (V (Proc.devRef .tc main_arg1)) (V (Proc.devRef .tc main_arg2)) := by
  rw [AfterStep.binary_at hW 34 (by rfl) (by decide : main_v26 ∉ written.drop 35) (by decide : main_v25 ∉ written.drop 34) (by decide : main_v21 ∉ written.drop 34) V, st_main_v25 V, st_main_v21 V]
  rfl
theorem st_main_v27 (V : Valuation τ sig (Elt F)) :
    after (ops (F := F)) V (Proc.devRef .tc main_v27) = ReadP.val_main_v27 (F := F) (V (Proc.devRef .tc main_arg0)) (V (Proc.devRef .tc main_arg1)) := by
  rw [AfterStep.unary_at hW 35 (by rfl) (by decide : main_v27 ∉ written.drop 36) (by decide : main_v21 ∉ written.drop 35) V, st_main_v21 V]
  rfl
theorem st_main_v28 (V : Valuation τ sig (Elt F)) :
    after (ops (F := F)) V (Proc.devRef .tc main_v28) = ReadP.val_main_v28 (F := F) (V (Proc.devRef .tc main_arg0)) (V (Proc.devRef .tc main_arg1)) (V (Proc.devRef .tc main_arg2)) := by
  rw [AfterStep.unary_at hW 36 (by rfl) (by decide : main_v28 ∉ written.drop 37) (by decide : main_v22 ∉ written.drop 36) V, st_main_v22 V]
  rfl
theorem st_main_v29 (V : Valuation τ sig (Elt F)) :
    after (ops (F := F)) V (Proc.devRef .tc main_v29) = ReadP.val_main_v29 (F := F) (V (Proc.devRef .tc main_arg0)) (V (Proc.devRef .tc main_arg1)) (V (Proc.devRef .tc main_arg2)) := by
  rw [AfterStep.unary_at hW 37 (by rfl) (by decide : main_v29 ∉ written.drop 38) (by decide : main_v26 ∉ written.drop 37) V, st_main_v26 V]
  rfl
theorem st_main_v30 (V : Valuation τ sig (Elt F)) :
    after (ops (F := F)) V (Proc.devRef .tc main_v30) = ReadP.val_main_v30 (F := F) (V (Proc.devRef .tc main_arg0)) (V (Proc.devRef .tc main_arg1)) (V (Proc.devRef .tc main_arg2)) := by
  refine (AfterStep.nary_at hW 38 (by rfl) (by decide : main_v30 ∉ written.drop 39) (fun j => by fin_cases j <;> decide) V).trans ?_
  show concatenate S3x512x16896 0 [⟨S1x512x16896, after (ops (F := F)) V (Proc.devRef .tc main_v27)⟩, ⟨S1x512x16896, after (ops (F := F)) V (Proc.devRef .tc main_v28)⟩, ⟨S1x512x16896, after (ops (F := F)) V (Proc.devRef .tc main_v29)⟩] concatenates_S1x512x16896_S1x512x16896_S1x512x16896_S3x512x16896_d0 = _
  rw [st_main_v27 V, st_main_v28 V, st_main_v29 V]
  rfl
theorem st_main_v31 (V : Valuation τ sig (Elt F)) :
    after (ops (F := F)) V (Proc.devRef .tc main_v31) = ReadP.val_main_v31 (F := F) (V (Proc.devRef .tc main_arg0)) (V (Proc.devRef .tc main_arg1)) (V (Proc.devRef .tc main_arg2)) := by
  rw [AfterStep.reshape_at hW 39 (by rfl) (by decide : main_v31 ∉ written.drop 40) (by decide : main_v30 ∉ written.drop 39) V, st_main_v30 V]
  rfl
theorem st_main_v32 (V : Valuation τ sig (Elt F)) :
    after (ops (F := F)) V (Proc.devRef .tc main_v32) = ReadP.val_main_v32 (F := F) (V (Proc.devRef .tc main_arg0)) (V (Proc.devRef .tc main_arg1)) (V (Proc.devRef .tc main_arg2)) := by
  rw [AfterStep.unary_at hW 40 (by rfl) (by decide : main_v32 ∉ written.drop 41) (by decide : main_v31 ∉ written.drop 40) V, st_main_v31 V]
  rfl
theorem st_main_v33 (V : Valuation τ sig (Elt F)) :
    after (ops (F := F)) V (Proc.devRef .tc main_v33) = ReadP.val_main_v33 (F := F) (V (Proc.devRef .tc main_arg0)) (V (Proc.devRef .tc main_arg1)) (V (Proc.devRef .tc main_arg2)) := by
  rw [AfterStep.reshape_at hW 41 (by rfl) (by decide : main_v33 ∉ written.drop 42) (by decide : main_v32 ∉ written.drop 41) V, st_main_v32 V]
  rfl
theorem st_main_v34 (V : Valuation τ sig (Elt F)) :
    after (ops (F := F)) V (Proc.devRef .tc main_v34) = ReadP.val_main_v34 (F := F) (V (Proc.devRef .tc main_arg0)) (V (Proc.devRef .tc main_arg1)) (V (Proc.devRef .tc main_arg2)) (V (Proc.devRef .tc main_arg3)) := by
  rw [AfterStep.binary_at hW 42 (by rfl) (by decide : main_v34 ∉ written.drop 43) (by decide : main_v33 ∉ written.drop 42) (by decide : main_arg3 ∉ written.drop 42) V, st_main_v33 V, st_main_arg3 V]
  rfl
theorem st_main_v35 (V : Valuation τ sig (Elt F)) :
    after (ops (F := F)) V (Proc.devRef .tc main_v35) = ReadP.val_main_v35 (F := F) (V (Proc.devRef .tc main_arg4)) := by
  rw [AfterStep.unary_at hW 43 (by rfl) (by decide : main_v35 ∉ written.drop 44) (by decide : main_arg4 ∉ written.drop 43) V, st_main_arg4 V]
  rfl
theorem st_main_v36 (V : Valuation τ sig (Elt F)) :
    after (ops (F := F)) V (Proc.devRef .tc main_v36) = ReadP.val_main_v36 (F := F) (V (Proc.devRef .tc main_arg4)) := by
  rw [AfterStep.unary_at hW 44 (by rfl) (by decide : main_v36 ∉ written.drop 45) (by decide : main_v35 ∉ written.drop 44) V, st_main_v35 V]
  rfl
theorem st_main_v37 (V : Valuation τ sig (Elt F)) :
    after (ops (F := F)) V (Proc.devRef .tc main_v37) = ReadP.val_main_v37 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 45 (by rfl) (by decide : main_v37 ∉ written.drop 46) (by decide : main_v34 ∉ written.drop 45) (by decide : main_v36 ∉ written.drop 45) V, st_main_v34 V, st_main_v36 V]
  rfl
theorem st_main_v38 (V : Valuation τ sig (Elt F)) :
    after (ops (F := F)) V (Proc.devRef .tc main_v38) = ReadP.val_main_v38 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 46 (by rfl) (by decide : main_v38 ∉ written.drop 47) (by decide : main_v37 ∉ written.drop 46) V, st_main_v37 V]
  rfl
theorem st_main_v39 (V : Valuation τ sig (Elt F)) :
    after (ops (F := F)) V (Proc.devRef .tc main_v39) = ReadP.val_main_v39 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 47 (by rfl) (by decide : main_v39 ∉ written.drop 48) (by decide : main_v38 ∉ written.drop 47) V, st_main_v38 V]
  rfl
theorem st_main_v40 (V : Valuation τ sig (Elt F)) :
    after (ops (F := F)) V (Proc.devRef .tc main_v40) = ReadP.val_main_v40 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 48 (by rfl) (by decide : main_v40 ∉ written.drop 49) (by decide : main_v39 ∉ written.drop 48) V, st_main_v39 V]
  rfl
theorem st_main_cst_4 (V : Valuation τ sig (Elt F)) :
    after (ops (F := F)) V (Proc.devRef .tc main_cst_4) = ReadP.val_main_cst_4 (F := F) := by
  rw [AfterStep.nullary_at hW 49 (by rfl) (by decide : main_cst_4 ∉ written.drop 50) V]
  rfl
theorem st_main_v41 (V : Valuation τ sig (Elt F)) :
    after (ops (F := F)) V (Proc.devRef .tc main_v41) = ReadP.val_main_v41 (F := F) := by
  rw [AfterStep.unary_at hW 50 (by rfl) (by decide : main_v41 ∉ written.drop 51) (by decide : main_cst_4 ∉ written.drop 50) V, st_main_cst_4 V]
  rfl
theorem st_main_v42 (V : Valuation τ sig (Elt F)) :
    after (ops (F := F)) V (Proc.devRef .tc main_v42) = ReadP.val_main_v42 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 51 (by rfl) (by decide : main_v42 ∉ written.drop 52) (by decide : main_v41 ∉ written.drop 51) (by decide : main_v40 ∉ written.drop 51) V, st_main_v41 V, st_main_v40 V]
  rfl
theorem st_main_cst_5 (V : Valuation τ sig (Elt F)) :
    after (ops (F := F)) V (Proc.devRef .tc main_cst_5) = ReadP.val_main_cst_5 (F := F) := by
  rw [AfterStep.nullary_at hW 52 (by rfl) (by decide : main_cst_5 ∉ written.drop 53) V]
  rfl
theorem st_main_v43 (V : Valuation τ sig (Elt F)) :
    after (ops (F := F)) V (Proc.devRef .tc main_v43) = ReadP.val_main_v43 (F := F) := by
  rw [AfterStep.unary_at hW 53 (by rfl) (by decide : main_v43 ∉ written.drop 54) (by decide : main_cst_5 ∉ written.drop 53) V, st_main_cst_5 V]
  rfl
theorem st_main_v44 (V : Valuation τ sig (Elt F)) :
    after (ops (F := F)) V (Proc.devRef .tc main_v44) = ReadP.val_main_v44 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 54 (by rfl) (by decide : main_v44 ∉ written.drop 55) (by decide : main_v43 ∉ written.drop 54) (by decide : main_v42 ∉ written.drop 54) V, st_main_v43 V, st_main_v42 V]
  rfl
theorem st_main_v45 (V : Valuation τ sig (Elt F)) :
    after (ops (F := F)) V (Proc.devRef .tc main_v45) = ReadP.val_main_v45 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 55 (by rfl) (by decide : main_v45 ∉ written.drop 56) (by decide : main_v44 ∉ written.drop 55) V, st_main_v44 V]
  rfl
theorem st_main_v46 (V : Valuation τ sig (Elt F)) :
    after (ops (F := F)) V (Proc.devRef .tc main_v46) = ReadP.val_main_v46 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 56 (by rfl) (by decide : main_v46 ∉ written.drop 57) (by decide : main_v45 ∉ written.drop 56) V, st_main_v45 V]
  rfl
theorem st_main_v47 (V : Valuation τ sig (Elt F)) :
    after (ops (F := F)) V (Proc.devRef .tc main_v47) = ReadP.val_main_v47 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 57 (by rfl) (by decide : main_v47 ∉ written.drop 58) (by decide : main_v45 ∉ written.drop 57) V, st_main_v45 V]
  rfl
theorem st_main_v48 (V : Valuation τ sig (Elt F)) :
    after (ops (F := F)) V (Proc.devRef .tc main_v48) = ReadP.val_main_v48 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 58 (by rfl) (by decide : main_v48 ∉ written.drop 59) (by decide : main_v47 ∉ written.drop 58) V, st_main_v47 V]
  rfl
theorem st_main_v49 (V : Valuation τ sig (Elt F)) :
    after (ops (F := F)) V (Proc.devRef .tc main_v49) = ReadP.val_main_v49 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 59 (by rfl) (by decide : main_v49 ∉ written.drop 60) (by decide : main_v46 ∉ written.drop 59) (by decide : main_v18 ∉ written.drop 59) V, st_main_v46 V, st_main_v18 V]
  rfl
theorem st_main_v50 (V : Valuation τ sig (Elt F)) :
    after (ops (F := F)) V (Proc.devRef .tc main_v50) = ReadP.val_main_v50 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 60 (by rfl) (by decide : main_v50 ∉ written.drop 61) (by decide : main_v17 ∉ written.drop 60) (by decide : main_v49 ∉ written.drop 60) V, st_main_v17 V, st_main_v49 V]
  rfl
theorem st_main_v51 (V : Valuation τ sig (Elt F)) :
    after (ops (F := F)) V (Proc.devRef .tc main_v51) = ReadP.val_main_v51 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 61 (by rfl) (by decide : main_v51 ∉ written.drop 62) (by decide : main_v50 ∉ written.drop 61) V, st_main_v50 V]
  rfl
theorem st_main_v52 (V : Valuation τ sig (Elt F)) :
    after (ops (F := F)) V (Proc.devRef .tc main_v52) = ReadP.val_main_v52 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 62 (by rfl) (by decide : main_v52 ∉ written.drop 63) (by decide : main_v51 ∉ written.drop 62) V, st_main_v51 V]
  rfl
theorem st_main_v53 (V : Valuation τ sig (Elt F)) :
    after (ops (F := F)) V (Proc.devRef .tc main_v53) = ReadP.val_main_v53 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 63 (by rfl) (by decide : main_v53 ∉ written.drop 64) (by decide : main_v16 ∉ written.drop 63) (by decide : main_v52 ∉ written.drop 63) V, st_main_v16 V, st_main_v52 V]
  rfl
theorem st_main_v54 (V : Valuation τ sig (Elt F)) :
    after (ops (F := F)) V (Proc.devRef .tc main_v54) = ReadP.val_main_v54 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 64 (by rfl) (by decide : main_v54 ∉ written.drop 65) (by decide : main_v16 ∉ written.drop 64) (by decide : main_v53 ∉ written.drop 64) V, st_main_v16 V, st_main_v53 V]
  rfl
theorem st_main_cst_6 (V : Valuation τ sig (Elt F)) :
    after (ops (F := F)) V (Proc.devRef .tc main_cst_6) = ReadP.val_main_cst_6 (F := F) := by
  rw [AfterStep.nullary_at hW 65 (by rfl) (by decide : main_cst_6 ∉ written.drop 66) V]
  rfl
theorem st_main_v55 (V : Valuation τ sig (Elt F)) :
    after (ops (F := F)) V (Proc.devRef .tc main_v55) = ReadP.val_main_v55 (F := F) := by
  rw [AfterStep.unary_at hW 66 (by rfl) (by decide : main_v55 ∉ written.drop 67) (by decide : main_cst_6 ∉ written.drop 66) V, st_main_cst_6 V]
  rfl
theorem st_main_v56 (V : Valuation τ sig (Elt F)) :
    after (ops (F := F)) V (Proc.devRef .tc main_v56) = ReadP.val_main_v56 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 67 (by rfl) (by decide : main_v56 ∉ written.drop 68) (by decide : main_v55 ∉ written.drop 67) (by decide : main_v54 ∉ written.drop 67) V, st_main_v55 V, st_main_v54 V]
  rfl
theorem st_main_v57 (V : Valuation τ sig (Elt F)) :
    after (ops (F := F)) V (Proc.devRef .tc main_v57) = ReadP.val_main_v57 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 68 (by rfl) (by decide : main_v57 ∉ written.drop 69) (by decide : main_v56 ∉ written.drop 68) (by decide : main_v52 ∉ written.drop 68) V, st_main_v56 V, st_main_v52 V]
  rfl
theorem st_main_v58 (V : Valuation τ sig (Elt F)) :
    after (ops (F := F)) V (Proc.devRef .tc main_v58) = ReadP.val_main_v58 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 69 (by rfl) (by decide : main_v58 ∉ written.drop 70) (by decide : main_v52 ∉ written.drop 69) V, st_main_v52 V]
  rfl
theorem st_main_v59 (V : Valuation τ sig (Elt F)) :
    after (ops (F := F)) V (Proc.devRef .tc main_v59) = ReadP.val_main_v59 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 70 (by rfl) (by decide : main_v59 ∉ written.drop 71) (by decide : main_v53 ∉ written.drop 70) V, st_main_v53 V]
  rfl
theorem st_main_v60 (V : Valuation τ sig (Elt F)) :
    after (ops (F := F)) V (Proc.devRef .tc main_v60) = ReadP.val_main_v60 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 71 (by rfl) (by decide : main_v60 ∉ written.drop 72) (by decide : main_v57 ∉ written.drop 71) V, st_main_v57 V]
  rfl
theorem st_main_v61 (V : Valuation τ sig (Elt F)) :
    after (ops (F := F)) V (Proc.devRef .tc main_v61) = ReadP.val_main_v61 (F := F) (V (Proc.devRef .tc main_arg0)) (V (Proc.devRef .tc main_arg1)) (V (Proc.devRef .tc main_arg2)) (V (Proc.devRef .tc main_arg3)) (V (Proc.devRef .tc main_arg4)) := by
  refine (AfterStep.nary_at hW 72 (by rfl) (by decide : main_v61 ∉ written.drop 73) (fun j => by fin_cases j <;> decide) V).trans ?_
  show concatenate S3x512x16896 0 [⟨S1x512x16896, after (ops (F := F)) V (Proc.devRef .tc main_v58)⟩, ⟨S1x512x16896, after (ops (F := F)) V (Proc.devRef .tc main_v59)⟩, ⟨S1x512x16896, after (ops (F := F)) V (Proc.devRef .tc main_v60)⟩] concatenates_S1x512x16896_S1x512x16896_S1x512x16896_S3x512x16896_d0 = _
  rw [st_main_v58 V, st_main_v59 V, st_main_v60 V]
  rfl
theorem st_main_v62 (V : Valuation τ sig (Elt F)) :
    after (ops (F := F)) V (Proc.devRef .tc main_v62) = ReadP.val_main_v62 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 73 (by rfl) (by decide : main_v62 ∉ written.drop 74) (by decide : main_v61 ∉ written.drop 73) V, st_main_v61 V]
  rfl
theorem st_main_v63 (V : Valuation τ sig (Elt F)) :
    after (ops (F := F)) V (Proc.devRef .tc main_v63) = ReadP.val_main_v63 (F := F) (V (Proc.devRef .tc main_arg0)) (V (Proc.devRef .tc main_arg1)) (V (Proc.devRef .tc main_arg2)) (V (Proc.devRef .tc main_arg3)) (V (Proc.devRef .tc main_arg4)) := by
  rw [AfterStep.unary_at hW 74 (by rfl) (by decide : main_v63 ∉ written.drop 75) (by decide : main_v62 ∉ written.drop 74) V, st_main_v62 V]
  rfl
theorem st_main_v64 (V : Valuation τ sig (Elt F)) :
    after (ops (F := F)) V (Proc.devRef .tc main_v64) = ReadP.val_main_v64 (F := F) (V (Proc.devRef .tc main_arg0)) (V (Proc.devRef .tc main_arg1)) (V (Proc.devRef .tc main_arg2)) (V (Proc.devRef .tc main_arg3)) (V (Proc.devRef .tc main_arg4)) := by
  rw [AfterStep.reshape_at hW 75 (by rfl) (by decide : main_v64 ∉ written.drop 76) (by decide : main_v63 ∉ written.drop 75) V, st_main_v63 V]
  rfl
theorem st_main_v65 (V : Valuation τ sig (Elt F)) :
    after (ops (F := F)) V (Proc.devRef .tc main_v65) = ReadP.val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [AfterStep.binary_at hW 76 (by rfl) (by decide : main_v65 ∉ written.drop 77) (by decide : main_v64 ∉ written.drop 76) (by decide : main_arg5 ∉ written.drop 76) V, st_main_v64 V, st_main_arg5 V]
  rfl
theorem st_main_v66 (V : Valuation τ sig (Elt F)) :
    after (ops (F := F)) V (Proc.devRef .tc main_v66) = ReadP.val_main_v66 (F := F) (V (Proc.devRef .tc main_arg6)) := by
  rw [AfterStep.unary_at hW 77 (by rfl) (by decide : main_v66 ∉ written.drop 78) (by decide : main_arg6 ∉ written.drop 77) V, st_main_arg6 V]
  rfl
theorem st_main_v67 (V : Valuation τ sig (Elt F)) :
    after (ops (F := F)) V (Proc.devRef .tc main_v67) = ReadP.val_main_v67 (F := F) (V (Proc.devRef .tc main_arg6)) := by
  rw [AfterStep.unary_at hW 78 (by rfl) (by decide : main_v67 ∉ written.drop 79) (by decide : main_v66 ∉ written.drop 78) V, st_main_v66 V]
  rfl
theorem st_main_v68 (V : Valuation τ sig (Elt F)) :
    after (ops (F := F)) V (Proc.devRef .tc main_v68) = ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [AfterStep.binary_at hW 79 (by rfl) (by decide : main_v68 ∉ written.drop 80) (by decide : main_v65 ∉ written.drop 79) (by decide : main_v67 ∉ written.drop 79) V, st_main_v65 V, st_main_v67 V]
  rfl
theorem st_main_v69 (V : Valuation τ sig (Elt F)) :
    after (ops (F := F)) V (Proc.devRef .tc main_v69) = ReadP.val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [AfterStep.reshape_at hW 80 (by rfl) (by decide : main_v69 ∉ written.drop 81) (by decide : main_v68 ∉ written.drop 80) V, st_main_v68 V]
  rfl
theorem st_main_v70 (V : Valuation τ sig (Elt F)) :
    after (ops (F := F)) V (Proc.devRef .tc main_v70) = ReadP.val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [AfterStep.unary_at hW 81 (by rfl) (by decide : main_v70 ∉ written.drop 82) (by decide : main_v69 ∉ written.drop 81) V, st_main_v69 V]
  rfl
theorem st_main_v71 (V : Valuation τ sig (Elt F)) :
    after (ops (F := F)) V (Proc.devRef .tc main_v71) = ReadP.val_main_v71 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 82 (by rfl) (by decide : main_v71 ∉ written.drop 83) (by decide : main_v48 ∉ written.drop 82) (by decide : main_arg1 ∉ written.drop 82) V, st_main_v48 V, st_main_arg1 V]
  rfl
theorem st_main_cst_7 (V : Valuation τ sig (Elt F)) :
    after (ops (F := F)) V (Proc.devRef .tc main_cst_7) = ReadP.val_main_cst_7 (F := F) := by
  rw [AfterStep.nullary_at hW 83 (by rfl) (by decide : main_cst_7 ∉ written.drop 84) V]
  rfl
theorem st_main_v72 (V : Valuation τ sig (Elt F)) :
    after (ops (F := F)) V (Proc.devRef .tc main_v72) = ReadP.val_main_v72 (F := F) := by
  rw [AfterStep.unary_at hW 84 (by rfl) (by decide : main_v72 ∉ written.drop 85) (by decide : main_cst_7 ∉ written.drop 84) V, st_main_cst_7 V]
  rfl
theorem st_main_v73 (V : Valuation τ sig (Elt F)) :
    after (ops (F := F)) V (Proc.devRef .tc main_v73) = ReadP.val_main_v73 (F := F) (V (Proc.devRef .tc main_arg0)) (V (Proc.devRef .tc main_arg1)) (V (Proc.devRef .tc main_arg2)) (V (Proc.devRef .tc main_arg3)) (V (Proc.devRef .tc main_arg4)) := by
  rw [AfterStep.binary_at hW 85 (by rfl) (by decide : main_v73 ∉ written.drop 86) (by decide : main_v72 ∉ written.drop 85) (by decide : main_v48 ∉ written.drop 85) V, st_main_v72 V, st_main_v48 V]
  rfl
theorem st_main_v74 (V : Valuation τ sig (Elt F)) :
    after (ops (F := F)) V (Proc.devRef .tc main_v74) = ReadP.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [AfterStep.binary_at hW 86 (by rfl) (by decide : main_v74 ∉ written.drop 87) (by decide : main_v73 ∉ written.drop 86) (by decide : main_v70 ∉ written.drop 86) V, st_main_v73 V, st_main_v70 V]
  rfl
theorem st_main_v75 (V : Valuation τ sig (Elt F)) :
    after (ops (F := F)) V (Proc.devRef .tc main_v75) = ReadP.val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [AfterStep.binary_at hW 87 (by rfl) (by decide : main_v75 ∉ written.drop 88) (by decide : main_v71 ∉ written.drop 87) (by decide : main_v74 ∉ written.drop 87) V, st_main_v71 V, st_main_v74 V]
  rfl

/-! ## The run -/

/-- Every weakly fair execution of the reference program terminates, with its result at the last stage of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = ReadP.val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v75).trans (st_main_v75 (launchContents m c)),
      (h c main_arg0).trans (st_main_arg0 (launchContents m c)),
      (h c main_arg1).trans (st_main_arg1 (launchContents m c)),
      (h c main_arg2).trans (st_main_arg2 (launchContents m c)),
      (h c main_arg3).trans (st_main_arg3 (launchContents m c)),
      (h c main_arg4).trans (st_main_arg4 (launchContents m c)),
      (h c main_arg5).trans (st_main_arg5 (launchContents m c)),
      (h c main_arg6).trans (st_main_arg6 (launchContents m c))⟩)
    (run_seq scopedRefs_eq scopedSems_eq defs main (fun _ => ops) main_eq (fun _ => ops_sub) m ρ)

end Cert.ReferenceIdeal.RunP

end
-- ==== Proof.BitsTrips.lean ====
/-
  The sixteen trips of the kernel's loop, as writes into the output block.

  Trip `k` loads row `k` of the input block and row `k` of the state block (each a 1 x 512 x C slab), runs the
  cell's arithmetic on them — one pure term of the two slabs and of the five resident operands — and stores the
  resulting 1 x 512 x 64 slab at row `k` of the output block. So after all sixteen trips row `r` of the output
  block holds the cell's term of row `r` of the two input blocks, whatever the block held before: each row is
  written exactly once, by trip `r`, and trips after it write other rows.
-/
import proofs.«113021_j41188736368837_2_alg».proof.Proof.Gen.Kernel.Loops
import Idealize.ShloMosaic.Lib.WritesUnit
import Idealize.ShloMosaic.Lib.ValueIdx

set_option maxRecDepth 16384

noncomputable section

namespace Cert.Kernel.Trips

open Cert.Kernel Cert.Kernel.Gen
open Idealize.ShloMosaic Idealize.ShloMosaic.TcCoe Idealize.SL.Sem

variable {F : FTy → Type} [FloatOps F]

/-- The loop runs sixteen trips. -/
theorem trips_eq : k0_t1_loop.trips = 16 := by decide +kernel

variable (arg1 : Memref sig .tc .vmem S16x512x2 .f32) (arg2 : Memref sig .tc .vmem S16x512x64 .f32)
  (v0 : Vec F S512x512 .bf16) (v2 : Vec F S198x128 .bf16) (v4 : Vec F S1x128 .f32) (v6 : Vec F S198x64 .bf16) (v8 : Vec F S1x64 .f32)
  (X1 : BufTy.Contents (Elt F) arg1.view.ty) (X2 : BufTy.Contents (Elt F) arg2.view.ty)

/-- The slab trip `k` stores: the cell's term of row `k` of the two input blocks. -/
def rowPay (k : Fin k0_t1_loop.trips) : FVec F S1x512x64 .f32 :=
  k0_pay6 (k0_pay7 (k0_pay1 v0) (k0_pay2 v2) (k0_pay3 v4) (k0_pay4 v6) (k0_pay5 v8)
    (View.readAt (Elt F) arg1.view (Rect.unit (s := S16x512x2) (k0_off1 k) S1x512x2.size (k0_off1_inb k)).toLoadRect X1)
    (View.readAt (Elt F) arg2.view (Rect.unit (s := S16x512x64) (k0_off2 k) S1x512x64.size (k0_off2_inb k)).toLoadRect X2))

/-- Trip `k`'s one write: that slab at row `k`. -/
def pieceAt (k : Fin k0_t1_loop.trips) : View.Piece (Elt F) S16x512x64 .f32 :=
  ⟨Rect.unit (s := S16x512x64) (k0_off2 k) S1x512x64.size (k0_off2_inb k), rowPay arg1 arg2 v0 v2 v4 v6 v8 X1 X2 k⟩

/-- The writes of the trips before `k`, newest first. -/
def piecesTo : ℕ → List (View.Piece (Elt F) S16x512x64 .f32)
  | 0 => []
  | k + 1 => if h : k < k0_t1_loop.trips then pieceAt arg1 arg2 v0 v2 v4 v6 v8 X1 X2 ⟨k, h⟩ :: piecesTo k else piecesTo k

/-- A trip writes that one piece, whatever the output block holds when it starts. -/
theorem tripL_eq (𝒱 : Variants) (c : Dev nD) (bd : Option 𝒱.V) (i : grid0.Coords) (harg1 : arg1.IsWhole) (harg2 : arg2.IsWhole)
    (arg3 : Memref sig .tc .vmem S512x512 .bf16) (harg3 : arg3.IsWhole) (arg4 : Memref sig .tc .vmem S198x128 .bf16) (harg4 : arg4.IsWhole)
    (arg5 : Memref sig .tc .vmem S1x128 .f32) (harg5 : arg5.IsWhole) (arg6 : Memref sig .tc .vmem S198x64 .bf16) (harg6 : arg6.IsWhole)
    (arg7 : Memref sig .tc .vmem S1x64 .f32) (harg7 : arg7.IsWhole) (arg8 : Memref sig .tc .vmem S16x512x64 .f32) (harg8 : arg8.IsWhole)
    (k : Fin k0_t1_loop.trips) (f : BufTy.Contents (Elt F) arg8.view.ty) :
    tripL_k0_t1 (F := F) 𝒱 c bd i arg1 harg1 arg2 harg2 arg3 harg3 arg4 harg4 arg5 harg5 arg6 harg6 arg7 harg7 arg8 harg8 v0 v2 v4 v6 v8 X1 X2 k f
      = [pieceAt arg1 arg2 v0 v2 v4 v6 v8 X1 X2 k] := by
  unfold tripL_k0_t1 trip_k0_t1
  rfl

/-- So the writes of the trips before `k` are those pieces, whatever the block held at the loop's entry. -/
theorem pb_eq (𝒱 : Variants) (c : Dev nD) (bd : Option 𝒱.V) (i : grid0.Coords) (harg1 : arg1.IsWhole) (harg2 : arg2.IsWhole)
    (arg3 : Memref sig .tc .vmem S512x512 .bf16) (harg3 : arg3.IsWhole) (arg4 : Memref sig .tc .vmem S198x128 .bf16) (harg4 : arg4.IsWhole)
    (arg5 : Memref sig .tc .vmem S1x128 .f32) (harg5 : arg5.IsWhole) (arg6 : Memref sig .tc .vmem S198x64 .bf16) (harg6 : arg6.IsWhole)
    (arg7 : Memref sig .tc .vmem S1x64 .f32) (harg7 : arg7.IsWhole) (arg8 : Memref sig .tc .vmem S16x512x64 .f32) (harg8 : arg8.IsWhole)
    (G : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 v2 v4 v6 v8 X1 X2 G k
      = piecesTo arg1 arg2 v0 v2 v4 v6 v8 X1 X2 k := by
  induction k with
  | zero => rfl
  | succ k ih =>
    rw [pb_k0_t1.eq_2]; unfold pb_k0_t1Step
    rw [piecesTo]
    by_cases h : k < k0_t1_loop.trips
    · rw [dif_pos h, dif_pos h, tripL_eq, ih]; rfl
    · rw [dif_neg h, dif_neg h, ih]

/-- The output block after the loop: row `r` is trip `r`'s slab. -/
def blockOf : S16x512x64.Idx → Elt F .f32 := fun y =>
  rowPay arg1 arg2 v0 v2 v4 v6 v8 X1 X2 ⟨(y 0).val, by rw [trips_eq]; exact (y 0).isLt⟩
    (ValueIdx.ix3 (0 : Fin 1) (⟨(y 1).val, (y 1).isLt⟩ : Fin 512) (⟨(y 2).val, (y 2).isLt⟩ : Fin 64))

/-- After the trips before `k`, every row below `k` of the block holds its slab — through any view of the block and
    over any prior contents. -/
theorem read_piecesTo {sig' : RefSig} {κ : Kind} {sp : Space} (v : View sig' κ sp S16x512x64 .f32) (f : v.ty.Contents (Elt F)) :
    ∀ (k : ℕ), k ≤ 16 → ∀ y : S16x512x64.Idx, (y 0).val < k →
      v.read (Elt F) (v.writes (Elt F) f (piecesTo arg1 arg2 v0 v2 v4 v6 v8 X1 X2 k)) y = blockOf arg1 arg2 v0 v2 v4 v6 v8 X1 X2 y := by
  intro k
  induction k with
  | zero => intro _ y hy; exact absurd hy (Nat.not_lt_zero _)
  | succ k ih =>
    intro hk y hy
    have hkt : k < k0_t1_loop.trips := by rw [trips_eq]; omega
    rw [piecesTo, dif_pos hkt]
    by_cases hyk : (y 0).val = k
    · -- the newest piece is this row's
      unfold pieceAt
      refine (View.read_writes_cons_unit_of_mem v f (k0_off2_inb ⟨k, hkt⟩) _ _ y
        (ValueIdx.ix3 (0 : Fin 1) (⟨(y 1).val, (y 1).isLt⟩ : Fin 512) (⟨(y 2).val, (y 2).isLt⟩ : Fin 64))
        (k0_off2_eq ⟨k, hkt⟩) ?_).trans ?_
      · intro a
        match a with
        | ⟨0, _⟩ => show (y 0).val = k + 0; omega
        | ⟨1, _⟩ => show (y 1).val = 0 + (y 1).val; omega
        | ⟨2, _⟩ => show (y 2).val = 0 + (y 2).val; omega
      · unfold blockOf
        have e : (⟨(y 0).val, by rw [trips_eq]; exact (y 0).isLt⟩ : Fin k0_t1_loop.trips) = ⟨k, hkt⟩ := Fin.ext hyk
        rw [e]
    · -- an older row: the newest piece misses it
      unfold pieceAt
      rw [View.read_writes_cons_unit_of_not_mem v f (k0_off2_inb ⟨k, hkt⟩) _ _ y (k0_off2_eq ⟨k, hkt⟩) (0 : Fin 3)
        (Or.inl (by show (y 0).val < k; omega))]
      exact ih (by omega) y (by omega)

/-- After all sixteen trips the block is `blockOf`, through any view and over any prior contents. -/
theorem read_pieces16 {sig' : RefSig} {κ : Kind} {sp : Space} (v : View sig' κ sp S16x512x64 .f32) (f : v.ty.Contents (Elt F)) :
    v.read (Elt F) (v.writes (Elt F) f (piecesTo arg1 arg2 v0 v2 v4 v6 v8 X1 X2 16)) = blockOf arg1 arg2 v0 v2 v4 v6 v8 X1 X2 :=
  funext fun y => read_piecesTo arg1 arg2 v0 v2 v4 v6 v8 X1 X2 v f 16 le_rfl y (y 0).isLt

end Cert.Kernel.Trips

end
-- ==== Proof.BitsBody.lean ====
/-
  The kernel's body at a grid point, and what it leaves in the output block.

  On whole staging buffers — the seven inputs' at their blocks, the output's at anything — the body loads the five
  resident operands, runs its sixteen trips, and returns; the inputs' buffers are untouched and the output's holds
  the sixteen slabs the trips wrote (the module of the trips says which). This is the obligation the pipeline asks
  of the body at every point; from it the launch theorem gives the run of the whole program.
-/
import proofs.«113021_j41188736368837_2_alg».proof.Proof.Gen.Kernel.Frame
import proofs.«113021_j41188736368837_2_alg».proof.Proof.Gen.Kernel.Loops
import proofs.«113021_j41188736368837_2_alg».proof.Proof.BitsTrips

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the pipeline passes at a point -/

abbrev ms0_0 (t : Fin cfg0.N) : Memref sig .tc .vmem S16x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S198x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S198x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x512x64 .f32 := win0_7.stage (cfg0.slots t 7)
abbrev hs0_7 (t : Fin cfg0.N) : (ms0_7 t).IsWhole := hstage0_7 ((cfg0.slots t 7).cast nbuf0_7)

/-! ## The body on any whole staging buffers -/

set_option maxHeartbeats 1000000 in
/-- The body's triple: holding the seven inputs' buffers at their contents and the output's at anything, the body
    runs to its continuation with the inputs' as they were and the output's overwritten by a list of writes — the
    list the run itself finds, as a function of what the output held. -/
noncomputable def kernelRun (c : Dev nD) (i : grid0.Coords) (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole) (arg8 : Memref sig .tc .vmem S16x512x64 .f32) (harg8 : arg8.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) :
    { L : BufTy.Contents (Elt F) arg8.view.ty → List (View.Piece (Elt F) S16x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f (L f))) -∗ K ⟨⟩))
          ⊢ wp frame (wpE (defs₀ (F := F)) Variants.none c none) E (cc0__gru_kernel i arg1 harg1 arg2 harg2 arg3 harg3 arg4 harg4 arg5 harg5 arg6 harg6 arg7 harg7 arg8 harg8) K } := by
  refine ⟨?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The resident operands as the body loads them, and the two blocks' buffers, from the blocks' contents. -/
abbrev ldW (arg3 : Memref sig .tc .vmem S512x512 .bf16) (harg3 : arg3.IsWhole) (x2 : Vec F S512x512 .bf16) : Vec F S512x512 .bf16 :=
  View.readAt (Elt F) arg3.view (Rect.unit (s := S512x512) ![0, 0] S512x512.size inb_S512x512_S512x512_0_0).toLoadRect (harg3.unread x2)
abbrev ldG (arg4 : Memref sig .tc .vmem S198x128 .bf16) (harg4 : arg4.IsWhole) (x3 : Vec F S198x128 .bf16) : Vec F S198x128 .bf16 :=
  View.readAt (Elt F) arg4.view (Rect.unit (s := S198x128) ![0, 0] S198x128.size inb_S198x128_S198x128_0_0).toLoadRect (harg4.unread x3)
abbrev ldGb (arg5 : Memref sig .tc .vmem S1x128 .f32) (harg5 : arg5.IsWhole) (x4 : Vec F S1x128 .f32) : Vec F S1x128 .f32 :=
  View.readAt (Elt F) arg5.view (Rect.unit (s := S1x128) ![0, 0] S1x128.size inb_S1x128_S1x128_0_0).toLoadRect (harg5.unread x4)
abbrev ldC (arg6 : Memref sig .tc .vmem S198x64 .bf16) (harg6 : arg6.IsWhole) (x5 : Vec F S198x64 .bf16) : Vec F S198x64 .bf16 :=
  View.readAt (Elt F) arg6.view (Rect.unit (s := S198x64) ![0, 0] S198x64.size inb_S198x64_S198x64_0_0).toLoadRect (harg6.unread x5)
abbrev ldCb (arg7 : Memref sig .tc .vmem S1x64 .f32) (harg7 : arg7.IsWhole) (x6 : Vec F S1x64 .f32) : Vec F S1x64 .f32 :=
  View.readAt (Elt F) arg7.view (Rect.unit (s := S1x64) ![0, 0] S1x64.size inb_S1x64_S1x64_0_0).toLoadRect (harg7.unread x6)

/-- What the body leaves in the output block, from the seven blocks it was handed: row `r` is the cell's term of row
    `r` of the input and state blocks. -/
def outOf (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) : Vec F S16x512x64 .f32 :=
  Trips.blockOf arg1 arg2 (ldW arg3 harg3 x2) (ldG arg4 harg4 x3) (ldGb arg5 harg5 x4) (ldC arg6 harg6 x5) (ldCb arg7 harg7 x6)
    (harg1.unread x0) (harg2.unread x1)

/-- The writes the run found are the sixteen trips' pieces, whatever the output block held. -/
theorem kernelRun_pieces (c : Dev nD) (i : grid0.Coords) (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole) (arg8 : Memref sig .tc .vmem S16x512x64 .f32) (harg8 : arg8.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) (f : BufTy.Contents (Elt F) arg8.view.ty) :
    (kernelRun c i arg1 harg1 arg2 harg2 arg3 harg3 arg4 harg4 arg5 harg5 arg6 harg6 arg7 harg7 arg8 harg8 x0 x1 x2 x3 x4 x5 x6).1 f
      = Trips.piecesTo arg1 arg2 (ldW arg3 harg3 x2) (ldG arg4 harg4 x3) (ldGb arg5 harg5 x4) (ldC arg6 harg6 x5) (ldCb arg7 harg7 x6)
          (harg1.unread x0) (harg2.unread x1) 16 :=
  (Trips.pb_eq arg1 arg2 (ldW arg3 harg3 x2) (ldG arg4 harg4 x3) (ldGb arg5 harg5 x4) (ldC arg6 harg6 x5) (ldCb arg7 harg7 x6)
      (harg1.unread x0) (harg2.unread x1) Variants.none c none i harg1 harg2 arg3 harg3 arg4 harg4 arg5 harg5 arg6 harg6 arg7 harg7 arg8 harg8 f
      k0_t1_loop.trips).trans (congrArg _ Trips.trips_eq)

/-! ## The pipeline's proof data -/

/-- What the output's staging buffer holds after the body at point `t`. -/
def outAt (c : Dev nD) (t : Fin cfg0.N) : Vec F S16x512x64 .f32 :=
  outOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

/-- The proof data of the one pipeline on core `c`: the arrays as the region finds them; after the body at point `t`
    each input's buffer at its block and the output's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' buffers hold their blocks, so the run applies; the output's buffer ends at the
    sixteen trips' writes, which read as `outAt` whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [kernelRun_pieces]
  exact Trips.read_pieces16 _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data — the output's from `outAt`, block by block — and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.IdealTrips.lean ====
/-
  The sixteen trips of the kernel's loop, as writes into the output block.

  Trip `k` loads row `k` of the input block and row `k` of the state block (each a 1 x 512 x C slab), runs the
  cell's arithmetic on them — one pure term of the two slabs and of the five resident operands — and stores the
  resulting 1 x 512 x 64 slab at row `k` of the output block. So after all sixteen trips row `r` of the output
  block holds the cell's term of row `r` of the two input blocks, whatever the block held before: each row is
  written exactly once, by trip `r`, and trips after it write other rows.
-/
import proofs.«113021_j41188736368837_2_alg».proof.Proof.Gen.KernelIdeal.Loops
import Idealize.ShloMosaic.Lib.WritesUnit
import Idealize.ShloMosaic.Lib.ValueIdx

set_option maxRecDepth 16384

noncomputable section

namespace Cert.KernelIdeal.Trips

open Cert.KernelIdeal Cert.KernelIdeal.Gen
open Idealize.ShloMosaic Idealize.ShloMosaic.TcCoe Idealize.SL.Sem

variable {F : FTy → Type} [FloatOps F]

/-- The loop runs sixteen trips. -/
theorem trips_eq : k0_t1_loop.trips = 16 := by decide +kernel

variable (arg1 : Memref sig .tc .vmem S16x512x2 .f32) (arg2 : Memref sig .tc .vmem S16x512x64 .f32)
  (v0 : Vec F S512x512 .bf16) (v2 : Vec F S198x128 .bf16) (v4 : Vec F S1x128 .f32) (v6 : Vec F S198x64 .bf16) (v8 : Vec F S1x64 .f32)
  (X1 : BufTy.Contents (Elt F) arg1.view.ty) (X2 : BufTy.Contents (Elt F) arg2.view.ty)

/-- The slab trip `k` stores: the cell's term of row `k` of the two input blocks. -/
def rowPay (k : Fin k0_t1_loop.trips) : FVec F S1x512x64 .f32 :=
  k0_pay6 (k0_pay7 (k0_pay1 v0) (k0_pay2 v2) (k0_pay3 v4) (k0_pay4 v6) (k0_pay5 v8)
    (View.readAt (Elt F) arg1.view (Rect.unit (s := S16x512x2) (k0_off1 k) S1x512x2.size (k0_off1_inb k)).toLoadRect X1)
    (View.readAt (Elt F) arg2.view (Rect.unit (s := S16x512x64) (k0_off2 k) S1x512x64.size (k0_off2_inb k)).toLoadRect X2))

/-- Trip `k`'s one write: that slab at row `k`. -/
def pieceAt (k : Fin k0_t1_loop.trips) : View.Piece (Elt F) S16x512x64 .f32 :=
  ⟨Rect.unit (s := S16x512x64) (k0_off2 k) S1x512x64.size (k0_off2_inb k), rowPay arg1 arg2 v0 v2 v4 v6 v8 X1 X2 k⟩

/-- The writes of the trips before `k`, newest first. -/
def piecesTo : ℕ → List (View.Piece (Elt F) S16x512x64 .f32)
  | 0 => []
  | k + 1 => if h : k < k0_t1_loop.trips then pieceAt arg1 arg2 v0 v2 v4 v6 v8 X1 X2 ⟨k, h⟩ :: piecesTo k else piecesTo k

/-- A trip writes that one piece, whatever the output block holds when it starts. -/
theorem tripL_eq (𝒱 : Variants) (c : Dev nD) (bd : Option 𝒱.V) (i : grid0.Coords) (harg1 : arg1.IsWhole) (harg2 : arg2.IsWhole)
    (arg3 : Memref sig .tc .vmem S512x512 .bf16) (harg3 : arg3.IsWhole) (arg4 : Memref sig .tc .vmem S198x128 .bf16) (harg4 : arg4.IsWhole)
    (arg5 : Memref sig .tc .vmem S1x128 .f32) (harg5 : arg5.IsWhole) (arg6 : Memref sig .tc .vmem S198x64 .bf16) (harg6 : arg6.IsWhole)
    (arg7 : Memref sig .tc .vmem S1x64 .f32) (harg7 : arg7.IsWhole) (arg8 : Memref sig .tc .vmem S16x512x64 .f32) (harg8 : arg8.IsWhole)
    (k : Fin k0_t1_loop.trips) (f : BufTy.Contents (Elt F) arg8.view.ty) :
    tripL_k0_t1 (F := F) 𝒱 c bd i arg1 harg1 arg2 harg2 arg3 harg3 arg4 harg4 arg5 harg5 arg6 harg6 arg7 harg7 arg8 harg8 v0 v2 v4 v6 v8 X1 X2 k f
      = [pieceAt arg1 arg2 v0 v2 v4 v6 v8 X1 X2 k] := by
  unfold tripL_k0_t1 trip_k0_t1
  rfl

/-- So the writes of the trips before `k` are those pieces, whatever the block held at the loop's entry. -/
theorem pb_eq (𝒱 : Variants) (c : Dev nD) (bd : Option 𝒱.V) (i : grid0.Coords) (harg1 : arg1.IsWhole) (harg2 : arg2.IsWhole)
    (arg3 : Memref sig .tc .vmem S512x512 .bf16) (harg3 : arg3.IsWhole) (arg4 : Memref sig .tc .vmem S198x128 .bf16) (harg4 : arg4.IsWhole)
    (arg5 : Memref sig .tc .vmem S1x128 .f32) (harg5 : arg5.IsWhole) (arg6 : Memref sig .tc .vmem S198x64 .bf16) (harg6 : arg6.IsWhole)
    (arg7 : Memref sig .tc .vmem S1x64 .f32) (harg7 : arg7.IsWhole) (arg8 : Memref sig .tc .vmem S16x512x64 .f32) (harg8 : arg8.IsWhole)
    (G : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 v2 v4 v6 v8 X1 X2 G k
      = piecesTo arg1 arg2 v0 v2 v4 v6 v8 X1 X2 k := by
  induction k with
  | zero => rfl
  | succ k ih =>
    rw [pb_k0_t1.eq_2]; unfold pb_k0_t1Step
    rw [piecesTo]
    by_cases h : k < k0_t1_loop.trips
    · rw [dif_pos h, dif_pos h, tripL_eq, ih]; rfl
    · rw [dif_neg h, dif_neg h, ih]

/-- The output block after the loop: row `r` is trip `r`'s slab. -/
def blockOf : S16x512x64.Idx → Elt F .f32 := fun y =>
  rowPay arg1 arg2 v0 v2 v4 v6 v8 X1 X2 ⟨(y 0).val, by rw [trips_eq]; exact (y 0).isLt⟩
    (ValueIdx.ix3 (0 : Fin 1) (⟨(y 1).val, (y 1).isLt⟩ : Fin 512) (⟨(y 2).val, (y 2).isLt⟩ : Fin 64))

/-- After the trips before `k`, every row below `k` of the block holds its slab — through any view of the block and
    over any prior contents. -/
theorem read_piecesTo {sig' : RefSig} {κ : Kind} {sp : Space} (v : View sig' κ sp S16x512x64 .f32) (f : v.ty.Contents (Elt F)) :
    ∀ (k : ℕ), k ≤ 16 → ∀ y : S16x512x64.Idx, (y 0).val < k →
      v.read (Elt F) (v.writes (Elt F) f (piecesTo arg1 arg2 v0 v2 v4 v6 v8 X1 X2 k)) y = blockOf arg1 arg2 v0 v2 v4 v6 v8 X1 X2 y := by
  intro k
  induction k with
  | zero => intro _ y hy; exact absurd hy (Nat.not_lt_zero _)
  | succ k ih =>
    intro hk y hy
    have hkt : k < k0_t1_loop.trips := by rw [trips_eq]; omega
    rw [piecesTo, dif_pos hkt]
    by_cases hyk : (y 0).val = k
    · -- the newest piece is this row's
      unfold pieceAt
      refine (View.read_writes_cons_unit_of_mem v f (k0_off2_inb ⟨k, hkt⟩) _ _ y
        (ValueIdx.ix3 (0 : Fin 1) (⟨(y 1).val, (y 1).isLt⟩ : Fin 512) (⟨(y 2).val, (y 2).isLt⟩ : Fin 64))
        (k0_off2_eq ⟨k, hkt⟩) ?_).trans ?_
      · intro a
        match a with
        | ⟨0, _⟩ => show (y 0).val = k + 0; omega
        | ⟨1, _⟩ => show (y 1).val = 0 + (y 1).val; omega
        | ⟨2, _⟩ => show (y 2).val = 0 + (y 2).val; omega
      · unfold blockOf
        have e : (⟨(y 0).val, by rw [trips_eq]; exact (y 0).isLt⟩ : Fin k0_t1_loop.trips) = ⟨k, hkt⟩ := Fin.ext hyk
        rw [e]
    · -- an older row: the newest piece misses it
      unfold pieceAt
      rw [View.read_writes_cons_unit_of_not_mem v f (k0_off2_inb ⟨k, hkt⟩) _ _ y (k0_off2_eq ⟨k, hkt⟩) (0 : Fin 3)
        (Or.inl (by show (y 0).val < k; omega))]
      exact ih (by omega) y (by omega)

/-- After all sixteen trips the block is `blockOf`, through any view and over any prior contents. -/
theorem read_pieces16 {sig' : RefSig} {κ : Kind} {sp : Space} (v : View sig' κ sp S16x512x64 .f32) (f : v.ty.Contents (Elt F)) :
    v.read (Elt F) (v.writes (Elt F) f (piecesTo arg1 arg2 v0 v2 v4 v6 v8 X1 X2 16)) = blockOf arg1 arg2 v0 v2 v4 v6 v8 X1 X2 :=
  funext fun y => read_piecesTo arg1 arg2 v0 v2 v4 v6 v8 X1 X2 v f 16 le_rfl y (y 0).isLt

end Cert.KernelIdeal.Trips

end
-- ==== Proof.IdealBody.lean ====
/-
  The kernel's body at a grid point, and what it leaves in the output block.

  On whole staging buffers — the seven inputs' at their blocks, the output's at anything — the body loads the five
  resident operands, runs its sixteen trips, and returns; the inputs' buffers are untouched and the output's holds
  the sixteen slabs the trips wrote (the module of the trips says which). This is the obligation the pipeline asks
  of the body at every point; from it the launch theorem gives the run of the whole program.
-/
import proofs.«113021_j41188736368837_2_alg».proof.Proof.Gen.KernelIdeal.Frame
import proofs.«113021_j41188736368837_2_alg».proof.Proof.Gen.KernelIdeal.Loops
import proofs.«113021_j41188736368837_2_alg».proof.Proof.IdealTrips

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the pipeline passes at a point -/

abbrev ms0_0 (t : Fin cfg0.N) : Memref sig .tc .vmem S16x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S198x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S198x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x512x64 .f32 := win0_7.stage (cfg0.slots t 7)
abbrev hs0_7 (t : Fin cfg0.N) : (ms0_7 t).IsWhole := hstage0_7 ((cfg0.slots t 7).cast nbuf0_7)

/-! ## The body on any whole staging buffers -/

set_option maxHeartbeats 1000000 in
/-- The body's triple: holding the seven inputs' buffers at their contents and the output's at anything, the body
    runs to its continuation with the inputs' as they were and the output's overwritten by a list of writes — the
    list the run itself finds, as a function of what the output held. -/
noncomputable def kernelRun (c : Dev nD) (i : grid0.Coords) (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole) (arg8 : Memref sig .tc .vmem S16x512x64 .f32) (harg8 : arg8.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) :
    { L : BufTy.Contents (Elt F) arg8.view.ty → List (View.Piece (Elt F) S16x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f (L f))) -∗ K ⟨⟩))
          ⊢ wp frame (wpE (defs₀ (F := F)) Variants.none c none) E (cc0__gru_kernel i arg1 harg1 arg2 harg2 arg3 harg3 arg4 harg4 arg5 harg5 arg6 harg6 arg7 harg7 arg8 harg8) K } := by
  refine ⟨?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The resident operands as the body loads them, and the two blocks' buffers, from the blocks' contents. -/
abbrev ldW (arg3 : Memref sig .tc .vmem S512x512 .bf16) (harg3 : arg3.IsWhole) (x2 : Vec F S512x512 .bf16) : Vec F S512x512 .bf16 :=
  View.readAt (Elt F) arg3.view (Rect.unit (s := S512x512) ![0, 0] S512x512.size inb_S512x512_S512x512_0_0).toLoadRect (harg3.unread x2)
abbrev ldG (arg4 : Memref sig .tc .vmem S198x128 .bf16) (harg4 : arg4.IsWhole) (x3 : Vec F S198x128 .bf16) : Vec F S198x128 .bf16 :=
  View.readAt (Elt F) arg4.view (Rect.unit (s := S198x128) ![0, 0] S198x128.size inb_S198x128_S198x128_0_0).toLoadRect (harg4.unread x3)
abbrev ldGb (arg5 : Memref sig .tc .vmem S1x128 .f32) (harg5 : arg5.IsWhole) (x4 : Vec F S1x128 .f32) : Vec F S1x128 .f32 :=
  View.readAt (Elt F) arg5.view (Rect.unit (s := S1x128) ![0, 0] S1x128.size inb_S1x128_S1x128_0_0).toLoadRect (harg5.unread x4)
abbrev ldC (arg6 : Memref sig .tc .vmem S198x64 .bf16) (harg6 : arg6.IsWhole) (x5 : Vec F S198x64 .bf16) : Vec F S198x64 .bf16 :=
  View.readAt (Elt F) arg6.view (Rect.unit (s := S198x64) ![0, 0] S198x64.size inb_S198x64_S198x64_0_0).toLoadRect (harg6.unread x5)
abbrev ldCb (arg7 : Memref sig .tc .vmem S1x64 .f32) (harg7 : arg7.IsWhole) (x6 : Vec F S1x64 .f32) : Vec F S1x64 .f32 :=
  View.readAt (Elt F) arg7.view (Rect.unit (s := S1x64) ![0, 0] S1x64.size inb_S1x64_S1x64_0_0).toLoadRect (harg7.unread x6)

/-- What the body leaves in the output block, from the seven blocks it was handed: row `r` is the cell's term of row
    `r` of the input and state blocks. -/
def outOf (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) : Vec F S16x512x64 .f32 :=
  Trips.blockOf arg1 arg2 (ldW arg3 harg3 x2) (ldG arg4 harg4 x3) (ldGb arg5 harg5 x4) (ldC arg6 harg6 x5) (ldCb arg7 harg7 x6)
    (harg1.unread x0) (harg2.unread x1)

/-- The writes the run found are the sixteen trips' pieces, whatever the output block held. -/
theorem kernelRun_pieces (c : Dev nD) (i : grid0.Coords) (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole) (arg8 : Memref sig .tc .vmem S16x512x64 .f32) (harg8 : arg8.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32) (f : BufTy.Contents (Elt F) arg8.view.ty) :
    (kernelRun c i arg1 harg1 arg2 harg2 arg3 harg3 arg4 harg4 arg5 harg5 arg6 harg6 arg7 harg7 arg8 harg8 x0 x1 x2 x3 x4 x5 x6).1 f
      = Trips.piecesTo arg1 arg2 (ldW arg3 harg3 x2) (ldG arg4 harg4 x3) (ldGb arg5 harg5 x4) (ldC arg6 harg6 x5) (ldCb arg7 harg7 x6)
          (harg1.unread x0) (harg2.unread x1) 16 :=
  (Trips.pb_eq arg1 arg2 (ldW arg3 harg3 x2) (ldG arg4 harg4 x3) (ldGb arg5 harg5 x4) (ldC arg6 harg6 x5) (ldCb arg7 harg7 x6)
      (harg1.unread x0) (harg2.unread x1) Variants.none c none i harg1 harg2 arg3 harg3 arg4 harg4 arg5 harg5 arg6 harg6 arg7 harg7 arg8 harg8 f
      k0_t1_loop.trips).trans (congrArg _ Trips.trips_eq)

/-! ## The pipeline's proof data -/

/-- What the output's staging buffer holds after the body at point `t`. -/
def outAt (c : Dev nD) (t : Fin cfg0.N) : Vec F S16x512x64 .f32 :=
  outOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

/-- The proof data of the one pipeline on core `c`: the arrays as the region finds them; after the body at point `t`
    each input's buffer at its block and the output's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' buffers hold their blocks, so the run applies; the output's buffer ends at the
    sixteen trips' writes, which read as `outAt` whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [kernelRun_pieces]
  exact Trips.read_pieces16 _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data — the output's from `outAt`, block by block — and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.IdealBlocks.lean ====
/-
  The idealized kernel's blocks, read at coordinates.

  A load of a whole staging buffer reads its contents; a load of row `k` of a 16-row block reads that row. So the
  slab the body leaves at row `r` of the output block is the cell's term of: the five resident blocks as they are,
  and row `r` of the input and state blocks. The windows' blocks themselves are pieces of the arrays the region
  finds: at grid point `t` the input, state and output blocks are batch rows `16 t … 16 t + 15`, and the five
  resident blocks are their whole arrays; every batch row lies in exactly one point's block (`t = row / 16`).
-/
import proofs.«113021_j41188736368837_2_alg».proof.Proof.IdealBody
import Idealize.ShloMosaic.Lib.Pipeline.Value
import Idealize.ShloMosaic.Lib.ValueLayout
import Idealize.ShloMosaic.Lib.ValueIdx

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable {F : FTy → Type} [FloatOps F]

theorem hz2 : (![0, 0] : Fin 2 → Nat) = fun _ => 0 := funext fun a => by fin_cases a <;> rfl

/-! ## Loads -/

theorem ldW_eq (arg3 : Memref sig .tc .vmem S512x512 .bf16) (harg3 : arg3.IsWhole) (x2 : Vec F S512x512 .bf16) :
    ldW arg3 harg3 x2 = x2 := by
  unfold ldW
  rw [View.readAt_eq_ld, harg3.read_unread]
  exact View.ld_unit_zero (S := S512x512) hz2 _ _
theorem ldG_eq (arg4 : Memref sig .tc .vmem S198x128 .bf16) (harg4 : arg4.IsWhole) (x3 : Vec F S198x128 .bf16) :
    ldG arg4 harg4 x3 = x3 := by
  unfold ldG
  rw [View.readAt_eq_ld, harg4.read_unread]
  exact View.ld_unit_zero (S := S198x128) hz2 _ _
theorem ldGb_eq (arg5 : Memref sig .tc .vmem S1x128 .f32) (harg5 : arg5.IsWhole) (x4 : Vec F S1x128 .f32) :
    ldGb arg5 harg5 x4 = x4 := by
  unfold ldGb
  rw [View.readAt_eq_ld, harg5.read_unread]
  exact View.ld_unit_zero (S := S1x128) hz2 _ _
theorem ldC_eq (arg6 : Memref sig .tc .vmem S198x64 .bf16) (harg6 : arg6.IsWhole) (x5 : Vec F S198x64 .bf16) :
    ldC arg6 harg6 x5 = x5 := by
  unfold ldC
  rw [View.readAt_eq_ld, harg6.read_unread]
  exact View.ld_unit_zero (S := S198x64) hz2 _ _
theorem ldCb_eq (arg7 : Memref sig .tc .vmem S1x64 .f32) (harg7 : arg7.IsWhole) (x6 : Vec F S1x64 .f32) :
    ldCb arg7 harg7 x6 = x6 := by
  unfold ldCb
  rw [View.readAt_eq_ld, harg7.read_unread]
  exact View.ld_unit_zero (S := S1x64) hz2 _ _

/-- Row `r` of a 16-row block, as a one-row slab. -/
def slab2 (x0 : Vec F S16x512x2 .f32) (r : Fin 16) : Vec F S1x512x2 .f32 :=
  fun z => x0 (ix3 r (⟨(z 1).val, (z 1).isLt⟩ : Fin 512) (⟨(z 2).val, (z 2).isLt⟩ : Fin 2))
def slab64 (x1 : Vec F S16x512x64 .f32) (r : Fin 16) : Vec F S1x512x64 .f32 :=
  fun z => x1 (ix3 r (⟨(z 1).val, (z 1).isLt⟩ : Fin 512) (⟨(z 2).val, (z 2).isLt⟩ : Fin 64))

/-- The load of row `k` of the input block reads that row. -/
theorem row2_eq (arg1 : Memref sig .tc .vmem S16x512x2 .f32) (harg1 : arg1.IsWhole) (x0 : Vec F S16x512x2 .f32)
    (k : Fin k0_t1_loop.trips) :
    View.readAt (Elt F) arg1.view (Rect.unit (s := S16x512x2) (k0_off1 k) S1x512x2.size (k0_off1_inb k)).toLoadRect (harg1.unread x0)
      = slab2 x0 ⟨k.val, lt_of_lt_of_eq k.isLt Trips.trips_eq⟩ := by
  funext z
  show (arg1.view.read (Elt F) (harg1.unread x0)) ((Rect.unit (s := S16x512x2) (k0_off1 k) S1x512x2.size (k0_off1_inb k)).emb z) = _
  rw [harg1.read_unread]
  unfold slab2
  congr 1
  funext a; apply Fin.ext
  have e0 : k0_off1 k 0 = k.val := congrFun (k0_off1_eq k) 0
  have e1 : k0_off1 k 1 = 0 := congrFun (k0_off1_eq k) 1
  have e2 : k0_off1 k 2 = 0 := congrFun (k0_off1_eq k) 2
  match a with
  | ⟨0, _⟩ => show k0_off1 k 0 + 1 * (z 0).val = k.val; have : (z 0).val < 1 := (z 0).isLt; omega
  | ⟨1, _⟩ => show k0_off1 k 1 + 1 * (z 1).val = (z 1).val; omega
  | ⟨2, _⟩ => show k0_off1 k 2 + 1 * (z 2).val = (z 2).val; omega

/-- The load of row `k` of the state block reads that row. -/
theorem row64_eq (arg2 : Memref sig .tc .vmem S16x512x64 .f32) (harg2 : arg2.IsWhole) (x1 : Vec F S16x512x64 .f32)
    (k : Fin k0_t1_loop.trips) :
    View.readAt (Elt F) arg2.view (Rect.unit (s := S16x512x64) (k0_off2 k) S1x512x64.size (k0_off2_inb k)).toLoadRect (harg2.unread x1)
      = slab64 x1 ⟨k.val, lt_of_lt_of_eq k.isLt Trips.trips_eq⟩ := by
  funext z
  show (arg2.view.read (Elt F) (harg2.unread x1)) ((Rect.unit (s := S16x512x64) (k0_off2 k) S1x512x64.size (k0_off2_inb k)).emb z) = _
  rw [harg2.read_unread]
  unfold slab64
  congr 1
  funext a; apply Fin.ext
  have e0 : k0_off2 k 0 = k.val := congrFun (k0_off2_eq k) 0
  have e1 : k0_off2 k 1 = 0 := congrFun (k0_off2_eq k) 1
  have e2 : k0_off2 k 2 = 0 := congrFun (k0_off2_eq k) 2
  match a with
  | ⟨0, _⟩ => show k0_off2 k 0 + 1 * (z 0).val = k.val; have : (z 0).val < 1 := (z 0).isLt; omega
  | ⟨1, _⟩ => show k0_off2 k 1 + 1 * (z 1).val = (z 1).val; omega
  | ⟨2, _⟩ => show k0_off2 k 2 + 1 * (z 2).val = (z 2).val; omega

/-- The output block the body leaves, at row `r`, node `n`, channel `o`: the cell's term of the resident blocks and of
    row `r` of the input and state blocks, at `(n, o)`. -/
theorem outOf_pay (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole)
    (x0 : Vec F S16x512x2 .f32) (x1 : Vec F S16x512x64 .f32) (x2 : Vec F S512x512 .bf16) (x3 : Vec F S198x128 .bf16) (x4 : Vec F S1x128 .f32) (x5 : Vec F S198x64 .bf16) (x6 : Vec F S1x64 .f32)
    (r : Fin 16) (n : Fin 512) (o : Fin 64) :
    outOf arg1 harg1 arg2 harg2 arg3 harg3 arg4 harg4 arg5 harg5 arg6 harg6 arg7 harg7 x0 x1 x2 x3 x4 x5 x6 (ix3 r n o)
      = k0_pay7 (F := F) x2 x3 x4 x5 x6 (slab2 x0 r) (slab64 x1 r) (ix2 n o) := by
  unfold outOf Trips.blockOf Trips.rowPay
  rw [ldW_eq, ldG_eq, ldGb_eq, ldC_eq, ldCb_eq, row2_eq, row64_eq]
  unfold k0_pay6 k0_pay1 k0_pay2 k0_pay3 k0_pay4 k0_pay5
  simp only [shapeCast_self]
  exact (shapeCast_ab_1ab_apply _ _ (0 : Fin 1) _ _).trans rfl

end Cert.KernelIdeal.Blocks

end
-- ==== Proof.IdealWindows.lean ====
/-
  The windows of the idealized kernel's one region, as pieces of the arrays the region finds.

  The grid has sixteen points. At point `t` the input, state and output windows hold batch rows
  `16 t … 16 t + 15` of their arrays (512 nodes, all channels); the five resident windows hold their whole arrays at
  every point. Every batch row lies in the block of point `row / 16`, so the sixteen output blocks cover the output.
-/
import proofs.«113021_j41188736368837_2_alg».proof.Proof.IdealBody
import Idealize.ShloMosaic.Lib.Pipeline.Value
import Idealize.ShloMosaic.Lib.ValueIdx

set_option maxRecDepth 16384

noncomputable section

namespace Cert.KernelIdeal.Windows

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- Sixteen grid points. -/
theorem N_eq : cfg0.N = 16 := by decide +kernel

/-- The printed index maps, decided over the grid: the three batch-tiled windows sit at block `t` of the batch axis,
    the five resident windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each window's block, read at coordinates -/

theorem iblk0_apply (c : Dev nD) (t : Fin cfg0.N) (r : Fin 16) (n : Fin 512) (f : Fin 2) :
    iblk m c 0 t (ix3 r n f) = V m c main_v0 (ix3 (⟨16 * t.val + r.val, by have := lt_of_lt_of_eq t.isLt N_eq; have := r.isLt; omega⟩ : Fin 256) n f) := by
  show V m c main_v0 (((cfg0.win 0).blk t).view.emb (ix3 r n f)) = _
  congr 1
  funext d; apply Fin.ext
  obtain ⟨e00, e01, e02, e10, e11, e12, e70, e71, e72, _⟩ := idx_facts t
  match d with
  | ⟨0, _⟩ => show win0_0.index t (0 : Fin 3) * 16 + 1 * r.val = 16 * t.val + r.val; omega
  | ⟨1, _⟩ => show win0_0.index t (1 : Fin 3) * 512 + 1 * n.val = n.val; omega
  | ⟨2, _⟩ => show win0_0.index t (2 : Fin 3) * 2 + 1 * f.val = f.val; omega

theorem iblk1_apply (c : Dev nD) (t : Fin cfg0.N) (r : Fin 16) (n : Fin 512) (f : Fin 64) :
    iblk m c 1 t (ix3 r n f) = V m c main_v1 (ix3 (⟨16 * t.val + r.val, by have := lt_of_lt_of_eq t.isLt N_eq; have := r.isLt; omega⟩ : Fin 256) n f) := by
  show V m c main_v1 (((cfg0.win 1).blk t).view.emb (ix3 r n f)) = _
  congr 1
  funext d; apply Fin.ext
  obtain ⟨e00, e01, e02, e10, e11, e12, e70, e71, e72, _⟩ := idx_facts t
  match d with
  | ⟨0, _⟩ => show win0_1.index t (0 : Fin 3) * 16 + 1 * r.val = 16 * t.val + r.val; omega
  | ⟨1, _⟩ => show win0_1.index t (1 : Fin 3) * 512 + 1 * n.val = n.val; omega
  | ⟨2, _⟩ => show win0_1.index t (2 : Fin 3) * 64 + 1 * f.val = f.val; omega

theorem iblk2_apply (c : Dev nD) (t : Fin cfg0.N) (a : Fin 512) (b : Fin 512) :
    iblk m c 2 t (ix2 a b) = V m c main_v19 (ix2 a b) := by
  show V m c main_v19 (((cfg0.win 2).blk t).view.emb (ix2 a b)) = _
  congr 1
  funext d; apply Fin.ext
  obtain ⟨_, _, _, _, _, _, _, _, _, e20, e21, e30, e31, e40, e41, e50, e51, e60, e61⟩ := idx_facts t
  match d with
  | ⟨0, _⟩ => show win0_2.index t (0 : Fin 2) * 512 + 1 * a.val = a.val; omega
  | ⟨1, _⟩ => show win0_2.index t (1 : Fin 2) * 512 + 1 * b.val = b.val; omega

theorem iblk3_apply (c : Dev nD) (t : Fin cfg0.N) (a : Fin 198) (b : Fin 128) :
    iblk m c 3 t (ix2 a b) = V m c main_v26 (ix2 a b) := by
  show V m c main_v26 (((cfg0.win 3).blk t).view.emb (ix2 a b)) = _
  congr 1
  funext d; apply Fin.ext
  obtain ⟨_, _, _, _, _, _, _, _, _, e20, e21, e30, e31, e40, e41, e50, e51, e60, e61⟩ := idx_facts t
  match d with
  | ⟨0, _⟩ => show win0_3.index t (0 : Fin 2) * 198 + 1 * a.val = a.val; omega
  | ⟨1, _⟩ => show win0_3.index t (1 : Fin 2) * 128 + 1 * b.val = b.val; omega

theorem iblk4_apply (c : Dev nD) (t : Fin cfg0.N) (a : Fin 1) (b : Fin 128) :
    iblk m c 4 t (ix2 a b) = V m c main_v28 (ix2 a b) := by
  show V m c main_v28 (((cfg0.win 4).blk t).view.emb (ix2 a b)) = _
  congr 1
  funext d; apply Fin.ext
  obtain ⟨_, _, _, _, _, _, _, _, _, e20, e21, e30, e31, e40, e41, e50, e51, e60, e61⟩ := idx_facts t
  match d with
  | ⟨0, _⟩ => show win0_4.index t (0 : Fin 2) * 1 + 1 * a.val = a.val; omega
  | ⟨1, _⟩ => show win0_4.index t (1 : Fin 2) * 128 + 1 * b.val = b.val; omega

theorem iblk5_apply (c : Dev nD) (t : Fin cfg0.N) (a : Fin 198) (b : Fin 64) :
    iblk m c 5 t (ix2 a b) = V m c main_v27 (ix2 a b) := by
  show V m c main_v27 (((cfg0.win 5).blk t).view.emb (ix2 a b)) = _
  congr 1
  funext d; apply Fin.ext
  obtain ⟨_, _, _, _, _, _, _, _, _, e20, e21, e30, e31, e40, e41, e50, e51, e60, e61⟩ := idx_facts t
  match d with
  | ⟨0, _⟩ => show win0_5.index t (0 : Fin 2) * 198 + 1 * a.val = a.val; omega
  | ⟨1, _⟩ => show win0_5.index t (1 : Fin 2) * 64 + 1 * b.val = b.val; omega

theorem iblk6_apply (c : Dev nD) (t : Fin cfg0.N) (a : Fin 1) (b : Fin 64) :
    iblk m c 6 t (ix2 a b) = V m c main_v29 (ix2 a b) := by
  show V m c main_v29 (((cfg0.win 6).blk t).view.emb (ix2 a b)) = _
  congr 1
  funext d; apply Fin.ext
  obtain ⟨_, _, _, _, _, _, _, _, _, e20, e21, e30, e31, e40, e41, e50, e51, e60, e61⟩ := idx_facts t
  match d with
  | ⟨0, _⟩ => show win0_6.index t (0 : Fin 2) * 1 + 1 * a.val = a.val; omega
  | ⟨1, _⟩ => show win0_6.index t (1 : Fin 2) * 64 + 1 * b.val = b.val; omega

/-! ## The output's blocks -/

/-- Where row `r`, node `n`, channel `o` of point `t`'s output block sits in the output array. -/
theorem emb7 (t : Fin cfg0.N) (r : Fin 16) (n : Fin 512) (o : Fin 64) :
    ((cfg0.win 7).blk t).view.emb (ix3 r n o)
      = ix3 (⟨16 * t.val + r.val, by have := lt_of_lt_of_eq t.isLt N_eq; have := r.isLt; omega⟩ : Fin 256) n o := by
  funext d; apply Fin.ext
  obtain ⟨e00, e01, e02, e10, e11, e12, e70, e71, e72, _⟩ := idx_facts t
  match d with
  | ⟨0, _⟩ => show win0_7.index t (0 : Fin 3) * 16 + 1 * r.val = 16 * t.val + r.val; omega
  | ⟨1, _⟩ => show win0_7.index t (1 : Fin 3) * 512 + 1 * n.val = n.val; omega
  | ⟨2, _⟩ => show win0_7.index t (2 : Fin 3) * 64 + 1 * o.val = o.val; omega

/-- An index of the output array is in point `t`'s block iff each coordinate is in the block's range on its axis. -/
theorem mem_blk7 (t : Fin cfg0.N) (i : S256x512x64.Idx) :
    i ∈ ((cfg0.win 7).blk t).view.set ↔ ∀ a : Fin 3, win0_7.index t a * S16x512x64.size a ≤ (i a).val ∧ (i a).val < win0_7.index t a * S16x512x64.size a + S16x512x64.size a := by
  show i ∈ ((View.whole main_v30).slice (win0_7.rect t)).set ↔ _
  rw [View.set_slice_whole, Rect.mem_set_unit]
  exact Iff.rfl

/-- Every index of the output array is in some point's block: batch row `b` in point `b / 16`'s. -/
theorem cover7 (i : S256x512x64.Idx) :
    ∃ t : Fin cfg0.N, (cfg0.win 7).flush t = true ∧ i ∈ ((cfg0.win 7).blk t).view.set := by
  have h0 : (i 0).val < 256 := (i 0).isLt
  have h1 : (i 1).val < 512 := (i 1).isLt
  have h2 : (i 2).val < 64 := (i 2).isLt
  let t : Fin cfg0.N := ⟨(i 0).val / 16, by rw [N_eq]; omega⟩
  refine ⟨t, flush0_7 t, ?_⟩
  rw [mem_blk7]
  obtain ⟨e00, e01, e02, e10, e11, e12, e70, e71, e72, _⟩ := idx_facts t
  have et : t.val = (i 0).val / 16 := rfl
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

end Cert.KernelIdeal.Windows

end
-- ==== Proof.Cell.lean ====
/-
  One step of a graph-diffusion gated recurrent cell, index by index on the extended reals.

  A batch row holds, per node `n` of 512, two input channels and 64 state channels: 66 features `z n f`.
  A diffusion hop mixes the nodes by a matrix `P`: `(hop P z) n f = ∑ m, P n m * z m f`. The three Chebyshev
  terms are `z`, `hop P z` and `2 * hop P (hop P z) - z`. A dense layer contracts the 3 × 66 = 198 pairs
  (term, feature) of a node against the rows of a weight matrix and adds a bias. The gates are the logistic of
  one such layer (128 outputs: 64 reset gates `r`, then 64 update gates `u`), the candidate `c` the hyperbolic
  tangent of another over the features with the state scaled by `r`, and the new state is
  `u * h + (1 - u) * c`.

  The 198 rows of a weight matrix may be listed feature-major (row `3 f + k`) or term-major (row `66 k + f`);
  `denseT_eq` says the two layers agree when the matrices agree through that renumbering: a finite sum over a
  bijection of its index set, which on the extended reals needs only that addition is commutative and
  associative (no cancellation, no distributivity, hence no finiteness).
-/
import Idealize.ShloMosaic.PureOps.Ideal
import Mathlib.Algebra.BigOperators.Fin
import Mathlib.Data.Fintype.BigOperators

noncomputable section

namespace Cert.Gru

open Idealize.ShloMosaic

/-- The single-precision words of 2 and of 1, kept as words: both programs spell them so. -/
abbrev two : EReal := Ideal.ofBits .f32 0x40000000#32
abbrev one : EReal := Ideal.ofBits .f32 0x3F800000#32

/-- A node's 66 features: its 2 input channels, then its 64 state channels. -/
def feat (x : Fin 512 → Fin 2 → EReal) (h : Fin 512 → Fin 64 → EReal) (n : Fin 512) (f : Fin 66) : EReal :=
  if hf : f.val < 2 then x n ⟨f.val, hf⟩ else h n ⟨f.val - 2, by omega⟩

/-- One diffusion hop: the nodes mixed by `P`, feature by feature. -/
def hop (P : Fin 512 → Fin 512 → EReal) (z : Fin 512 → Fin 66 → EReal) (n : Fin 512) (f : Fin 66) : EReal :=
  ∑ m : Fin 512, P n m * z m f

/-- The three Chebyshev terms of the features: `z`, `P z`, `2 P (P z) - z`. -/
def cheb (P : Fin 512 → Fin 512 → EReal) (z : Fin 512 → Fin 66 → EReal) (k : Fin 3) (n : Fin 512) (f : Fin 66) : EReal :=
  if k.val = 0 then z n f else if k.val = 1 then hop P z n f else two * hop P (hop P z) n f - z n f

variable {O : ℕ}

/-- A dense layer on the (term, feature) pairs of a node, the weight rows listed feature-major: row `3 f + k`. -/
def dense (W : Fin 198 → Fin O → EReal) (b : Fin O → EReal) (s : Fin 3 → Fin 512 → Fin 66 → EReal)
    (n : Fin 512) (o : Fin O) : EReal :=
  (∑ j : Fin 198, s ⟨j.val % 3, Nat.mod_lt _ (by norm_num)⟩ n ⟨j.val / 3, by have := j.isLt; omega⟩ * W j o) + b o

/-- The same layer, the weight rows listed term-major: row `66 k + f`. -/
def denseT (W : Fin 198 → Fin O → EReal) (b : Fin O → EReal) (s : Fin 3 → Fin 512 → Fin 66 → EReal)
    (n : Fin 512) (o : Fin O) : EReal :=
  (∑ j : Fin 198, s ⟨j.val / 66, by have := j.isLt; omega⟩ n ⟨j.val % 66, Nat.mod_lt _ (by norm_num)⟩ * W j o) + b o

/-- Term-major row `66 k + f` is feature-major row `3 f + k`. -/
def rowOf (j : Fin 198) : Fin 198 := ⟨3 * (j.val % 66) + j.val / 66, by have := j.isLt; omega⟩

/-- The renumbering of the 198 rows is a bijection. -/
def rowEquiv : Fin 198 ≃ Fin 198 where
  toFun := rowOf
  invFun j := ⟨66 * (j.val % 3) + j.val / 3, by have := j.isLt; omega⟩
  left_inv j := by apply Fin.ext; have := j.isLt; simp only [rowOf]; omega
  right_inv j := by apply Fin.ext; have := j.isLt; simp only [rowOf]; omega

/-- The two listings of the weight rows give one layer. -/
theorem denseT_eq (W' W : Fin 198 → Fin O → EReal) (hW : ∀ j o, W' j o = W (rowOf j) o) (b : Fin O → EReal)
    (s : Fin 3 → Fin 512 → Fin 66 → EReal) : denseT W' b s = dense W b s := by
  funext n o
  unfold denseT dense
  congr 1
  refine Fintype.sum_equiv rowEquiv _ _ fun j => ?_
  have hj := j.isLt
  have e1 : (⟨(rowEquiv j).val % 3, Nat.mod_lt _ (by norm_num)⟩ : Fin 3) = ⟨j.val / 66, by omega⟩ := by
    apply Fin.ext; show (3 * (j.val % 66) + j.val / 66) % 3 = j.val / 66; omega
  have e2 : (⟨(rowEquiv j).val / 3, by have := (rowEquiv j).isLt; omega⟩ : Fin 66) = ⟨j.val % 66, Nat.mod_lt _ (by norm_num)⟩ := by
    apply Fin.ext; show (3 * (j.val % 66) + j.val / 66) / 3 = j.val % 66; omega
  rw [e1, e2, hW]; rfl

/-- The cell over any two dense layers `dg` (gates, 128 outputs) and `dc` (candidate, 64 outputs). -/
def cellWith (P : Fin 512 → Fin 512 → EReal)
    (dg : (Fin 3 → Fin 512 → Fin 66 → EReal) → Fin 512 → Fin 128 → EReal)
    (dc : (Fin 3 → Fin 512 → Fin 66 → EReal) → Fin 512 → Fin 64 → EReal)
    (x : Fin 512 → Fin 2 → EReal) (h : Fin 512 → Fin 64 → EReal) (n : Fin 512) (o : Fin 64) : EReal :=
  let gate : Fin 512 → Fin 128 → EReal := fun n o => Ideal.logistic (dg (cheb P (feat x h)) n o)
  let r : Fin 512 → Fin 64 → EReal := fun n o => gate n ⟨o.val, by have := o.isLt; omega⟩
  let u : EReal := gate n ⟨o.val + 64, by have := o.isLt; omega⟩
  let c : EReal := Ideal.tanh (dc (cheb P (feat x fun n o => r n o * h n o)) n o)
  u * h n o + (one - u) * c

/-- The cell with feature-major weight rows. -/
def cell (P : Fin 512 → Fin 512 → EReal) (Wg : Fin 198 → Fin 128 → EReal) (bg : Fin 128 → EReal)
    (Wc : Fin 198 → Fin 64 → EReal) (bc : Fin 64 → EReal) :=
  cellWith P (dense Wg bg) (dense Wc bc)

/-- The cell with term-major weight rows. -/
def cellT (P : Fin 512 → Fin 512 → EReal) (Wg : Fin 198 → Fin 128 → EReal) (bg : Fin 128 → EReal)
    (Wc : Fin 198 → Fin 64 → EReal) (bc : Fin 64 → EReal) :=
  cellWith P (denseT Wg bg) (denseT Wc bc)

/-- One cell, whichever way the rows are listed. -/
theorem cellT_eq (P : Fin 512 → Fin 512 → EReal) (Wg' Wg : Fin 198 → Fin 128 → EReal) (bg : Fin 128 → EReal)
    (Wc' Wc : Fin 198 → Fin 64 → EReal) (bc : Fin 64 → EReal)
    (hg : ∀ j o, Wg' j o = Wg (rowOf j) o) (hc : ∀ j o, Wc' j o = Wc (rowOf j) o) :
    cellT P Wg' bg Wc' bc = cell P Wg bg Wc bc := by
  unfold cellT cell
  rw [show denseT Wg' bg = dense Wg bg from funext fun s => denseT_eq Wg' Wg hg bg s,
    show denseT Wc' bc = dense Wc bc from funext fun s => denseT_eq Wc' Wc hc bc s]

/-- The whole batch: row `b` of the flat inputs (`2 n + f`) and of the flat state (`64 n + o`) through the cell,
    the result again flat (`64 n + o`). -/
def whole (P : Fin 512 → Fin 512 → EReal) (Wg : Fin 198 → Fin 128 → EReal) (bg : Fin 128 → EReal)
    (Wc : Fin 198 → Fin 64 → EReal) (bc : Fin 64 → EReal)
    (inputs : Fin 256 → Fin 1024 → EReal) (state : Fin 256 → Fin 32768 → EReal) (b : Fin 256) (j : Fin 32768) : EReal :=
  cell P Wg bg Wc bc
    (fun n f => inputs b ⟨2 * n.val + f.val, by have := n.isLt; have := f.isLt; omega⟩)
    (fun n o => state b ⟨64 * n.val + o.val, by have := n.isLt; have := o.isLt; omega⟩)
    ⟨j.val / 64, by have := j.isLt; omega⟩ ⟨j.val % 64, Nat.mod_lt _ (by norm_num)⟩

end Cert.Gru

end
-- ==== Proof.IdealHost.lean ====
/-
  What the idealized kernel's region finds in its operand arrays, in terms of the program's arguments.

  The lines before the region only re-lay the arguments: the inputs and the state are viewed as
  [batch, node, channel] (flat column `2 n + f`, resp. `64 n + o`); each weight matrix has its 198 rows renumbered
  from feature-major (`3 f + k`) to term-major (`66 k + f`) by a reshape, a transposition of the two leading axes and
  a reshape back; each bias becomes a one-row matrix. A change of float format is the identity on the extended reals.
-/
import proofs.«113021_j41188736368837_2_alg».proof.Proof.IdealBody
import proofs.«113021_j41188736368837_2_alg».proof.Proof.Cell
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The arrays as terms of the arguments -/

theorem V_v0 (c : Dev nD) : (V m c main_v0 : S256x512x2.Idx → EReal)
    = shapeCast S256x512x2 (m ((c : Thread nD τ).loc main_arg0)) shapeCasts_S256x1024_S256x512x2 := by
  dsimp only [V, V0]
  simp only [hostOps0, hostOps0_1, hostOps0_2, List.flatten_cons, List.flatten_nil, List.append_nil, List.cons_append, List.nil_append]
  after_results; rfl

theorem V_v1 (c : Dev nD) : (V m c main_v1 : S256x512x64.Idx → EReal)
    = shapeCast S256x512x64 (m ((c : Thread nD τ).loc main_arg1)) shapeCasts_S256x32768_S256x512x64 := by
  dsimp only [V, V0]
  simp only [hostOps0, hostOps0_1, hostOps0_2, List.flatten_cons, List.flatten_nil, List.append_nil, List.cons_append, List.nil_append]
  after_results; rfl

theorem V_v26 (c : Dev nD) : (V m c main_v26 : S198x128.Idx → EReal)
    = truncf (F := Ideal) .bf16 (shapeCast S198x128 (transpose S3x66x128 [1, 0, 2]
        (shapeCast S66x3x128 (m ((c : Thread nD τ).loc main_arg3)) shapeCasts_S198x128_S66x3x128)
        transposes_S66x3x128_S3x66x128_1_0_2) shapeCasts_S3x66x128_S198x128) bitsLt_bf16_f32 := by
  dsimp only [V, V0]
  simp only [hostOps0, hostOps0_1, hostOps0_2, List.flatten_cons, List.flatten_nil, List.append_nil, List.cons_append, List.nil_append]
  after_results; rfl

theorem V_v27 (c : Dev nD) : (V m c main_v27 : S198x64.Idx → EReal)
    = truncf (F := Ideal) .bf16 (shapeCast S198x64 (transpose S3x66x64 [1, 0, 2]
        (shapeCast S66x3x64 (m ((c : Thread nD τ).loc main_arg5)) shapeCasts_S198x64_S66x3x64)
        transposes_S66x3x64_S3x66x64_1_0_2) shapeCasts_S3x66x64_S198x64) bitsLt_bf16_f32 := by
  dsimp only [V, V0]
  simp only [hostOps0, hostOps0_1, hostOps0_2, List.flatten_cons, List.flatten_nil, List.append_nil, List.cons_append, List.nil_append]
  after_results; rfl

theorem V_v28 (c : Dev nD) : (V m c main_v28 : S1x128.Idx → EReal)
    = shapeCast S1x128 (m ((c : Thread nD τ).loc main_arg4)) shapeCasts_S128_S1x128 := by
  dsimp only [V, V0]
  simp only [hostOps0, hostOps0_1, hostOps0_2, List.flatten_cons, List.flatten_nil, List.append_nil, List.cons_append, List.nil_append]
  after_results; rfl

theorem V_v29 (c : Dev nD) : (V m c main_v29 : S1x64.Idx → EReal)
    = shapeCast S1x64 (m ((c : Thread nD τ).loc main_arg6)) shapeCasts_S64_S1x64 := by
  dsimp only [V, V0]
  simp only [hostOps0, hostOps0_1, hostOps0_2, List.flatten_cons, List.flatten_nil, List.append_nil, List.cons_append, List.nil_append]
  after_results; rfl

/-! ## Read at an index -/

/-- Channel `f` of node `n` of batch row `b` of the inputs is flat column `2 n + f`. -/
theorem V_v0_apply (c : Dev nD) (b : Fin 256) (n : Fin 512) (f : Fin 2) :
    (V m c main_v0 : S256x512x2.Idx → EReal) (ix3 b n f)
      = m ((c : Thread nD τ).loc main_arg0) (ix2 b (⟨2 * n.val + f.val, by have := n.isLt; have := f.isLt; omega⟩ : Fin 1024)) := by
  rw [V_v0]
  refine shapeCast_apply (s := S256x1024) (t := S256x512x2) _ _ _ _ ?_
  rw [Shape.rowMajor_val_two, Shape.rowMajor_val_three]
  show b.val * 1024 + (2 * n.val + f.val) = (b.val * 512 + n.val) * 2 + f.val
  omega

/-- Channel `o` of node `n` of batch row `b` of the state is flat column `64 n + o`. -/
theorem V_v1_apply (c : Dev nD) (b : Fin 256) (n : Fin 512) (o : Fin 64) :
    (V m c main_v1 : S256x512x64.Idx → EReal) (ix3 b n o)
      = m ((c : Thread nD τ).loc main_arg1) (ix2 b (⟨64 * n.val + o.val, by have := n.isLt; have := o.isLt; omega⟩ : Fin 32768)) := by
  rw [V_v1]
  refine shapeCast_apply (s := S256x32768) (t := S256x512x64) _ _ _ _ ?_
  rw [Shape.rowMajor_val_two, Shape.rowMajor_val_three]
  show b.val * 32768 + (64 * n.val + o.val) = (b.val * 512 + n.val) * 64 + o.val
  omega

/-- A matrix of 198 rows viewed as [66, 3, ·], its two leading axes exchanged, viewed again as 198 rows: row
    `66 k + f` of the result is row `3 f + k` of the matrix. -/
theorem rows_apply {O : ℕ} (W : (⟨2, ![198, O]⟩ : Shape).Idx → EReal)
    (h1 : (⟨2, ![198, O]⟩ : Shape).ShapeCasts ⟨3, ![66, 3, O]⟩)
    (h2 : (⟨3, ![66, 3, O]⟩ : Shape).Transposes [1, 0, 2] ⟨3, ![3, 66, O]⟩)
    (h3 : (⟨3, ![3, 66, O]⟩ : Shape).ShapeCasts ⟨2, ![198, O]⟩) (j : Fin 198) (o : Fin O) :
    shapeCast ⟨2, ![198, O]⟩ (transpose ⟨3, ![3, 66, O]⟩ [1, 0, 2] (shapeCast ⟨3, ![66, 3, O]⟩ W h1) h2) h3 (ix2 j o)
      = W (ix2 (Cert.Gru.rowOf j) o) := by
  have hj := j.isLt
  refine (shapeCast_apply (s := ⟨3, ![3, 66, O]⟩) (t := ⟨2, ![198, O]⟩) _ h3 (ix2 j o)
    (ix3 (⟨j.val / 66, by omega⟩ : Fin 3) (⟨j.val % 66, Nat.mod_lt _ (by norm_num)⟩ : Fin 66) o) ?_).trans ?_
  · rw [Shape.rowMajor_val_three, Shape.rowMajor_val_two]
    show (j.val / 66 * 66 + j.val % 66) * O + o.val = j.val * O + o.val
    have : j.val / 66 * 66 + j.val % 66 = j.val := by omega
    rw [this]
  refine (transpose_apply [1, 0, 2] _ h2 _
    (ix3 (⟨j.val % 66, Nat.mod_lt _ (by norm_num)⟩ : Fin 66) (⟨j.val / 66, by omega⟩ : Fin 3) o)
    (fun b => match b with | ⟨0, _⟩ => rfl | ⟨1, _⟩ => rfl | ⟨2, _⟩ => rfl)).trans ?_
  refine shapeCast_apply (s := ⟨2, ![198, O]⟩) (t := ⟨3, ![66, 3, O]⟩) W h1 _ _ ?_
  rw [Shape.rowMajor_val_two, Shape.rowMajor_val_three]
  show (3 * (j.val % 66) + j.val / 66) * O + o.val = (j.val % 66 * 3 + j.val / 66) * O + o.val
  have : 3 * (j.val % 66) + j.val / 66 = j.val % 66 * 3 + j.val / 66 := by omega
  rw [this]

/-- Term-major row `j = 66 k + f` of the gates' weights is the argument's feature-major row `3 f + k`. -/
theorem V_v26_apply (c : Dev nD) (j : Fin 198) (o : Fin 128) :
    (V m c main_v26 : S198x128.Idx → EReal) (ix2 j o) = m ((c : Thread nD τ).loc main_arg3) (ix2 (Cert.Gru.rowOf j) o) := by
  rw [V_v26, truncf_apply]
  exact rows_apply _ _ _ _ j o

/-- The same for the candidate's weights. -/
theorem V_v27_apply (c : Dev nD) (j : Fin 198) (o : Fin 64) :
    (V m c main_v27 : S198x64.Idx → EReal) (ix2 j o) = m ((c : Thread nD τ).loc main_arg5) (ix2 (Cert.Gru.rowOf j) o) := by
  rw [V_v27, truncf_apply]
  exact rows_apply _ _ _ _ j o

/-- The gates' bias as a one-row matrix. -/
theorem V_v28_apply (c : Dev nD) (o : Fin 128) :
    (V m c main_v28 : S1x128.Idx → EReal) (ix2 (0 : Fin 1) o) = m ((c : Thread nD τ).loc main_arg4) (ix1 o) := by
  rw [V_v28]
  exact shapeCast_a_1a_apply _ _ (0 : Fin 1) o

/-- The candidate's bias as a one-row matrix. -/
theorem V_v29_apply (c : Dev nD) (o : Fin 64) :
    (V m c main_v29 : S1x64.Idx → EReal) (ix2 (0 : Fin 1) o) = m ((c : Thread nD τ).loc main_arg6) (ix1 o) := by
  rw [V_v29]
  exact shapeCast_a_1a_apply _ _ (0 : Fin 1) o

end Cert.KernelIdeal.Host

end
-- ==== Proof.PayReads.lean ====
/-
  The kernel's layout operations and matrix products, each read at one entry.

  A row of the kernel's work is a chain of rank-2 arrays over the 512 nodes. Its non-pointwise steps are few: a block
  `[1, 512, C]` viewed as `[512, C]`; a concatenation of two or of three arrays along the columns; a slice of 64 columns
  at column 0 or 64; one row `[1, N]` repeated over the 512 rows; and a matrix product into the zero accumulator, which at
  the ideal values is the plain sum over the contracted index. Each lemma here reads one of them at the entry `(n, c)`,
  over variables of the literal shapes, so that the cell can be read entry by entry without opening any of them again.
-/
import proofs.«113021_j41188736368837_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Gru.Pay

open Cert.KernelIdeal Cert.KernelIdeal.Gen Idealize.ShloMosaic Idealize.ShloMosaic.ValueIdx

/-! ## Two and three arrays side by side -/

/-- Two arrays of 2 and 64 columns side by side: column `f` is the first array's below 2, else the second's at `f - 2`. -/
theorem cat2_apply {α : Type} (x : S512x2.Idx → α) (y : S512x64.Idx → α)
    (h : Shape.Concatenates [S512x2, S512x64] S512x66 1) (n : Fin 512) (f : Fin 66) :
    concatenate S512x66 1 [⟨S512x2, x⟩, ⟨S512x64, y⟩] h (ix2 n f)
      = if hf : f.val < 2 then x (ix2 n ⟨f.val, hf⟩) else y (ix2 n ⟨f.val - 2, by have := f.isLt; omega⟩) := by
  by_cases hf : f.val < 2
  · rw [dif_pos hf]
    exact concatenate_pair_apply_left _ x y h (ix2 n f) rfl (ix2 n ⟨f.val, hf⟩) fun b =>
      match b with | ⟨0, _⟩ => rfl | ⟨1, _⟩ => rfl
  · rw [dif_neg hf]
    refine concatenate_pair_apply_right _ x y h (ix2 n f) rfl rfl (ix2 n ⟨f.val - 2, by have := f.isLt; omega⟩)
      (fun b hb => ?_) ?_
    · match b with
      | ⟨0, _⟩ => rfl
      | ⟨1, _⟩ => exact absurd rfl hb
    · show (f.val - 2) + 2 = f.val
      omega

/-- Three arrays of 66 columns side by side: column `j` is column `j % 66` of array `j / 66`. -/
theorem cat3_apply {α : Type} (a b c : S512x66.Idx → α)
    (h : Shape.Concatenates [S512x66, S512x66, S512x66] S512x198 1) (n : Fin 512) (j : Fin 198) :
    concatenate S512x198 1 [⟨S512x66, a⟩, ⟨S512x66, b⟩, ⟨S512x66, c⟩] h (ix2 n j)
      = if j.val / 66 = 0 then a (ix2 n ⟨j.val % 66, Nat.mod_lt _ (by norm_num)⟩)
        else if j.val / 66 = 1 then b (ix2 n ⟨j.val % 66, Nat.mod_lt _ (by norm_num)⟩)
        else c (ix2 n ⟨j.val % 66, Nat.mod_lt _ (by norm_num)⟩) := by
  have hj := j.isLt
  have off : ∀ d : Fin S512x66.rank, d.cast (rfl : S512x66.rank = S512x198.rank) ≠ (1 : Fin S512x198.rank) →
      ((ix2 n (⟨j.val % 66, Nat.mod_lt _ (by norm_num)⟩ : Fin 66) : S512x66.Idx) d).val
        = ((ix2 n j : S512x198.Idx) (d.cast rfl)).val := fun d hd => by
    match d with
    | ⟨0, _⟩ => rfl
    | ⟨1, _⟩ => exact absurd rfl hd
  by_cases h0 : j.val / 66 = 0
  · rw [if_pos h0]
    refine concatenate_apply_piece (1 : Fin S512x198.rank) [⟨S512x66, a⟩, ⟨S512x66, b⟩, ⟨S512x66, c⟩] h (ix2 n j) 0 (by simp) S512x66 a rfl rfl 0 rfl
      (ix2 n ⟨j.val % 66, Nat.mod_lt _ (by norm_num)⟩) off ?_
    show 0 + j.val % 66 = j.val
    omega
  · rw [if_neg h0]
    by_cases h1 : j.val / 66 = 1
    · rw [if_pos h1]
      refine concatenate_apply_piece (1 : Fin S512x198.rank) [⟨S512x66, a⟩, ⟨S512x66, b⟩, ⟨S512x66, c⟩] h (ix2 n j) 1 (by simp) S512x66 b rfl rfl 66 rfl
        (ix2 n ⟨j.val % 66, Nat.mod_lt _ (by norm_num)⟩) off ?_
      show 66 + j.val % 66 = j.val
      omega
    · rw [if_neg h1]
      refine concatenate_apply_piece (1 : Fin S512x198.rank) [⟨S512x66, a⟩, ⟨S512x66, b⟩, ⟨S512x66, c⟩] h (ix2 n j) 2 (by simp) S512x66 c rfl rfl 132 rfl
        (ix2 n ⟨j.val % 66, Nat.mod_lt _ (by norm_num)⟩) off ?_
      show 132 + j.val % 66 = j.val
      omega

/-! ## The two halves of the gates -/

/-- The first 64 of 128 columns. -/
theorem sliceLo_apply {α : Type} (x : S512x128.Idx → α) (h : S512x128.Slices ![0, 0] S512x64) (n : Fin 512) (o : Fin 64) :
    extractStridedSlice S512x64 ![0, 0] x h (ix2 n o) = x (ix2 n ⟨o.val, by have := o.isLt; omega⟩) :=
  extractStridedSlice_apply _ x h _ _ fun c =>
    match c with
    | ⟨0, _⟩ => by show n.val = 0 + n.val; omega
    | ⟨1, _⟩ => by show o.val = 0 + o.val; omega

/-- The last 64 of 128 columns. -/
theorem sliceHi_apply {α : Type} (x : S512x128.Idx → α) (h : S512x128.Slices ![0, 64] S512x64) (n : Fin 512) (o : Fin 64) :
    extractStridedSlice S512x64 ![0, 64] x h (ix2 n o) = x (ix2 n ⟨o.val + 64, by have := o.isLt; omega⟩) :=
  extractStridedSlice_apply _ x h _ _ fun c =>
    match c with
    | ⟨0, _⟩ => by show n.val = 0 + n.val; omega
    | ⟨1, _⟩ => by show o.val + 64 = 64 + o.val; omega

/-! ## The matrix products: into the zero accumulator, the plain sum over the contracted index -/

theorem mix_lhs0 (i : S512x66.Idx) (q : dot_S512x512_S512x66_S512x66_1_0_0_1_n_n.contr.Idx) : (dot_S512x512_S512x66_S512x66_1_0_0_1_n_n.lhsIdx i q 0).val = (i 0).val := by
  unfold DotDims.lhsIdx
  rw [dif_neg (show ¬(0 : Fin S512x512.rank) ∈ dot_S512x512_S512x66_S512x66_1_0_0_1_n_n.lhsBatch by decide),
    dif_pos (show (0 : Fin S512x512.rank) ∈ dot_S512x512_S512x66_S512x66_1_0_0_1_n_n.lhsNonContracting by decide)]
  rfl
theorem mix_rhs1 (i : S512x66.Idx) (q : dot_S512x512_S512x66_S512x66_1_0_0_1_n_n.contr.Idx) : (dot_S512x512_S512x66_S512x66_1_0_0_1_n_n.rhsIdx i q 1).val = (i 1).val := by
  unfold DotDims.rhsIdx
  rw [dif_neg (show ¬(1 : Fin S512x66.rank) ∈ dot_S512x512_S512x66_S512x66_1_0_0_1_n_n.rhsBatch by decide),
    dif_pos (show (1 : Fin S512x66.rank) ∈ dot_S512x512_S512x66_S512x66_1_0_0_1_n_n.rhsNonContracting by decide)]
  rfl

/-- Mixing the nodes: `(P z) n f = ∑ m, P n m * z m f`. -/
theorem mix_apply (x : FVec Ideal S512x512 .bf16) (y : FVec Ideal S512x66 .bf16) (n : Fin 512) (o : Fin 66) :
    matmul dot_S512x512_S512x66_S512x66_1_0_0_1_n_n none x y (constant (F := Ideal) S512x66 .f32 0x00000000#32) (ix2 n o)
      = ∑ m : Fin 512, x (ix2 n m) * y (ix2 m o) := by
  simp only [matmul]
  rw [Ideal.matmul_constant_zero_apply, ← Equiv.sum_comp (contrEquiv1 dot_S512x512_S512x66_S512x66_1_0_0_1_n_n 512 rfl rfl).symm]
  refine Finset.sum_congr rfl fun m _ => ?_
  have hm := contrEquiv1_symm_val dot_S512x512_S512x66_S512x66_1_0_0_1_n_n 512 rfl rfl m
  have el : dot_S512x512_S512x66_S512x66_1_0_0_1_n_n.lhsIdx (ix2 n o) ((contrEquiv1 dot_S512x512_S512x66_S512x66_1_0_0_1_n_n 512 rfl rfl).symm m) = ix2 n m :=
    funext fun c => Fin.ext (by
      match c with
      | ⟨0, _⟩ => exact mix_lhs0 _ _
      | ⟨1, _⟩ => exact (dot_S512x512_S512x66_S512x66_1_0_0_1_n_n.lhsIdx_val_of_single rfl _ _).trans hm)
  have er : dot_S512x512_S512x66_S512x66_1_0_0_1_n_n.rhsIdx (ix2 n o) ((contrEquiv1 dot_S512x512_S512x66_S512x66_1_0_0_1_n_n 512 rfl rfl).symm m) = ix2 m o :=
    funext fun c => Fin.ext (by
      match c with
      | ⟨0, _⟩ => exact (dot_S512x512_S512x66_S512x66_1_0_0_1_n_n.rhsIdx_val_of_single rfl _ _).trans hm
      | ⟨1, _⟩ => exact mix_rhs1 _ _)
  rw [el, er]

theorem gates_lhs0 (i : S512x128.Idx) (q : dot_S512x198_S198x128_S512x128_1_0_0_1_n_n.contr.Idx) : (dot_S512x198_S198x128_S512x128_1_0_0_1_n_n.lhsIdx i q 0).val = (i 0).val := by
  unfold DotDims.lhsIdx
  rw [dif_neg (show ¬(0 : Fin S512x198.rank) ∈ dot_S512x198_S198x128_S512x128_1_0_0_1_n_n.lhsBatch by decide),
    dif_pos (show (0 : Fin S512x198.rank) ∈ dot_S512x198_S198x128_S512x128_1_0_0_1_n_n.lhsNonContracting by decide)]
  rfl
theorem gates_rhs1 (i : S512x128.Idx) (q : dot_S512x198_S198x128_S512x128_1_0_0_1_n_n.contr.Idx) : (dot_S512x198_S198x128_S512x128_1_0_0_1_n_n.rhsIdx i q 1).val = (i 1).val := by
  unfold DotDims.rhsIdx
  rw [dif_neg (show ¬(1 : Fin S198x128.rank) ∈ dot_S512x198_S198x128_S512x128_1_0_0_1_n_n.rhsBatch by decide),
    dif_pos (show (1 : Fin S198x128.rank) ∈ dot_S512x198_S198x128_S512x128_1_0_0_1_n_n.rhsNonContracting by decide)]
  rfl

/-- The gates' layer before its bias: `(s W) n o = ∑ j, s n j * W j o`, 128 outputs. -/
theorem gates_apply (x : FVec Ideal S512x198 .bf16) (y : FVec Ideal S198x128 .bf16) (n : Fin 512) (o : Fin 128) :
    matmul dot_S512x198_S198x128_S512x128_1_0_0_1_n_n none x y (constant (F := Ideal) S512x128 .f32 0x00000000#32) (ix2 n o)
      = ∑ m : Fin 198, x (ix2 n m) * y (ix2 m o) := by
  simp only [matmul]
  rw [Ideal.matmul_constant_zero_apply, ← Equiv.sum_comp (contrEquiv1 dot_S512x198_S198x128_S512x128_1_0_0_1_n_n 198 rfl rfl).symm]
  refine Finset.sum_congr rfl fun m _ => ?_
  have hm := contrEquiv1_symm_val dot_S512x198_S198x128_S512x128_1_0_0_1_n_n 198 rfl rfl m
  have el : dot_S512x198_S198x128_S512x128_1_0_0_1_n_n.lhsIdx (ix2 n o) ((contrEquiv1 dot_S512x198_S198x128_S512x128_1_0_0_1_n_n 198 rfl rfl).symm m) = ix2 n m :=
    funext fun c => Fin.ext (by
      match c with
      | ⟨0, _⟩ => exact gates_lhs0 _ _
      | ⟨1, _⟩ => exact (dot_S512x198_S198x128_S512x128_1_0_0_1_n_n.lhsIdx_val_of_single rfl _ _).trans hm)
  have er : dot_S512x198_S198x128_S512x128_1_0_0_1_n_n.rhsIdx (ix2 n o) ((contrEquiv1 dot_S512x198_S198x128_S512x128_1_0_0_1_n_n 198 rfl rfl).symm m) = ix2 m o :=
    funext fun c => Fin.ext (by
      match c with
      | ⟨0, _⟩ => exact (dot_S512x198_S198x128_S512x128_1_0_0_1_n_n.rhsIdx_val_of_single rfl _ _).trans hm
      | ⟨1, _⟩ => exact gates_rhs1 _ _)
  rw [el, er]

theorem cand_lhs0 (i : S512x64.Idx) (q : dot_S512x198_S198x64_S512x64_1_0_0_1_n_n.contr.Idx) : (dot_S512x198_S198x64_S512x64_1_0_0_1_n_n.lhsIdx i q 0).val = (i 0).val := by
  unfold DotDims.lhsIdx
  rw [dif_neg (show ¬(0 : Fin S512x198.rank) ∈ dot_S512x198_S198x64_S512x64_1_0_0_1_n_n.lhsBatch by decide),
    dif_pos (show (0 : Fin S512x198.rank) ∈ dot_S512x198_S198x64_S512x64_1_0_0_1_n_n.lhsNonContracting by decide)]
  rfl
theorem cand_rhs1 (i : S512x64.Idx) (q : dot_S512x198_S198x64_S512x64_1_0_0_1_n_n.contr.Idx) : (dot_S512x198_S198x64_S512x64_1_0_0_1_n_n.rhsIdx i q 1).val = (i 1).val := by
  unfold DotDims.rhsIdx
  rw [dif_neg (show ¬(1 : Fin S198x64.rank) ∈ dot_S512x198_S198x64_S512x64_1_0_0_1_n_n.rhsBatch by decide),
    dif_pos (show (1 : Fin S198x64.rank) ∈ dot_S512x198_S198x64_S512x64_1_0_0_1_n_n.rhsNonContracting by decide)]
  rfl

/-- The candidate's layer before its bias: `(s W) n o = ∑ j, s n j * W j o`, 64 outputs. -/
theorem cand_apply (x : FVec Ideal S512x198 .bf16) (y : FVec Ideal S198x64 .bf16) (n : Fin 512) (o : Fin 64) :
    matmul dot_S512x198_S198x64_S512x64_1_0_0_1_n_n none x y (constant (F := Ideal) S512x64 .f32 0x00000000#32) (ix2 n o)
      = ∑ m : Fin 198, x (ix2 n m) * y (ix2 m o) := by
  simp only [matmul]
  rw [Ideal.matmul_constant_zero_apply, ← Equiv.sum_comp (contrEquiv1 dot_S512x198_S198x64_S512x64_1_0_0_1_n_n 198 rfl rfl).symm]
  refine Finset.sum_congr rfl fun m _ => ?_
  have hm := contrEquiv1_symm_val dot_S512x198_S198x64_S512x64_1_0_0_1_n_n 198 rfl rfl m
  have el : dot_S512x198_S198x64_S512x64_1_0_0_1_n_n.lhsIdx (ix2 n o) ((contrEquiv1 dot_S512x198_S198x64_S512x64_1_0_0_1_n_n 198 rfl rfl).symm m) = ix2 n m :=
    funext fun c => Fin.ext (by
      match c with
      | ⟨0, _⟩ => exact cand_lhs0 _ _
      | ⟨1, _⟩ => exact (dot_S512x198_S198x64_S512x64_1_0_0_1_n_n.lhsIdx_val_of_single rfl _ _).trans hm)
  have er : dot_S512x198_S198x64_S512x64_1_0_0_1_n_n.rhsIdx (ix2 n o) ((contrEquiv1 dot_S512x198_S198x64_S512x64_1_0_0_1_n_n 198 rfl rfl).symm m) = ix2 m o :=
    funext fun c => Fin.ext (by
      match c with
      | ⟨0, _⟩ => exact (dot_S512x198_S198x64_S512x64_1_0_0_1_n_n.rhsIdx_val_of_single rfl _ _).trans hm
      | ⟨1, _⟩ => exact cand_rhs1 _ _)
  rw [el, er]

end Cert.Gru.Pay

end
-- ==== Proof.PayChain.lean ====
/-
  The kernel's row, cut where the cell is cut: the features, one diffusion hop, the three Chebyshev terms side by side,
  the two dense layers with their bias and nonlinearity — each a definition over the literal shapes, read at one entry as
  the corresponding function of `Cert.Gru`. The kernel's payload is, by unfolding alone, the composition of these.
-/
import proofs.«113021_j41188736368837_2_alg».proof.Proof.PayReads
import proofs.«113021_j41188736368837_2_alg».proof.Proof.Cell

noncomputable section

namespace Cert.Gru.Pay

open Cert.KernelIdeal Cert.KernelIdeal.Gen Idealize.ShloMosaic Idealize.ShloMosaic.ValueIdx

/-! ## The pieces of the row -/

/-- The 66 features of every node: the 2 input channels, then the 64 state channels. -/
def featV (x : FVec Ideal S512x2 .f32) (h : FVec Ideal S512x64 .f32) : FVec Ideal S512x66 .f32 :=
  concatenate S512x66 1 [⟨S512x2, x⟩, ⟨S512x64, h⟩] concatenates_S512x2_S512x64_S512x66_d1

/-- One diffusion hop: the change of format is the identity at the ideal values, the product is into zero. -/
def hopV (P : FVec Ideal S512x512 .bf16) (z : FVec Ideal S512x66 .f32) : FVec Ideal S512x66 .f32 :=
  matmul dot_S512x512_S512x66_S512x66_1_0_0_1_n_n none P (truncf .bf16 z bitsLt_bf16_f32)
    (constant (F := Ideal) S512x66 .f32 0x00000000#32)

/-- The three Chebyshev terms `z`, `P z`, `2 P (P z) - z` side by side. -/
def stackV (P : FVec Ideal S512x512 .bf16) (z : FVec Ideal S512x66 .f32) : FVec Ideal S512x198 .f32 :=
  concatenate S512x198 1
    [⟨S512x66, z⟩, ⟨S512x66, hopV P z⟩,
      ⟨S512x66, subf (mulf (broadcast S512x66 (Scalar.ofBits (F := Ideal) .f32 0x40000000#32)) (hopV P (hopV P z))) z⟩]
    concatenates_S512x66_S512x66_S512x66_S512x198_d1

/-- The gates: the logistic of the dense layer with 128 outputs over the three terms. -/
def gatesV (P : FVec Ideal S512x512 .bf16) (W : FVec Ideal S198x128 .bf16) (b : FVec Ideal S1x128 .f32)
    (z : FVec Ideal S512x66 .f32) : FVec Ideal S512x128 .f32 :=
  logistic (addf
    (matmul dot_S512x198_S198x128_S512x128_1_0_0_1_n_n none (truncf .bf16 (stackV P z) bitsLt_bf16_f32) W
      (constant (F := Ideal) S512x128 .f32 0x00000000#32))
    (broadcastTo S512x128 b broadcasts_S1x128_S512x128))

/-- The candidate: the hyperbolic tangent of the dense layer with 64 outputs over the three terms. -/
def candV (P : FVec Ideal S512x512 .bf16) (W : FVec Ideal S198x64 .bf16) (b : FVec Ideal S1x64 .f32)
    (z : FVec Ideal S512x66 .f32) : FVec Ideal S512x64 .f32 :=
  tanh (addf
    (matmul dot_S512x198_S198x64_S512x64_1_0_0_1_n_n none (truncf .bf16 (stackV P z) bitsLt_bf16_f32) W
      (constant (F := Ideal) S512x64 .f32 0x00000000#32))
    (broadcastTo S512x64 b broadcasts_S1x64_S512x64))

/-- The whole row over the two blocks already viewed as `[512, 2]` and `[512, 64]`. -/
def rowV (P : FVec Ideal S512x512 .bf16) (Wg : FVec Ideal S198x128 .bf16) (bg : FVec Ideal S1x128 .f32)
    (Wc : FVec Ideal S198x64 .bf16) (bc : FVec Ideal S1x64 .f32)
    (x : FVec Ideal S512x2 .f32) (h : FVec Ideal S512x64 .f32) : FVec Ideal S512x64 .f32 :=
  addf
    (mulf (extractStridedSlice S512x64 ![0, 64] (gatesV P Wg bg (featV x h)) slices_S512x128_o0_64_S512x64) h)
    (mulf
      (subf (broadcast S512x64 (Scalar.ofBits (F := Ideal) .f32 0x3F800000#32))
        (extractStridedSlice S512x64 ![0, 64] (gatesV P Wg bg (featV x h)) slices_S512x128_o0_64_S512x64))
      (candV P Wc bc
        (featV x (mulf (extractStridedSlice S512x64 ![0, 0] (gatesV P Wg bg (featV x h)) slices_S512x128_o0_0_S512x64) h))))

/-- The kernel's payload is that row over its two blocks: the two sides unfold to the same term. -/
theorem pay_eq_rowV (v1 : FVec Ideal S512x512 .bf16) (v3 : FVec Ideal S198x128 .bf16) (v5 : FVec Ideal S1x128 .f32)
    (v7 : FVec Ideal S198x64 .bf16) (v9 : FVec Ideal S1x64 .f32) (v12 : Vec Ideal S1x512x2 .f32) (v15 : Vec Ideal S1x512x64 .f32) :
    k0_pay7 (F := Ideal) v1 v3 v5 v7 v9 v12 v15
      = rowV v1 v3 v5 v7 v9 (shapeCast S512x2 v12 shapeCasts_S1x512x2_S512x2) (shapeCast S512x64 v15 shapeCasts_S1x512x64_S512x64) :=
  rfl

end Cert.Gru.Pay

end
-- ==== Proof.PayTerms.lean ====
/-
  Each piece of the kernel's row, read at one entry, is the corresponding function of the cell: the features are
  `feat`, a hop is `hop`, the three terms side by side are `cheb` at (column / 66, column % 66), and a dense layer
  with its bias is `denseT` — the sum over the 198 columns of the stacked terms against the weight rows in the same order.
-/
import proofs.«113021_j41188736368837_2_alg».proof.Proof.PayChain

noncomputable section

namespace Cert.Gru.Pay

open Cert.KernelIdeal Cert.KernelIdeal.Gen Idealize.ShloMosaic Idealize.ShloMosaic.ValueIdx

/-- The logistic of an array, at an entry, is the logistic of the entry. -/
theorem logistic_apply {s : Shape} {φ : FTy} (a : FVec Ideal s φ) (i : s.Idx) : logistic a i = Ideal.logistic (a i) := rfl

/-- The hyperbolic tangent of an array, at an entry, is that of the entry. -/
theorem tanh_apply {s : Shape} {φ : FTy} (a : FVec Ideal s φ) (i : s.Idx) : tanh a i = Ideal.tanh (a i) := rfl

/-- The features at `(n, f)`. -/
theorem featV_apply (x : FVec Ideal S512x2 .f32) (h : FVec Ideal S512x64 .f32) (n : Fin 512) (f : Fin 66) :
    featV x h (ix2 n f) = feat (fun n f => x (ix2 n f)) (fun n o => h (ix2 n o)) n f :=
  cat2_apply x h _ n f

/-- A hop at `(n, f)`. -/
theorem hopV_apply (P : FVec Ideal S512x512 .bf16) (z : FVec Ideal S512x66 .f32) (n : Fin 512) (f : Fin 66) :
    hopV P z (ix2 n f) = hop (fun a b => P (ix2 a b)) (fun n f => z (ix2 n f)) n f :=
  mix_apply P (truncf .bf16 z bitsLt_bf16_f32) n f

/-- The three terms side by side at `(n, j)`: term `j / 66`, feature `j % 66`. -/
theorem stackV_apply (P : FVec Ideal S512x512 .bf16) (z : FVec Ideal S512x66 .f32) (n : Fin 512) (j : Fin 198) :
    stackV P z (ix2 n j)
      = cheb (fun a b => P (ix2 a b)) (fun n f => z (ix2 n f)) ⟨j.val / 66, by have := j.isLt; omega⟩ n
          ⟨j.val % 66, Nat.mod_lt _ (by norm_num)⟩ := by
  unfold stackV
  refine (cat3_apply _ _ _ _ n j).trans ?_
  unfold cheb
  simp only [subf_apply, mulf_apply, broadcast_apply, hopV_apply]
  rfl

/-- The gates at `(n, o)`: the logistic of the term-major dense layer over the three terms. -/
theorem gatesV_apply (P : FVec Ideal S512x512 .bf16) (W : FVec Ideal S198x128 .bf16) (b : FVec Ideal S1x128 .f32)
    (z : FVec Ideal S512x66 .f32) (n : Fin 512) (o : Fin 128) :
    gatesV P W b z (ix2 n o)
      = Ideal.logistic (denseT (fun r o => W (ix2 r o)) (fun o => b (ix2 (0 : Fin 1) o))
          (cheb (fun a b => P (ix2 a b)) (fun n f => z (ix2 n f))) n o) := by
  unfold gatesV denseT
  rw [logistic_apply, addf_apply, gates_apply, broadcastTo_1b_ab_apply]
  refine congrArg Ideal.logistic (congrArg (· + b (ix2 (0 : Fin 1) o)) (Finset.sum_congr rfl fun j _ => ?_))
  exact congrArg (· * W (ix2 j o)) (stackV_apply P z n j)

/-- The candidate at `(n, o)`: the hyperbolic tangent of the term-major dense layer over the three terms. -/
theorem candV_apply (P : FVec Ideal S512x512 .bf16) (W : FVec Ideal S198x64 .bf16) (b : FVec Ideal S1x64 .f32)
    (z : FVec Ideal S512x66 .f32) (n : Fin 512) (o : Fin 64) :
    candV P W b z (ix2 n o)
      = Ideal.tanh (denseT (fun r o => W (ix2 r o)) (fun o => b (ix2 (0 : Fin 1) o))
          (cheb (fun a b => P (ix2 a b)) (fun n f => z (ix2 n f))) n o) := by
  unfold candV denseT
  rw [tanh_apply, addf_apply, cand_apply, broadcastTo_1b_ab_apply]
  refine congrArg Ideal.tanh (congrArg (· + b (ix2 (0 : Fin 1) o)) (Finset.sum_congr rfl fun j _ => ?_))
  exact congrArg (· * W (ix2 j o)) (stackV_apply P z n j)

end Cert.Gru.Pay

end
-- ==== Proof.PayCell.lean ====
/-
  The kernel's payload, read at one entry, is the cell with term-major weight rows.

  The payload is the row `rowV` over its two blocks viewed as `[512, 2]` and `[512, 64]`. At the entry `(n, o)` the last
  four pointwise lines read `u * h + (1 - u) * c`; `u` is column `o + 64` of the gates, the reset gate `r` that scales the
  state inside the candidate is column `o`, and gates and candidate are the two dense layers over the three Chebyshev
  terms of the features — the features of the inputs and the state for the gates, of the inputs and `r * h` for the
  candidate. A block `[1, 512, C]` viewed as `[512, C]` reads `(0, n, c)` at `(n, c)`.
-/
import proofs.«113021_j41188736368837_2_alg».proof.Proof.PayTerms

noncomputable section

namespace Cert.Gru.Pay

open Cert.KernelIdeal Cert.KernelIdeal.Gen Idealize.ShloMosaic Idealize.ShloMosaic.ValueIdx

/-- The row at `(n, o)` is the cell over the two blocks read by coordinates. -/
theorem rowV_apply (P : FVec Ideal S512x512 .bf16) (Wg : FVec Ideal S198x128 .bf16) (bg : FVec Ideal S1x128 .f32)
    (Wc : FVec Ideal S198x64 .bf16) (bc : FVec Ideal S1x64 .f32)
    (x : FVec Ideal S512x2 .f32) (h : FVec Ideal S512x64 .f32) (n : Fin 512) (o : Fin 64) :
    rowV P Wg bg Wc bc x h (ix2 n o)
      = cellT (fun a b => P (ix2 a b)) (fun r o => Wg (ix2 r o)) (fun o => bg (ix2 (0 : Fin 1) o))
          (fun r o => Wc (ix2 r o)) (fun o => bc (ix2 (0 : Fin 1) o))
          (fun n f => x (ix2 n f)) (fun n o => h (ix2 n o)) n o := by
  unfold rowV cellT cellWith
  simp only [addf_apply, mulf_apply, subf_apply, broadcast_apply, sliceHi_apply, sliceLo_apply, gatesV_apply,
    candV_apply, featV_apply]
  rfl

/-- **The payload at an entry.** -/
theorem pay_apply (v1 : FVec Ideal S512x512 .bf16) (v3 : FVec Ideal S198x128 .bf16) (v5 : FVec Ideal S1x128 .f32)
    (v7 : FVec Ideal S198x64 .bf16) (v9 : FVec Ideal S1x64 .f32) (v12 : Vec Ideal S1x512x2 .f32) (v15 : Vec Ideal S1x512x64 .f32)
    (n : Fin 512) (o : Fin 64) :
    Cert.KernelIdeal.Gen.k0_pay7 (F := Ideal) v1 v3 v5 v7 v9 v12 v15 (ValueIdx.ix2 n o)
      = Cert.Gru.cellT (fun a b => v1 (ValueIdx.ix2 a b)) (fun r o => v3 (ValueIdx.ix2 r o)) (fun o => v5 (ValueIdx.ix2 0 o))
          (fun r o => v7 (ValueIdx.ix2 r o)) (fun o => v9 (ValueIdx.ix2 0 o))
          (fun n f => v12 (ValueIdx.ix3 0 n f)) (fun n o => v15 (ValueIdx.ix3 0 n o)) n o := by
  rw [pay_eq_rowV, rowV_apply]
  have hx : (fun (n : Fin 512) (f : Fin 2) => shapeCast S512x2 v12 shapeCasts_S1x512x2_S512x2 (ix2 n f))
      = fun n f => v12 (ix3 (0 : Fin 1) n f) :=
    funext fun n => funext fun f => shapeCast_1ab_ab_apply v12 _ n f
  have hh : (fun (n : Fin 512) (o : Fin 64) => shapeCast S512x64 v15 shapeCasts_S1x512x64_S512x64 (ix2 n o))
      = fun n o => v15 (ix3 (0 : Fin 1) n o) :=
    funext fun n => funext fun o => shapeCast_1ab_ab_apply v15 _ n o
  rw [hx, hh]

end Cert.Gru.Pay

end
-- ==== Proof.IdealValue.lean ====
/-
  The idealized kernel's result, index by index, is the cell applied to each batch row.

  The output block the body leaves at a grid point is, row by row, the cell's term of the blocks it was handed; the
  blocks are pieces of the arrays the region finds, and the sixteen output blocks cover the output array: so that
  array is one function of those arrays — at batch row `b`, node `n`, channel `o`, the cell of row `b` of the
  inputs and of the state. The arrays the region finds are re-layings of the program's arguments (with the weights'
  rows renumbered term-major), and the line after the region views the result as [batch, 64 n + o]. The two
  listings of the weight rows give one cell.
-/
import proofs.«113021_j41188736368837_2_alg».proof.Proof.IdealBlocks
import proofs.«113021_j41188736368837_2_alg».proof.Proof.IdealWindows
import proofs.«113021_j41188736368837_2_alg».proof.Proof.IdealHost
import proofs.«113021_j41188736368837_2_alg».proof.Proof.PayCell

set_option maxRecDepth 16384

noncomputable section

namespace Cert.KernelIdeal.CellValue

open Cert.KernelIdeal Cert.KernelIdeal.Gen Cert.KernelIdeal.Body Cert.KernelIdeal.Blocks Cert.KernelIdeal.Windows Cert.KernelIdeal.Host
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The output block the body leaves, at row `r`, node `n`, channel `o`: the cell (weight rows term-major) of the
    resident blocks and of row `r` of the input and state blocks. -/
theorem outOf_cell (arg1 : Memref sig .tc .vmem S16x512x2 .f32) (harg1 : arg1.IsWhole) (arg2 : Memref sig .tc .vmem S16x512x64 .f32) (harg2 : arg2.IsWhole) (arg3 : Memref sig .tc .vmem S512x512 .bf16) (harg3 : arg3.IsWhole) (arg4 : Memref sig .tc .vmem S198x128 .bf16) (harg4 : arg4.IsWhole) (arg5 : Memref sig .tc .vmem S1x128 .f32) (harg5 : arg5.IsWhole) (arg6 : Memref sig .tc .vmem S198x64 .bf16) (harg6 : arg6.IsWhole) (arg7 : Memref sig .tc .vmem S1x64 .f32) (harg7 : arg7.IsWhole)
    (x0 : Vec Ideal S16x512x2 .f32) (x1 : Vec Ideal S16x512x64 .f32) (x2 : Vec Ideal S512x512 .bf16) (x3 : Vec Ideal S198x128 .bf16) (x4 : Vec Ideal S1x128 .f32) (x5 : Vec Ideal S198x64 .bf16) (x6 : Vec Ideal S1x64 .f32)
    (r : Fin 16) (n : Fin 512) (o : Fin 64) :
    outOf (F := Ideal) arg1 harg1 arg2 harg2 arg3 harg3 arg4 harg4 arg5 harg5 arg6 harg6 arg7 harg7 x0 x1 x2 x3 x4 x5 x6 (ix3 r n o)
      = Cert.Gru.cellT (fun a b => x2 (ix2 a b)) (fun j o => x3 (ix2 j o)) (fun o => x4 (ix2 (0 : Fin 1) o)) (fun j o => x5 (ix2 j o))
          (fun o => x6 (ix2 (0 : Fin 1) o)) (fun n f => x0 (ix3 r n f)) (fun n o => x1 (ix3 r n o)) n o := by
  rw [outOf_pay, Cert.Gru.Pay.pay_apply]
  rfl

/-- The output array after the region, as one function of the arrays the region finds. -/
def Gout (c : Dev nD) : S256x512x64.Idx → EReal := fun i =>
  Cert.Gru.cellT (fun a b => (V m c main_v19 : S512x512.Idx → EReal) (ix2 a b))
    (fun j o => (V m c main_v26 : S198x128.Idx → EReal) (ix2 j o))
    (fun o => (V m c main_v28 : S1x128.Idx → EReal) (ix2 (0 : Fin 1) o))
    (fun j o => (V m c main_v27 : S198x64.Idx → EReal) (ix2 j o))
    (fun o => (V m c main_v29 : S1x64.Idx → EReal) (ix2 (0 : Fin 1) o))
    (fun n f => (V m c main_v0 : S256x512x2.Idx → EReal) (ix3 (⟨(i 0).val, (i 0).isLt⟩ : Fin 256) n f))
    (fun n o => (V m c main_v1 : S256x512x64.Idx → EReal) (ix3 (⟨(i 0).val, (i 0).isLt⟩ : Fin 256) n o))
    (⟨(i 1).val, (i 1).isLt⟩ : Fin 512) (⟨(i 2).val, (i 2).isLt⟩ : Fin 64)

/-- What point `t` writes back is block `t` of that function. -/
theorem flushed_eq (c : Dev nD) (t : Fin cfg0.N) :
    (dats m 0 c).flushed 7 t = ((cfg0.win 7).blk t).view.read (Elt Ideal) (Gout m c) := by
  show (cfg0.win 7).cut (grid0.coords t) ((dats m 0 c).after 7 t) = _
  rw [after0_7]
  refine funext fun (j : S16x512x64.Idx) => ?_
  obtain ⟨r, n, o, rfl⟩ : ∃ (r : Fin 16) (n : Fin 512) (o : Fin 64), j = ix3 r n o := ⟨j 0, j 1, j 2, eq_ix3 j⟩
  show outAt m c t (ix3 r n o) = Gout m c (((cfg0.win 7).blk t).view.emb (ix3 r n o))
  rw [emb7]
  unfold outAt Gout
  rw [outOf_cell]
  simp only [iblk0_apply, iblk1_apply, iblk2_apply, iblk3_apply, iblk4_apply, iblk5_apply, iblk6_apply]

/-- The output array after the region. -/
theorem final (c : Dev nD) : (dats m 0 c).arrAt 7 cfg0.N = Gout m c :=
  (dats m 0 c).arrAt_eq_of_cover 7 (Gout m c) (fun t _ => flushed_eq m c t) cover7

/-- The program's result: the line after the region views the output array as [batch, 64 n + o]. -/
theorem result_eq (c : Dev nD) :
    Pipeline.afterTail₀ cfgs (dats m) 0 (V0 m) [hostOps1] c main_v31
      = shapeCast S256x32768 (Gout m c) shapeCasts_S256x512x64_S256x32768 := by
  unfold Pipeline.afterTail₀
  show StableHlo.after hostOps1 _ (Proc.devRef .tc main_v31) = _
  after_results
  exact congrArg (fun A => shapeCast S256x32768 A shapeCasts_S256x512x64_S256x32768)
    ((Pipeline.withArrays_arr spec0 launch0.win.arr_inj c (V0 m c) (fun w => (dats m 0 c).arrAt w (cfgs 0).N) 7).trans (final m c))

/-- The result at batch row `b`, flat column `j`: the output array at node `j / 64`, channel `j % 64`. -/
theorem result_apply (c : Dev nD) (b : Fin 256) (j : Fin 32768) :
    shapeCast S256x32768 (Gout m c) shapeCasts_S256x512x64_S256x32768 (ix2 b j)
      = Gout m c (ix3 b (⟨j.val / 64, by have := j.isLt; omega⟩ : Fin 512) (⟨j.val % 64, Nat.mod_lt _ (by norm_num)⟩ : Fin 64)) := by
  refine shapeCast_apply (s := S256x512x64) (t := S256x32768) _ _ _ _ ?_
  rw [Shape.rowMajor_val_three, Shape.rowMajor_val_two]
  show (b.val * 512 + j.val / 64) * 64 + j.val % 64 = b.val * 32768 + j.val
  omega

/-- That output array at batch row `b`, node `n`, channel `o`, in terms of the program's arguments and of the matrix the
    region finds in its third window: the cell (weight rows feature-major, as the arguments list them) of row `b`. -/
theorem Gout_cell (c : Dev nD) (b : Fin 256) (n : Fin 512) (o : Fin 64) :
    Gout m c (ix3 b n o)
      = Cert.Gru.cell (fun a b => (V m c main_v19 : S512x512.Idx → EReal) (ix2 a b))
          (fun r o => m ((c : Thread nD τ).loc main_arg3) (ix2 r o)) (fun o => m ((c : Thread nD τ).loc main_arg4) (ix1 o))
          (fun r o => m ((c : Thread nD τ).loc main_arg5) (ix2 r o)) (fun o => m ((c : Thread nD τ).loc main_arg6) (ix1 o))
          (fun n f => m ((c : Thread nD τ).loc main_arg0) (ix2 b (⟨2 * n.val + f.val, by have := n.isLt; have := f.isLt; omega⟩ : Fin 1024)))
          (fun n o => m ((c : Thread nD τ).loc main_arg1) (ix2 b (⟨64 * n.val + o.val, by have := n.isLt; have := o.isLt; omega⟩ : Fin 32768)))
          n o := by
  have hW := Cert.Gru.cellT_eq (fun a b => (V m c main_v19 : S512x512.Idx → EReal) (ix2 a b))
    (fun j o => (V m c main_v26 : S198x128.Idx → EReal) (ix2 j o)) (fun r o => m ((c : Thread nD τ).loc main_arg3) (ix2 r o))
    (fun o => (V m c main_v28 : S1x128.Idx → EReal) (ix2 (0 : Fin 1) o))
    (fun j o => (V m c main_v27 : S198x64.Idx → EReal) (ix2 j o)) (fun r o => m ((c : Thread nD τ).loc main_arg5) (ix2 r o))
    (fun o => (V m c main_v29 : S1x64.Idx → EReal) (ix2 (0 : Fin 1) o))
    (fun j o => V_v26_apply m c j o) (fun j o => V_v27_apply m c j o)
  have e28 : (fun o => (V m c main_v28 : S1x128.Idx → EReal) (ix2 (0 : Fin 1) o)) = fun o => m ((c : Thread nD τ).loc main_arg4) (ix1 o) :=
    funext fun o => V_v28_apply m c o
  have e29 : (fun o => (V m c main_v29 : S1x64.Idx → EReal) (ix2 (0 : Fin 1) o)) = fun o => m ((c : Thread nD τ).loc main_arg6) (ix1 o) :=
    funext fun o => V_v29_apply m c o
  have eX : (fun (n : Fin 512) (f : Fin 2) => (V m c main_v0 : S256x512x2.Idx → EReal) (ix3 b n f))
      = fun n f => m ((c : Thread nD τ).loc main_arg0) (ix2 b (⟨2 * n.val + f.val, by have := n.isLt; have := f.isLt; omega⟩ : Fin 1024)) :=
    funext fun n => funext fun f => V_v0_apply m c b n f
  have eH : (fun (n : Fin 512) (o : Fin 64) => (V m c main_v1 : S256x512x64.Idx → EReal) (ix3 b n o))
      = fun n o => m ((c : Thread nD τ).loc main_arg1) (ix2 b (⟨64 * n.val + o.val, by have := n.isLt; have := o.isLt; omega⟩ : Fin 32768)) :=
    funext fun n => funext fun o => V_v1_apply m c b n o
  show Cert.Gru.cellT (fun a b => (V m c main_v19 : S512x512.Idx → EReal) (ix2 a b))
      (fun j o => (V m c main_v26 : S198x128.Idx → EReal) (ix2 j o)) (fun o => (V m c main_v28 : S1x128.Idx → EReal) (ix2 (0 : Fin 1) o))
      (fun j o => (V m c main_v27 : S198x64.Idx → EReal) (ix2 j o)) (fun o => (V m c main_v29 : S1x64.Idx → EReal) (ix2 (0 : Fin 1) o))
      (fun (n : Fin 512) (f : Fin 2) => (V m c main_v0 : S256x512x2.Idx → EReal) (ix3 b n f))
      (fun (n : Fin 512) (o : Fin 64) => (V m c main_v1 : S256x512x64.Idx → EReal) (ix3 b n o)) n o = _
  rw [hW, e28, e29, eX, eH]

end Cert.KernelIdeal.CellValue

end
-- ==== Proof.IdealRun.lean ====
/-
  The idealized kernel's run, with its result named: every weakly fair execution terminates, the program's result
  holds the cell applied to each batch row (viewed as [batch, 64 n + o]), and the seven arguments end unchanged.
-/
import proofs.«113021_j41188736368837_2_alg».proof.Proof.IdealValue

set_option maxRecDepth 16384

noncomputable section

namespace Cert.KernelIdeal.CellValue

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v31) = shapeCast S256x32768 (Gout m c) shapeCasts_S256x512x64_S256x32768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.CellValue

end
-- ==== Proof.RefFeat.lean ====
/-
  The reference's features array, read entry by entry.

  The reference lays the 66 features of the 512 nodes of the 256 batch rows out as a matrix with one row per node and
  one column per (feature, batch row) pair: column `256 f + b`. Its entry `(n, 256 f + b)` is feature `f` of node
  `n` of batch row `b`: input channel `f` for `f < 2`, state channel `f - 2` otherwise.
-/
import proofs.«113021_j41188736368837_2_alg».proof.Proof.RefReadP
import proofs.«113021_j41188736368837_2_alg».proof.Proof.Cell

noncomputable section

namespace Cert.Gru.Ref

open Cert.ReferenceIdeal Cert.ReferenceIdeal.Gen Cert.ReferenceIdeal.ReadP Idealize.ShloMosaic Idealize.ShloMosaic.ValueIdx

/-- Column `256 f + b` of the features matrix. -/
abbrev col (f : Fin 66) (b : Fin 256) : Fin 16896 := ⟨256 * f.val + b.val, by have := f.isLt; have := b.isLt; omega⟩

/-- Row `512 b + n` of the per-node matrices. -/
abbrev row (b : Fin 256) (n : Fin 512) : Fin 131072 := ⟨512 * b.val + n.val, by have := b.isLt; have := n.isLt; omega⟩

/-- Batch row `b` of the flat inputs, per node and channel. -/
def inp (x0 : (⟨S256x1024, .f32⟩ : BufTy).Contents (Elt Ideal)) (b : Fin 256) : Fin 512 → Fin 2 → EReal :=
  fun n c => x0 (ix2 b ⟨2 * n.val + c.val, by have := n.isLt; have := c.isLt; omega⟩)

/-- Batch row `b` of the flat state, per node and channel. -/
def st (x1 : (⟨S256x32768, .f32⟩ : BufTy).Contents (Elt Ideal)) (b : Fin 256) : Fin 512 → Fin 64 → EReal :=
  fun n o => x1 (ix2 b ⟨64 * n.val + o.val, by have := n.isLt; have := o.isLt; omega⟩)

/-- The inputs reshaped to (batch row, node, channel). -/
theorem v17_at (x0 : (⟨S256x1024, .f32⟩ : BufTy).Contents (Elt Ideal)) (b : Fin 256) (n : Fin 512) (c : Fin 2) :
    val_main_v17 (F := Ideal) x0 (ix3 b n c) = inp x0 b n c := by
  rw [val_main_v17_apply]
  unfold inp
  refine congrArg x0 (funext fun a => Fin.ext ?_)
  have hb := b.isLt; have hn := n.isLt; have hc := c.isLt
  match a with
  | ⟨0, _⟩ => show ((b.val * 512 + n.val) * 2 + c.val) / 1024 = b.val; omega
  | ⟨1, _⟩ => show ((b.val * 512 + n.val) * 2 + c.val) % 1024 = 2 * n.val + c.val; omega

/-- The state reshaped to (batch row, node, channel). -/
theorem v18_at (x1 : (⟨S256x32768, .f32⟩ : BufTy).Contents (Elt Ideal)) (b : Fin 256) (n : Fin 512) (o : Fin 64) :
    val_main_v18 (F := Ideal) x1 (ix3 b n o) = st x1 b n o := by
  rw [val_main_v18_apply]
  unfold st
  refine congrArg x1 (funext fun a => Fin.ext ?_)
  have hb := b.isLt; have hn := n.isLt; have ho := o.isLt
  match a with
  | ⟨0, _⟩ => show ((b.val * 512 + n.val) * 64 + o.val) / 32768 = b.val; omega
  | ⟨1, _⟩ => show ((b.val * 512 + n.val) * 64 + o.val) % 32768 = 64 * n.val + o.val; omega

/-- Two channels followed by 64 channels, joined along the channel axis, read at (batch row, node, feature). -/
theorem concat_at (u : (⟨S256x512x2, .f32⟩ : BufTy).Contents (Elt Ideal)) (v : (⟨S256x512x64, .f32⟩ : BufTy).Contents (Elt Ideal))
    (b : Fin 256) (n : Fin 512) (f : Fin 66) :
    concatenate S256x512x66 2 [⟨S256x512x2, u⟩, ⟨S256x512x64, v⟩] concatenates_S256x512x2_S256x512x64_S256x512x66_d2 (ix3 b n f)
      = feat (fun n c => u (ix3 b n c)) (fun n o => v (ix3 b n o)) n f := by
  unfold feat
  by_cases hf : f.val < 2
  · rw [dif_pos hf]
    refine concatenate_pair_apply_left (t := S256x512x66) (s₁ := S256x512x2) (s₂ := S256x512x64) (2 : Fin 3) u v _ (ix3 b n f) rfl (ix3 b n ⟨f.val, hf⟩) fun a => ?_
    match a with
    | ⟨0, _⟩ => rfl
    | ⟨1, _⟩ => rfl
    | ⟨2, _⟩ => rfl
  · rw [dif_neg hf]
    refine concatenate_pair_apply_right (t := S256x512x66) (s₁ := S256x512x2) (s₂ := S256x512x64) (2 : Fin 3) u v _ (ix3 b n f) rfl rfl (ix3 b n ⟨f.val - 2, by have := f.isLt; omega⟩)
      (fun a ha => ?_) ?_
    · match a with
      | ⟨0, _⟩ => rfl
      | ⟨1, _⟩ => rfl
      | ⟨2, _⟩ => exact absurd rfl ha
    · show f.val - 2 + 2 = f.val; omega

/-- The features matrix at row `n`, column `256 f + b`, from the (batch row, node, feature) array it rearranges. -/
theorem features_index (n : Fin 512) (f : Fin 66) (b : Fin 256) :
    idx_main_v20 (idx_main_v21 (ix2 n (col f b))) = ix3 b n f := by
  have hb := b.isLt; have hn := n.isLt; have hf := f.isLt
  funext a
  refine Fin.ext ?_
  match a with
  | ⟨0, _⟩ => show (n.val * 16896 + (256 * f.val + b.val)) % 256 = b.val; omega
  | ⟨1, _⟩ => show (n.val * 16896 + (256 * f.val + b.val)) / 16896 = n.val; omega
  | ⟨2, _⟩ => show (n.val * 16896 + (256 * f.val + b.val)) / 256 % 66 = f.val; omega

/-- The gates' features matrix: entry `(n, 256 f + b)` is feature `f` of node `n` of batch row `b`. -/
theorem v21_at (x0 : (⟨S256x1024, .f32⟩ : BufTy).Contents (Elt Ideal)) (x1 : (⟨S256x32768, .f32⟩ : BufTy).Contents (Elt Ideal))
    (b : Fin 256) (n : Fin 512) (f : Fin 66) :
    val_main_v21 (F := Ideal) x0 x1 (ix2 n (col f b)) = feat (inp x0 b) (st x1 b) n f := by
  rw [val_main_v21_apply, val_main_v20_apply, features_index]
  unfold val_main_v19
  rw [concat_at]
  congr 1
  · funext n c; exact v17_at x0 b n c
  · funext n o; exact v18_at x1 b n o

end Cert.Gru.Ref

end
-- ==== Proof.RefStack.lean ====
/-
  The pieces every diffusion layer of the reference is made of, read entry by entry.

  A hop is a matrix product with the node-mixing matrix, column by column. The three Chebyshev terms are stacked,
  and the stack `[3, 512, 66 · 256]` is rearranged into one row per (batch row, node) pair, row `512 b + n`, and
  one column per (feature, term) pair, column `3 f + k`.
-/
import proofs.«113021_j41188736368837_2_alg».proof.Proof.RefReadP
import proofs.«113021_j41188736368837_2_alg».proof.Proof.Cell
import proofs.«113021_j41188736368837_2_alg».proof.Proof.RefFeat

noncomputable section

namespace Cert.Gru.Ref

open Cert.ReferenceIdeal Cert.ReferenceIdeal.Gen Cert.ReferenceIdeal.ReadP Idealize.ShloMosaic Idealize.ShloMosaic.ValueIdx

/-- The node-mixing matrix as a function of two node numbers. -/
def mix (P : (⟨S512x512, .f32⟩ : BufTy).Contents (Elt Ideal)) : Fin 512 → Fin 512 → EReal := fun n m => P (ix2 n m)

/-- A product with the mixing matrix, read at row `n`, column `256 f + b`, is a hop of batch row `b`'s features. -/
theorem hop_of_dot (P : (⟨S512x512, .f32⟩ : BufTy).Contents (Elt Ideal))
    (y out : (⟨S512x16896, .f32⟩ : BufTy).Contents (Elt Ideal))
    (hout : ∀ i : S512x16896.Idx, out i = ∑ k : Fin 512, P (lidx_main_v22 i k) * y (ridx_main_v22 i k))
    (Z : Fin 512 → Fin 66 → EReal) (b : Fin 256) (hy : ∀ n f, y (ix2 n (col f b)) = Z n f)
    (n : Fin 512) (f : Fin 66) : out (ix2 n (col f b)) = hop (mix P) Z n f := by
  rw [hout]
  unfold hop mix
  refine Finset.sum_congr rfl fun m _ => ?_
  have e1 : lidx_main_v22 (ix2 n (col f b)) m = ix2 n m := funext fun a => by
    match a with
    | ⟨0, _⟩ => rfl
    | ⟨1, _⟩ => rfl
  have e2 : ridx_main_v22 (ix2 n (col f b)) m = ix2 m (col f b) := funext fun a => by
    match a with
    | ⟨0, _⟩ => rfl
    | ⟨1, _⟩ => rfl
  rw [e1, e2, hy]

/-- Three `[1, 512, 16896]` pieces stacked along the first axis, read at (term, node, column). -/
theorem stack_at (u0 u1 u2 : (⟨S1x512x16896, .f32⟩ : BufTy).Contents (Elt Ideal)) (k : Fin 3) (n : Fin 512) (j : Fin 16896) :
    concatenate S3x512x16896 0 [⟨S1x512x16896, u0⟩, ⟨S1x512x16896, u1⟩, ⟨S1x512x16896, u2⟩]
        concatenates_S1x512x16896_S1x512x16896_S1x512x16896_S3x512x16896_d0 (ix3 k n j)
      = if k.val = 0 then u0 (ix3 0 n j) else if k.val = 1 then u1 (ix3 0 n j) else u2 (ix3 0 n j) := by
  have hoff : ∀ a : Fin 3, a ≠ (0 : Fin 3) →
      ((ix3 (0 : Fin 1) n j : S1x512x16896.Idx) a).val = ((ix3 k n j : S3x512x16896.Idx) a).val := fun a ha => by
    match a with
    | ⟨0, _⟩ => exact absurd rfl ha
    | ⟨1, _⟩ => rfl
    | ⟨2, _⟩ => rfl
  by_cases h0 : k.val = 0
  · rw [if_pos h0]
    exact concatenate_apply_piece (t := S3x512x16896) (0 : Fin 3) _ _ (ix3 k n j) 0 (by show (0 : Nat) < 3; omega) S1x512x16896 u0 rfl rfl 0 rfl (ix3 0 n j)
      hoff (by show 0 + 0 = k.val; omega)
  · rw [if_neg h0]
    by_cases h1 : k.val = 1
    · rw [if_pos h1]
      exact concatenate_apply_piece (t := S3x512x16896) (0 : Fin 3) _ _ (ix3 k n j) 1 (by show (1 : Nat) < 3; omega) S1x512x16896 u1 rfl rfl 1 rfl (ix3 0 n j)
        hoff (by show 1 + 0 = k.val; omega)
    · rw [if_neg h1]
      exact concatenate_apply_piece (t := S3x512x16896) (0 : Fin 3) _ _ (ix3 k n j) 2 (by show (2 : Nat) < 3; omega) S1x512x16896 u2 rfl rfl 2 rfl (ix3 0 n j)
        hoff (by show 2 + 0 = k.val; have := k.isLt; omega)

/-- A `[512, 16896]` matrix given a leading axis of extent one, read at (0, node, column). -/
theorem lead_index (n : Fin 512) (j : Fin 16896) : idx_main_v27 (ix3 (0 : Fin 1) n j) = ix2 n j :=
  funext fun a => by
    match a with
    | ⟨0, _⟩ => rfl
    | ⟨1, _⟩ => rfl

/-- Row `512 b + n`, column `j` of the per-node matrix is entry (b, n, j / 3, j % 3) of the four-axis array. -/
theorem rows_index (b : Fin 256) (n : Fin 512) (j : Fin 198) :
    idx_main_v33 (ix2 (row b n) j)
      = ix4 b n (⟨j.val / 3, by have := j.isLt; omega⟩ : Fin 66) (⟨j.val % 3, Nat.mod_lt _ (by norm_num)⟩ : Fin 3) := by
  have hb := b.isLt; have hn := n.isLt; have hj := j.isLt
  funext a
  refine Fin.ext ?_
  match a with
  | ⟨0, _⟩ => show ((512 * b.val + n.val) * 198 + j.val) / 101376 = b.val; omega
  | ⟨1, _⟩ => show ((512 * b.val + n.val) * 198 + j.val) / 198 % 512 = n.val; omega
  | ⟨2, _⟩ => show ((512 * b.val + n.val) * 198 + j.val) / 3 % 66 = j.val / 3; omega
  | ⟨3, _⟩ => show ((512 * b.val + n.val) * 198 + j.val) % 3 = j.val % 3; omega

/-- The transposition that brings the batch row first and the term last. -/
theorem swap_index (b : Fin 256) (n : Fin 512) (f : Fin 66) (k : Fin 3) :
    idx_main_v32 (ix4 b n f k) = ix4 k n f b :=
  funext fun a => by
    match a with
    | ⟨0, _⟩ => rfl
    | ⟨1, _⟩ => rfl
    | ⟨2, _⟩ => rfl
    | ⟨3, _⟩ => rfl

/-- Entry (term, node, feature, batch row) of the four-axis array is column `256 f + b` of the stack. -/
theorem cols_index (k : Fin 3) (n : Fin 512) (f : Fin 66) (b : Fin 256) :
    idx_main_v31 (ix4 k n f b) = ix3 k n (col f b) := by
  have hk := k.isLt; have hb := b.isLt; have hn := n.isLt; have hf := f.isLt
  funext a
  refine Fin.ext ?_
  match a with
  | ⟨0, _⟩ => show (((k.val * 512 + n.val) * 66 + f.val) * 256 + b.val) / 8650752 = k.val; omega
  | ⟨1, _⟩ => show (((k.val * 512 + n.val) * 66 + f.val) * 256 + b.val) / 16896 % 512 = n.val; omega
  | ⟨2, _⟩ => show (((k.val * 512 + n.val) * 66 + f.val) * 256 + b.val) % 16896 = 256 * f.val + b.val; omega

/-- The three Chebyshev terms from the three stacked matrices. -/
theorem cheb_of_stack (P : Fin 512 → Fin 512 → EReal) (Z : Fin 512 → Fin 66 → EReal) (b : Fin 256)
    (y y1 y2 : (⟨S512x16896, .f32⟩ : BufTy).Contents (Elt Ideal))
    (hy : ∀ n f, y (ix2 n (col f b)) = Z n f)
    (hy1 : ∀ n f, y1 (ix2 n (col f b)) = hop P Z n f)
    (hy2 : ∀ n f, y2 (ix2 n (col f b)) = two * hop P (hop P Z) n f - Z n f)
    (k : Fin 3) (n : Fin 512) (f : Fin 66) :
    (if k.val = 0 then y (ix2 n (col f b)) else if k.val = 1 then y1 (ix2 n (col f b)) else y2 (ix2 n (col f b)))
      = cheb P Z k n f := by
  unfold cheb
  rw [hy, hy1, hy2]

end Cert.Gru.Ref

end
-- ==== Proof.RefGateConv.lean ====
/-
  The reference's diffusion layer of the gates, read entry by entry: the hops of the features matrix, the three
  stacked Chebyshev terms, their rearrangement into one row per (batch row, node), and the dense layer on them.
-/
import proofs.«113021_j41188736368837_2_alg».proof.Proof.RefReadP
import proofs.«113021_j41188736368837_2_alg».proof.Proof.Cell
import proofs.«113021_j41188736368837_2_alg».proof.Proof.RefStack

noncomputable section

namespace Cert.Gru.Ref

open Cert.ReferenceIdeal Cert.ReferenceIdeal.Gen Cert.ReferenceIdeal.ReadP Idealize.ShloMosaic Idealize.ShloMosaic.ValueIdx

/-- Batch row `b`'s features for the gates. -/
def gfeat (x0 : (⟨S256x1024, .f32⟩ : BufTy).Contents (Elt Ideal)) (x1 : (⟨S256x32768, .f32⟩ : BufTy).Contents (Elt Ideal)) (b : Fin 256) : Fin 512 → Fin 66 → EReal :=
  feat (inp x0 b) (st x1 b)

/-- One hop of the gates' features. -/
theorem v22_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (b : Fin 256) (n : Fin 512) (f : Fin 66) :
    val_main_v22 (F := Ideal) x0 x1 x2 (ix2 n (col f b))
      = hop (mix (val_main_v16 (F := Ideal) x2)) (gfeat x0 x1 b) n f :=
  hop_of_dot (val_main_v16 (F := Ideal) x2) (val_main_v21 (F := Ideal) x0 x1) (val_main_v22 (F := Ideal) x0 x1 x2)
    (val_main_v22_apply x0 x1 x2) (gfeat x0 x1 b) b (fun n f => v21_at x0 x1 b n f) n f

/-- Two hops of the gates' features. -/
theorem v23_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (b : Fin 256) (n : Fin 512) (f : Fin 66) :
    val_main_v23 (F := Ideal) x0 x1 x2 (ix2 n (col f b))
      = hop (mix (val_main_v16 (F := Ideal) x2)) (hop (mix (val_main_v16 (F := Ideal) x2)) (gfeat x0 x1 b)) n f :=
  hop_of_dot (val_main_v16 (F := Ideal) x2) (val_main_v22 (F := Ideal) x0 x1 x2) (val_main_v23 (F := Ideal) x0 x1 x2)
    (val_main_v23_apply x0 x1 x2) _ b (fun n f => v22_at x0 x1 x2 b n f) n f

/-- The third Chebyshev term of the gates' features. -/
theorem v26_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (b : Fin 256) (n : Fin 512) (f : Fin 66) :
    val_main_v26 (F := Ideal) x0 x1 x2 (ix2 n (col f b))
      = two * hop (mix (val_main_v16 (F := Ideal) x2)) (hop (mix (val_main_v16 (F := Ideal) x2)) (gfeat x0 x1 b)) n f
          - gfeat x0 x1 b n f := by
  rw [val_main_v26_apply, val_main_v25_apply, val_main_v24_apply, val_main_cst_3_apply, v23_at, v21_at]
  rfl

/-- The stack of the three terms, at (term, node, column `256 f + b`). -/
theorem v30_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (b : Fin 256) (k : Fin 3) (n : Fin 512) (f : Fin 66) :
    val_main_v30 (F := Ideal) x0 x1 x2 (ix3 k n (col f b))
      = cheb (mix (val_main_v16 (F := Ideal) x2)) (gfeat x0 x1 b) k n f := by
  unfold val_main_v30
  rw [stack_at, val_main_v27_apply, val_main_v28_apply, val_main_v29_apply, lead_index,
    show idx_main_v28 (ix3 (0 : Fin 1) n (col f b)) = ix2 n (col f b) from lead_index n _,
    show idx_main_v29 (ix3 (0 : Fin 1) n (col f b)) = ix2 n (col f b) from lead_index n _]
  exact cheb_of_stack _ _ b _ _ _ (fun n f => v21_at x0 x1 b n f) (fun n f => v22_at x0 x1 x2 b n f)
    (fun n f => v26_at x0 x1 x2 b n f) k n f

/-- The rearranged stack: row `512 b + n`, column `j` holds term `j % 3` of feature `j / 3`. -/
theorem v33_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (b : Fin 256) (n : Fin 512) (j : Fin 198) :
    val_main_v33 (F := Ideal) x0 x1 x2 (ix2 (row b n) j)
      = cheb (mix (val_main_v16 (F := Ideal) x2)) (gfeat x0 x1 b) ⟨j.val % 3, Nat.mod_lt _ (by norm_num)⟩ n
          ⟨j.val / 3, by have := j.isLt; omega⟩ := by
  rw [val_main_v33_apply, rows_index, val_main_v32_apply, swap_index, val_main_v31_apply, cols_index, v30_at]

/-- The gates' dense layer, at row `512 b + n`. -/
theorem v37_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (o : Fin 128) :
    val_main_v37 (F := Ideal) x0 x1 x2 x3 x4 (ix2 (row b n) o)
      = dense (fun j o => x3 (ix2 j o)) (fun o => x4 (ix1 o))
          (cheb (mix (val_main_v16 (F := Ideal) x2)) (gfeat x0 x1 b)) n o := by
  rw [val_main_v37_apply, val_main_v34_apply, val_main_v36_apply, val_main_v35_apply, Ideal.addf_def]
  unfold dense
  congr 1
  · refine Finset.sum_congr rfl fun j _ => ?_
    have e1 : lidx_main_v34 (ix2 (row b n) o) j = ix2 (row b n) j := funext fun a => by
      match a with
      | ⟨0, _⟩ => rfl
      | ⟨1, _⟩ => rfl
    have e2 : ridx_main_v34 (ix2 (row b n) o) j = ix2 j o := funext fun a => by
      match a with
      | ⟨0, _⟩ => rfl
      | ⟨1, _⟩ => rfl
    rw [e1, e2, v33_at]
  · refine congrArg x4 (funext fun a => ?_)
    match a with
    | ⟨0, _⟩ => rfl

end Cert.Gru.Ref

end
-- ==== Proof.RefGate.lean ====
/-
  The reference's gates, read entry by entry: the logistic of the gates' dense layer, reshaped to
  (batch row, node, output), the first 64 outputs the reset gates, the last 64 the update gates.
-/
import proofs.«113021_j41188736368837_2_alg».proof.Proof.RefReadP
import proofs.«113021_j41188736368837_2_alg».proof.Proof.Cell
import proofs.«113021_j41188736368837_2_alg».proof.Proof.RefGateConv

noncomputable section

namespace Cert.Gru.Ref

open Cert.ReferenceIdeal Cert.ReferenceIdeal.Gen Cert.ReferenceIdeal.ReadP Idealize.ShloMosaic Idealize.ShloMosaic.ValueIdx

/-- The single-precision word of 1 is the number 1. -/
theorem one_word : Ideal.ofBits .f32 0x3F800000#32 = 1 := by
  simp [Ideal.ofBits, Ideal.ieee, -EReal.coe_mul]; norm_num

/-- Batch row `b`'s gates, per node and output. -/
def gateOf (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) : Fin 512 → Fin 128 → EReal := fun n c =>
  Ideal.logistic (dense (fun j o => x3 (ix2 j o)) (fun o => x4 (ix1 o))
    (cheb (mix (val_main_v16 (F := Ideal) x2)) (gfeat x0 x1 b)) n c)

/-- Column `128 n + c` of the gates' matrix with one row per batch row. -/
abbrev gcol (n : Fin 512) (c : Fin 128) : Fin 65536 := ⟨128 * n.val + c.val, by have := n.isLt; have := c.isLt; omega⟩

/-- The gates' dense layer with one row per batch row. -/
theorem v38_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (c : Fin 128) :
    val_main_v38 (F := Ideal) x0 x1 x2 x3 x4 (ix2 b (gcol n c))
      = dense (fun j o => x3 (ix2 j o)) (fun o => x4 (ix1 o))
          (cheb (mix (val_main_v16 (F := Ideal) x2)) (gfeat x0 x1 b)) n c := by
  have e : idx_main_v38 (ix2 b (gcol n c)) = ix2 (row b n) c := by
    have hb := b.isLt; have hn := n.isLt; have hc := c.isLt
    funext a
    refine Fin.ext ?_
    match a with
    | ⟨0, _⟩ => show (b.val * 65536 + (128 * n.val + c.val)) / 128 = 512 * b.val + n.val; omega
    | ⟨1, _⟩ => show (b.val * 65536 + (128 * n.val + c.val)) % 128 = c.val; omega
  rw [val_main_v38_apply, e, v37_at]

/-- The logistic, spelt `1 / (1 + exp (-x))` with the word of 1. -/
theorem logistic_spelt (d : EReal) :
    Ideal.div (Ideal.ofBits .f32 0x3F800000#32) (Ideal.ofBits .f32 0x3F800000#32 + Ideal.exp (-d)) = Ideal.logistic d := by
  rw [one_word]; rfl

/-- The gates with one row per batch row. -/
theorem v44_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (c : Fin 128) :
    val_main_v44 (F := Ideal) x0 x1 x2 x3 x4 (ix2 b (gcol n c)) = gateOf x0 x1 x2 x3 x4 b n c := by
  rw [val_main_v44_apply, val_main_v43_apply, val_main_cst_5_apply, val_main_v42_apply, val_main_v41_apply,
    val_main_cst_4_apply, val_main_v40_apply, val_main_v39_apply, v38_at]
  exact logistic_spelt _

/-- The gates at (batch row, node, output). -/
theorem v45_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (c : Fin 128) :
    val_main_v45 (F := Ideal) x0 x1 x2 x3 x4 (ix3 b n c) = gateOf x0 x1 x2 x3 x4 b n c := by
  have e : idx_main_v45 (ix3 b n c) = ix2 b (gcol n c) := by
    have hb := b.isLt; have hn := n.isLt; have hc := c.isLt
    funext a
    refine Fin.ext ?_
    match a with
    | ⟨0, _⟩ => show ((b.val * 512 + n.val) * 128 + c.val) / 65536 = b.val; omega
    | ⟨1, _⟩ => show ((b.val * 512 + n.val) * 128 + c.val) % 65536 = 128 * n.val + c.val; omega
  rw [val_main_v45_apply, e, v44_at]

/-- The reset gates: the first 64 outputs. -/
theorem v46_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (o : Fin 64) :
    val_main_v46 (F := Ideal) x0 x1 x2 x3 x4 (ix3 b n o)
      = gateOf x0 x1 x2 x3 x4 b n ⟨o.val, by have := o.isLt; omega⟩ := by
  have e : idx_main_v46 (ix3 b n o) = ix3 b n (⟨o.val, by have := o.isLt; omega⟩ : Fin 128) := funext fun a => by
    match a with
    | ⟨0, _⟩ => rfl
    | ⟨1, _⟩ => rfl
    | ⟨2, _⟩ => rfl
  rw [val_main_v46_apply, e, v45_at]

/-- The update gates: the last 64 outputs. -/
theorem v47_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (o : Fin 64) :
    val_main_v47 (F := Ideal) x0 x1 x2 x3 x4 (ix3 b n o)
      = gateOf x0 x1 x2 x3 x4 b n ⟨o.val + 64, by have := o.isLt; omega⟩ := by
  have e : idx_main_v47 (ix3 b n o) = ix3 b n (⟨o.val + 64, by have := o.isLt; omega⟩ : Fin 128) := funext fun a => by
    match a with
    | ⟨0, _⟩ => rfl
    | ⟨1, _⟩ => rfl
    | ⟨2, _⟩ => exact Fin.ext (by show 64 + o.val = o.val + 64; omega)
  rw [val_main_v47_apply, e, v45_at]

/-- The update gates with one row per batch row: column `j` is node `j / 64`, output `j % 64`. -/
theorem v48_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (j : Fin 32768) :
    val_main_v48 (F := Ideal) x0 x1 x2 x3 x4 (ix2 b j)
      = gateOf x0 x1 x2 x3 x4 b ⟨j.val / 64, by have := j.isLt; omega⟩
          ⟨j.val % 64 + 64, by have := Nat.mod_lt j.val (show 0 < 64 by norm_num); omega⟩ := by
  have e : idx_main_v48 (ix2 b j)
      = ix3 b (⟨j.val / 64, by have := j.isLt; omega⟩ : Fin 512) (⟨j.val % 64, Nat.mod_lt _ (by norm_num)⟩ : Fin 64) := by
    have hb := b.isLt; have hj := j.isLt
    funext a
    refine Fin.ext ?_
    match a with
    | ⟨0, _⟩ => show (b.val * 32768 + j.val) / 32768 = b.val; omega
    | ⟨1, _⟩ => show (b.val * 32768 + j.val) / 64 % 512 = j.val / 64; omega
    | ⟨2, _⟩ => show (b.val * 32768 + j.val) % 64 = j.val % 64; omega
  rw [val_main_v48_apply, e, v47_at]

/-- The state scaled by the reset gates. -/
theorem v49_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (o : Fin 64) :
    val_main_v49 (F := Ideal) x0 x1 x2 x3 x4 (ix3 b n o)
      = gateOf x0 x1 x2 x3 x4 b n ⟨o.val, by have := o.isLt; omega⟩ * st x1 b n o := by
  rw [val_main_v49_apply, v46_at, v18_at]
  rfl

end Cert.Gru.Ref

end
-- ==== Proof.RefCandConv.lean ====
/-
  The reference's diffusion layer of the candidate, read entry by entry: the same layer as the gates', over the
  features whose state channels are scaled by the reset gates.
-/
import proofs.«113021_j41188736368837_2_alg».proof.Proof.RefReadP
import proofs.«113021_j41188736368837_2_alg».proof.Proof.Cell
import proofs.«113021_j41188736368837_2_alg».proof.Proof.RefGate

noncomputable section

namespace Cert.Gru.Ref

open Cert.ReferenceIdeal Cert.ReferenceIdeal.Gen Cert.ReferenceIdeal.ReadP Idealize.ShloMosaic Idealize.ShloMosaic.ValueIdx

/-- Batch row `b`'s features for the candidate: the inputs, then the state scaled by the reset gates. -/
def cfeat (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) : Fin 512 → Fin 66 → EReal :=
  feat (inp x0 b) fun n o => gateOf x0 x1 x2 x3 x4 b n ⟨o.val, by have := o.isLt; omega⟩ * st x1 b n o

/-- The candidate's features matrix: entry `(n, 256 f + b)` is feature `f` of node `n` of batch row `b`. -/
theorem v52_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (f : Fin 66) :
    val_main_v52 (F := Ideal) x0 x1 x2 x3 x4 (ix2 n (col f b)) = cfeat x0 x1 x2 x3 x4 b n f := by
  rw [val_main_v52_apply, val_main_v51_apply,
    show idx_main_v51 (idx_main_v52 (ix2 n (col f b))) = ix3 b n f from features_index n f b]
  unfold val_main_v50 cfeat
  rw [concat_at]
  congr 1
  · funext n c; exact v17_at x0 b n c
  · funext n o; exact v49_at x0 x1 x2 x3 x4 b n o

/-- One hop of the candidate's features. -/
theorem v53_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (f : Fin 66) :
    val_main_v53 (F := Ideal) x0 x1 x2 x3 x4 (ix2 n (col f b)) = hop (mix (val_main_v16 (F := Ideal) x2)) (cfeat x0 x1 x2 x3 x4 b) n f :=
  hop_of_dot (val_main_v16 (F := Ideal) x2) (val_main_v52 (F := Ideal) x0 x1 x2 x3 x4) (val_main_v53 (F := Ideal) x0 x1 x2 x3 x4)
    (val_main_v53_apply x0 x1 x2 x3 x4) (cfeat x0 x1 x2 x3 x4 b) b (fun n f => v52_at x0 x1 x2 x3 x4 b n f) n f

/-- Two hops of the candidate's features. -/
theorem v54_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (f : Fin 66) :
    val_main_v54 (F := Ideal) x0 x1 x2 x3 x4 (ix2 n (col f b)) = hop (mix (val_main_v16 (F := Ideal) x2)) (hop (mix (val_main_v16 (F := Ideal) x2)) (cfeat x0 x1 x2 x3 x4 b)) n f :=
  hop_of_dot (val_main_v16 (F := Ideal) x2) (val_main_v53 (F := Ideal) x0 x1 x2 x3 x4) (val_main_v54 (F := Ideal) x0 x1 x2 x3 x4)
    (val_main_v54_apply x0 x1 x2 x3 x4) _ b (fun n f => v53_at x0 x1 x2 x3 x4 b n f) n f

/-- The third Chebyshev term of the candidate's features. -/
theorem v57_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (f : Fin 66) :
    val_main_v57 (F := Ideal) x0 x1 x2 x3 x4 (ix2 n (col f b))
      = two * hop (mix (val_main_v16 (F := Ideal) x2)) (hop (mix (val_main_v16 (F := Ideal) x2)) (cfeat x0 x1 x2 x3 x4 b)) n f - cfeat x0 x1 x2 x3 x4 b n f := by
  rw [val_main_v57_apply, val_main_v56_apply, val_main_v55_apply, val_main_cst_6_apply, v54_at, v52_at]
  rfl

/-- The stack of the three terms, at (term, node, column `256 f + b`). -/
theorem v61_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (k : Fin 3) (n : Fin 512) (f : Fin 66) :
    val_main_v61 (F := Ideal) x0 x1 x2 x3 x4 (ix3 k n (col f b)) = cheb (mix (val_main_v16 (F := Ideal) x2)) (cfeat x0 x1 x2 x3 x4 b) k n f := by
  unfold val_main_v61
  rw [stack_at, val_main_v58_apply, val_main_v59_apply, val_main_v60_apply,
    show idx_main_v58 (ix3 (0 : Fin 1) n (col f b)) = ix2 n (col f b) from lead_index n _,
    show idx_main_v59 (ix3 (0 : Fin 1) n (col f b)) = ix2 n (col f b) from lead_index n _,
    show idx_main_v60 (ix3 (0 : Fin 1) n (col f b)) = ix2 n (col f b) from lead_index n _]
  exact cheb_of_stack _ _ b _ _ _ (fun n f => v52_at x0 x1 x2 x3 x4 b n f) (fun n f => v53_at x0 x1 x2 x3 x4 b n f)
    (fun n f => v57_at x0 x1 x2 x3 x4 b n f) k n f

/-- The rearranged stack: row `512 b + n`, column `j` holds term `j % 3` of feature `j / 3`. -/
theorem v64_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal))
    (b : Fin 256) (n : Fin 512) (j : Fin 198) :
    val_main_v64 (F := Ideal) x0 x1 x2 x3 x4 (ix2 (row b n) j)
      = cheb (mix (val_main_v16 (F := Ideal) x2)) (cfeat x0 x1 x2 x3 x4 b) ⟨j.val % 3, Nat.mod_lt _ (by norm_num)⟩ n
          ⟨j.val / 3, by have := j.isLt; omega⟩ := by
  rw [val_main_v64_apply,
    show idx_main_v64 (ix2 (row b n) j) = ix4 b n (⟨j.val / 3, by have := j.isLt; omega⟩ : Fin 66)
      (⟨j.val % 3, Nat.mod_lt _ (by norm_num)⟩ : Fin 3) from rows_index b n j,
    val_main_v63_apply,
    show idx_main_v63 (ix4 b n (⟨j.val / 3, by have := j.isLt; omega⟩ : Fin 66)
      (⟨j.val % 3, Nat.mod_lt _ (by norm_num)⟩ : Fin 3)) = ix4 _ n _ b from swap_index b n _ _,
    val_main_v62_apply,
    show idx_main_v62 (ix4 (⟨j.val % 3, Nat.mod_lt _ (by norm_num)⟩ : Fin 3) n
      (⟨j.val / 3, by have := j.isLt; omega⟩ : Fin 66) b) = ix3 _ n (col _ b) from cols_index _ n _ b,
    v61_at]

/-- The candidate's dense layer, at row `512 b + n`. -/
theorem v68_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal)) (x5 : (⟨S198x64, .f32⟩ : BufTy).Contents (Elt Ideal)) (x6 : (⟨S64, .f32⟩ : BufTy).Contents (Elt Ideal))
    (b : Fin 256) (n : Fin 512) (o : Fin 64) :
    val_main_v68 (F := Ideal) x0 x1 x2 x3 x4 x5 x6 (ix2 (row b n) o)
      = dense (fun j o => x5 (ix2 j o)) (fun o => x6 (ix1 o)) (cheb (mix (val_main_v16 (F := Ideal) x2)) (cfeat x0 x1 x2 x3 x4 b)) n o := by
  rw [val_main_v68_apply, val_main_v65_apply, val_main_v67_apply, val_main_v66_apply, Ideal.addf_def]
  unfold dense
  congr 1
  · refine Finset.sum_congr rfl fun j _ => ?_
    have e1 : lidx_main_v65 (ix2 (row b n) o) j = ix2 (row b n) j := funext fun a => by
      match a with
      | ⟨0, _⟩ => rfl
      | ⟨1, _⟩ => rfl
    have e2 : ridx_main_v65 (ix2 (row b n) o) j = ix2 j o := funext fun a => by
      match a with
      | ⟨0, _⟩ => rfl
      | ⟨1, _⟩ => rfl
    rw [e1, e2, v64_at]
  · refine congrArg x6 (funext fun a => ?_)
    match a with
    | ⟨0, _⟩ => rfl

end Cert.Gru.Ref

end
-- ==== Proof.RefCell.lean ====
/-
  The reference's result, read entry by entry, is the cell applied to each batch row: entry `(b, j)` is the new
  state of node `j / 64`, channel `j % 64` of batch row `b` — the update gate times the old state plus one minus
  the update gate times the candidate.
-/
import proofs.«113021_j41188736368837_2_alg».proof.Proof.RefReadP
import proofs.«113021_j41188736368837_2_alg».proof.Proof.Cell
import proofs.«113021_j41188736368837_2_alg».proof.Proof.RefCandConv

noncomputable section

namespace Cert.Gru.Ref

open Cert.ReferenceIdeal Cert.ReferenceIdeal.Gen Cert.ReferenceIdeal.ReadP Idealize.ShloMosaic Idealize.ShloMosaic.ValueIdx

/-- The candidate's dense layer with one row per batch row: column `j` is node `j / 64`, output `j % 64`. -/
theorem v69_at (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal)) (x5 : (⟨S198x64, .f32⟩ : BufTy).Contents (Elt Ideal)) (x6 : (⟨S64, .f32⟩ : BufTy).Contents (Elt Ideal))
    (b : Fin 256) (j : Fin 32768) :
    val_main_v69 (F := Ideal) x0 x1 x2 x3 x4 x5 x6 (ix2 b j)
      = dense (fun j o => x5 (ix2 j o)) (fun o => x6 (ix1 o)) (cheb (mix (val_main_v16 (F := Ideal) x2)) (cfeat x0 x1 x2 x3 x4 b))
          ⟨j.val / 64, by have := j.isLt; omega⟩ ⟨j.val % 64, Nat.mod_lt _ (by norm_num)⟩ := by
  have e : idx_main_v69 (ix2 b j)
      = ix2 (row b (⟨j.val / 64, by have := j.isLt; omega⟩ : Fin 512)) (⟨j.val % 64, Nat.mod_lt _ (by norm_num)⟩ : Fin 64) := by
    have hb := b.isLt; have hj := j.isLt
    funext a
    refine Fin.ext ?_
    match a with
    | ⟨0, _⟩ => show (b.val * 32768 + j.val) / 64 = 512 * b.val + j.val / 64; omega
    | ⟨1, _⟩ => show (b.val * 32768 + j.val) % 64 = j.val % 64; omega
  rw [val_main_v69_apply, e, v68_at]

/-- The old state at column `j` is the state of node `j / 64`, channel `j % 64`. -/
theorem st_at (x1 : (⟨S256x32768, .f32⟩ : BufTy).Contents (Elt Ideal)) (b : Fin 256) (j : Fin 32768) :
    x1 (ix2 b j) = st x1 b ⟨j.val / 64, by have := j.isLt; omega⟩ ⟨j.val % 64, Nat.mod_lt _ (by norm_num)⟩ := by
  unfold st
  exact congrArg (fun t => x1 (ix2 b t)) (Fin.ext (by show j.val = 64 * (j.val / 64) + j.val % 64; omega))

/-- The reference's result at batch row `b`, column `j`. -/
theorem result_apply (x0 : (⟨S256x1024, .f32⟩ : BufTy).Contents (Elt Ideal)) (x1 : (⟨S256x32768, .f32⟩ : BufTy).Contents (Elt Ideal)) (x2 : (⟨S512x512, .f32⟩ : BufTy).Contents (Elt Ideal))
    (x3 : (⟨S198x128, .f32⟩ : BufTy).Contents (Elt Ideal)) (x4 : (⟨S128, .f32⟩ : BufTy).Contents (Elt Ideal)) (x5 : (⟨S198x64, .f32⟩ : BufTy).Contents (Elt Ideal)) (x6 : (⟨S64, .f32⟩ : BufTy).Contents (Elt Ideal))
    (b : Fin 256) (j : Fin 32768) :
    val_main_v75 (F := Ideal) x0 x1 x2 x3 x4 x5 x6 (ix2 b j)
      = whole (fun n m => val_main_v16 (F := Ideal) x2 (ix2 n m))
          (fun r o => x3 (ix2 r o)) (fun o => x4 (ix1 o)) (fun r o => x5 (ix2 r o)) (fun o => x6 (ix1 o))
          (fun b j => x0 (ix2 b j)) (fun b j => x1 (ix2 b j)) b j := by
  rw [val_main_v75_apply, val_main_v71_apply, val_main_v74_apply, val_main_v73_apply, val_main_v72_apply,
    val_main_cst_7_apply, val_main_v70_apply, v69_at, v48_at, st_at x1 b j]
  rfl

end Cert.Gru.Ref

end
-- ==== Proof.AdjSame.lean ====
/-
  One node-mixing matrix in both programs: the transposed random-walk matrix of the adjacency argument.
-/
import proofs.«113021_j41188736368837_2_alg».proof.Proof.RefReadP
import proofs.«113021_j41188736368837_2_alg».proof.Proof.Gen.KernelIdeal.Frame
import Idealize.ShloMosaic.Lib.StableHlo.Run
import Idealize.ShloMosaic.Lib.ValueIdx

set_option maxRecDepth 16384

noncomputable section

namespace Cert.Gru.Adj

open Idealize.ShloMosaic Idealize.ShloMosaic.TcCoe Idealize.SL.Sem Idealize.ShloMosaic.StableHlo

set_option maxHeartbeats 4000000 in
/-- The matrix the kernel's region finds in its third window is the reference's transposed random-walk matrix of
    the same adjacency argument: the two programs build it by the same operations (the diagonal added, the row sums,
    the guarded reciprocal, the scaling, the transposition), and the kernel's change of float format is the identity on
    the extended reals. -/
theorem same (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v19 : Cert.KernelIdeal.S512x512.Idx → EReal)
      = Cert.ReferenceIdeal.ReadP.val_main_v16 (F := Ideal) (m ((c : Thread Cert.KernelIdeal.nD Cert.KernelIdeal.τ).loc Cert.KernelIdeal.main_arg2)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results
  funext i
  rw [ValueIdx.truncf_apply]
  simp only [Cert.ReferenceIdeal.ReadP.val_main_v16, Cert.ReferenceIdeal.ReadP.val_main_v15, Cert.ReferenceIdeal.ReadP.val_main_v14, Cert.ReferenceIdeal.ReadP.val_main_v13, Cert.ReferenceIdeal.ReadP.val_main_v12, Cert.ReferenceIdeal.ReadP.val_main_call0_v1, Cert.ReferenceIdeal.ReadP.val_main_call0_v0, Cert.ReferenceIdeal.ReadP.val_main_cst_2, Cert.ReferenceIdeal.ReadP.val_main_v11, Cert.ReferenceIdeal.ReadP.val_main_v10, Cert.ReferenceIdeal.ReadP.val_main_cst_1, Cert.ReferenceIdeal.ReadP.val_main_v9, Cert.ReferenceIdeal.ReadP.val_main_v8, Cert.ReferenceIdeal.ReadP.val_main_cst_0, Cert.ReferenceIdeal.ReadP.val_main_v7, Cert.ReferenceIdeal.ReadP.val_main_cst, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_v2, Cert.ReferenceIdeal.ReadP.val_main_c, Cert.ReferenceIdeal.ReadP.val_main_v1, Cert.ReferenceIdeal.ReadP.val_main_v0]
  rfl

end Cert.Gru.Adj

end
-- ==== Proof.Bridge.lean ====
/-
  The two idealized programs compute one function.

  From memories that agree on the seven arguments, the reference's result at batch row `b`, flat column `j` is the
  cell of row `b` (weights as the arguments list them) at node `j / 64`, channel `j % 64`; the kernel's result at the
  same place is the same cell, its weights' rows renumbered and renumbered back; and the node-mixing matrix is in both
  programs the transposed random-walk matrix of the adjacency argument, built by the same operations.
-/
import proofs.«113021_j41188736368837_2_alg».proof.Proof.IdealRun
import proofs.«113021_j41188736368837_2_alg».proof.Proof.RefCell
import proofs.«113021_j41188736368837_2_alg».proof.Proof.AdjSame

set_option maxRecDepth 16384

noncomputable section

namespace Cert.Gru.Bridge

open Idealize.ShloMosaic Idealize.ShloMosaic.TcCoe Idealize.SL.Sem Idealize.ShloMosaic.ValueIdx

theorem result_same
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ReadP.val_main_v75 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = shapeCast Cert.KernelIdeal.S256x32768 (Cert.KernelIdeal.CellValue.Gout m c) Cert.KernelIdeal.Gen.shapeCasts_S256x512x64_S256x32768 := by
  rw [h0, h1, h2, h3, h4, h5, h6]
  funext i
  obtain ⟨b, j, rfl⟩ : ∃ (b : Fin 256) (j : Fin 32768), i = ix2 b j := ⟨i 0, i 1, eq_ix2 i⟩
  refine (Cert.Gru.Ref.result_apply _ _ _ _ _ _ _ b j).trans ?_
  refine Eq.trans ?_ ((Cert.KernelIdeal.CellValue.result_apply m c b j).trans (Cert.KernelIdeal.CellValue.Gout_cell m c b _ _)).symm
  rw [Cert.Gru.Adj.same m c]
  rfl

end Cert.Gru.Bridge

end
-- ==== Proof.lean ====
/-
  The certificate of a graph-diffusion gated recurrent cell: a Pallas kernel that runs the cell batch row by batch row
  (sixteen rows per grid point, one row per trip of an inner loop, the adjacency and the weights resident) against the
  plain array program that runs it on the whole batch at once.

  At the ideal values both compute, at batch row `b`, node `n`, channel `o`,
  `u * h + (1 - u) * tanh(dense_c(cheb(P, [x, r * h])))` with `[r, u] = logistic(dense_g(cheb(P, [x, h])))`,
  `cheb(P, z) = (z, P z, 2 P (P z) - z)` and `P` the transposed random-walk matrix of the adjacency: the kernel
  lists the 198 rows of each weight matrix term-major and the reference feature-major, which is a renumbering of a
  finite sum; the kernel's logistic is the reference's `1 / (1 + exp (-x))` by definition; changes of float format are
  the identity. No step needs the inputs to be finite.

  The three frames: both kernel programs by the body's triple at a grid point through the loop's invariant and the
  pipeline's launch theorem; the reference's by its run, followed one host operation at a time, with the result dropped.
-/
import proofs.«113021_j41188736368837_2_alg».proof.Defs
import proofs.«113021_j41188736368837_2_alg».proof.Proof.Gen.Kernel
import proofs.«113021_j41188736368837_2_alg».proof.Proof.Gen.KernelIdeal
import proofs.«113021_j41188736368837_2_alg».proof.Proof.Gen.ReferenceIdeal
import proofs.«113021_j41188736368837_2_alg».proof.Proof.Gen.Pre_finite_inputs
import proofs.«113021_j41188736368837_2_alg».proof.Proof.RefRunFast
import proofs.«113021_j41188736368837_2_alg».proof.Proof.BitsBody
import proofs.«113021_j41188736368837_2_alg».proof.Proof.IdealRun
import proofs.«113021_j41188736368837_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame (F := Bits) m ρ

theorem frame_ideal : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- From memories agreeing on the arguments both idealized programs run, to one result: the cell on every batch row. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S256x32768 (Cert.KernelIdeal.CellValue.Gout m c) Cert.KernelIdeal.Gen.shapeCasts_S256x512x64_S256x32768,
    Cert.KernelIdeal.CellValue.run m ρ, ?_⟩
  refine (θ_run Cert.ReferenceIdeal.defs _ _).mono (fun _ h c => ⟨(h c).1.trans ?_, (h c).2⟩)
    (Cert.ReferenceIdeal.RunP.run (F := Ideal) m' ρ')
  exact Cert.Gru.Bridge.result_same m m' c (hagree c).1 (hagree c).2.1 (hagree c).2.2.1 (hagree c).2.2.2.1 (hagree c).2.2.2.2.1
    (hagree c).2.2.2.2.2.1 (hagree c).2.2.2.2.2.2

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
